-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S2000000 : Shape := ⟨1, ![2000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg4 : FVec F S3x64x64 .f32) (main_arg5 : FVec F S3x64 .f32) (main_arg6 : FVec F S2000000 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S2000000 .f32 := Host.absf main_arg6
  let main_cst_10 : FVec F S_ .f32 := constant S_ .f32 0x7F800000#32
  let main_v30 : FVec F S2000000 .f32 := broadcastInDim S2000000 ![] bcast_S_S2000000 main_cst_10
  let main_v31 : IVec S2000000 1 := cmpf .olt main_v29 main_v30
  let main_c_11 : IVec S_ 1 := constantI S_ 1 1#1
  let main_v32 : IVec S_ 1 := (fun x v => Host.reduce IntOp.andi x v reducesTo_S2000000_S_d0 h_S_) main_v31 main_c_11
  let main_v33 : IVec S_ 1 := andi main_v28 main_v32
  main_v33

def fn {F : FTy → Type} [FloatOps F] (main_arg0 : FVec F S100000x64 .f32) (main_arg1 : FVec F S50000x64 .f32) (main_arg2 : FVec F S3x64x64 .f32) (main_arg3 : FVec F S3x64 .f32) (main_arg4 : FVec F S3x64x64 .f32) (main_arg5 : FVec F S3x64 .f32) (main_arg6 : FVec F S2000000 .f32) (main_arg7 : IVec S2000000 32) (main_arg8 : IVec S2000000 32) (main_arg9 : IVec S4096 32) (main_arg10 : IVec S4096 32) (main_arg11 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_v13 main_v16
-- ==== Kernel.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S2000000 : Shape := ⟨1, ![2000000]⟩
abbrev S4096 : Shape := ⟨1, ![4096]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S10000 : Shape := ⟨1, ![10000]⟩
abbrev S10000x1 : Shape := ⟨2, ![10000, 1]⟩
abbrev S150000x256 : Shape := ⟨2, ![150000, 256]⟩
abbrev S100000x256 : Shape := ⟨2, ![100000, 256]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 127
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S3x64, .f32⟩
  | .hbm, ⟨6, _⟩ => ⟨S2000000, .f32⟩
  | .hbm, ⟨7, _⟩ => ⟨S2000000, .i32⟩
  | .hbm, ⟨8, _⟩ => ⟨S2000000, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S150000x64, .f32⟩
  | .hbm, ⟨13, _⟩ => ⟨S2000000x1, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x64, .f32⟩
  | .hbm, ⟨23, _⟩ => ⟨S2000000x64, .f32⟩
  | .hbm, ⟨24, _⟩ => ⟨S2000000x64, .f32⟩
  | .hbm, ⟨25, _⟩ => ⟨S_, .f32⟩
  | .hbm, ⟨26, _⟩ => ⟨S150000x64, .f32⟩
  | .hbm, ⟨27, _⟩ => ⟨S2000000x1, .i32⟩
  | .hbm, ⟨28, _⟩ => ⟨S150000x64, .f32⟩
  | .hbm, ⟨29, _⟩ => ⟨S1x64x64, .f32⟩
  | .hbm, ⟨30, _⟩ => ⟨S64x64, .f32⟩
  | .hbm, ⟨31, _⟩ => ⟨S1x64, .f32⟩
  | .hbm, ⟨32, _⟩ => ⟨S64, .f32⟩
  | .hbm, ⟨33, _⟩ => ⟨S1x64x64, .f32⟩
  | .hbm, ⟨34, _⟩ => ⟨S64x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S1x64, .f32⟩
  | .hbm, ⟨39, _⟩ => ⟨S150000x64, .f32⟩
  | .hbm, ⟨40, _⟩ => ⟨S150000x64, .f32⟩
  | .hbm, ⟨41, _⟩ => ⟨S2000000x1, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000x64, .f32⟩
  | .hbm, ⟨51, _⟩ => ⟨S2000000x64, .f32⟩
  | .hbm, ⟨52, _⟩ => ⟨S2000000x64, .f32⟩
  | .hbm, ⟨53, _⟩ => ⟨S_, .f32⟩
  | .hbm, ⟨54, _⟩ => ⟨S150000x64, .f32⟩
  | .hbm, ⟨55, _⟩ => ⟨S2000000x1, .i32⟩
  | .hbm, ⟨56, _⟩ => ⟨S150000x64, .f32⟩
  | .hbm, ⟨57, _⟩ => ⟨S1x64x64, .f32⟩
  | .hbm, ⟨58, _⟩ => ⟨S64x64, .f32⟩
  | .hbm, ⟨59, _⟩ => ⟨S1x64, .f32⟩
  | .hbm, ⟨60, _⟩ => ⟨S64, .f32⟩
  | .hbm, ⟨61, _⟩ => ⟨S1x64x64, .f32⟩
  | .hbm, ⟨62, _⟩ => ⟨S64x64, .f32⟩
  | .hbm, ⟨63, _⟩ => ⟨S1x64, .f32⟩
  | .hbm, ⟨64, _⟩ => ⟨S64, .f32⟩
  | .hbm, ⟨65, _⟩ => ⟨S1x64, .f32⟩
  | .hbm, ⟨66, _⟩ => ⟨S1x64, .f32⟩
  | .hbm, ⟨67, _⟩ => ⟨S150000x64, .f32⟩
  | .hbm, ⟨68, _⟩ => ⟨S150000x64, .f32⟩
  | .hbm, ⟨69, _⟩ => ⟨S2000000x1, .f32⟩
  | .hbm, ⟨70, _⟩ => ⟨S_, .i32⟩
  | .hbm, ⟨71, _⟩ => ⟨S2000000, .i32⟩
  | .hbm, ⟨72, _⟩ => ⟨S2000000, .i1⟩
  | .hbm, ⟨73, _⟩ => ⟨S_, .i32⟩
  | .hbm, ⟨74, _⟩ => ⟨S2000000, .i32⟩
  | .hbm, ⟨75, _⟩ => ⟨S2000000, .i32⟩
  | .hbm, ⟨76, _⟩ => ⟨S2000000, .i32⟩
  | .hbm, ⟨77, _⟩ => ⟨S2000000x1, .i32⟩
  | .hbm, ⟨78, _⟩ => ⟨S2000000x64, .f32⟩
  | .hbm, ⟨79, _⟩ => ⟨S2000000x64, .f32⟩
  | .hbm, ⟨80, _⟩ => ⟨S2000000x64, .f32⟩
  | .hbm, ⟨81, _⟩ => ⟨S_, .f32⟩
  | .hbm, ⟨82, _⟩ => ⟨S150000x64, .f32⟩
  | .hbm, ⟨83, _⟩ => ⟨S2000000x1, .i32⟩
  | .hbm, ⟨84, _⟩ => ⟨S150000x64, .f32⟩
  | .hbm, ⟨85, _⟩ => ⟨S1x64x64, .f32⟩
  | .hbm, ⟨86, _⟩ => ⟨S64x64, .f32⟩
  | .hbm, ⟨87, _⟩ => ⟨S1x64, .f32⟩
  | .hbm, ⟨88, _⟩ => ⟨S64, .f32⟩
  | .hbm, ⟨89, _⟩ => ⟨S1x64x64, .f32⟩
  | .hbm, ⟨90, _⟩ => ⟨S64x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S1x64, .f32⟩
  | .hbm, ⟨95, _⟩ => ⟨S150000x64, .f32⟩
  | .hbm, ⟨96, _⟩ => ⟨S150000x64, .f32⟩
  | .hbm, ⟨97, _⟩ => ⟨S150000x256, .f32⟩
  | .hbm, ⟨98, _⟩ => ⟨S100000x256, .f32⟩
  | .hbm, ⟨99, _⟩ => ⟨S50000x256, .f32⟩
  | .hbm, ⟨100, _⟩ => ⟨S_, .i32⟩
  | .hbm, ⟨101, _⟩ => ⟨S4096, .i32⟩
  | .hbm, ⟨102, _⟩ => ⟨S4096, .i1⟩
  | .hbm, ⟨103, _⟩ => ⟨S_, .i32⟩
  | .hbm, ⟨104, _⟩ => ⟨S4096, .i32⟩
  | .hbm, ⟨105, _⟩ => ⟨S4096, .i32⟩
  | .hbm, ⟨106, _⟩ => ⟨S4096, .i32⟩
  | .hbm, ⟨107, _⟩ => ⟨S4096x1, .i32⟩
  | .hbm, ⟨108, _⟩ => ⟨S4096x256, .f32⟩
  | .hbm, ⟨109, _⟩ => ⟨S_, .i32⟩
  | .hbm, ⟨110, _⟩ => ⟨S4096, .i32⟩
  | .hbm, ⟨111, _⟩ => ⟨S4096, .i1⟩
  | .hbm, ⟨112, _⟩ => ⟨S_, .i32⟩
  | .hbm, ⟨113, _⟩ => ⟨S4096, .i32⟩
  | .hbm, ⟨114, _⟩ => ⟨S4096, .i32⟩
  | .hbm, ⟨115, _⟩ => ⟨S4096, .i32⟩
  | .hbm, ⟨116, _⟩ => ⟨S4096x1, .i32⟩
  | .hbm, ⟨117, _⟩ => ⟨S4096x256, .f32⟩
  | .hbm, ⟨118, _⟩ => ⟨S_, .i32⟩
  | .hbm, ⟨119, _⟩ => ⟨S4096, .i32⟩
  | .hbm, ⟨120, _⟩ => ⟨S4096, .i1⟩
  | .hbm, ⟨121, _⟩ => ⟨S_, .i32⟩
  | .hbm, ⟨122, _⟩ => ⟨S4096, .i32⟩
  | .hbm, ⟨123, _⟩ => ⟨S4096, .i32⟩
  | .hbm, ⟨124, _⟩ => ⟨S4096, .i32⟩
  | .hbm, ⟨125, _⟩ => ⟨S4096x1, .i32⟩
  | .hbm, ⟨126, _⟩ => ⟨S4096x256, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72_0 : Ref sig .tc := ⟨.hbm, 95, rfl⟩
abbrev main_v72_1 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_7 : Ref sig .tc := ⟨.hbm, 100, rfl⟩
abbrev main_v76 : Ref sig .tc := ⟨.hbm, 101, rfl⟩
abbrev main_v77 : Ref sig .tc := ⟨.hbm, 102, rfl⟩
abbrev main_c_8 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_9 : Ref sig .tc := ⟨.hbm, 109, rfl⟩
abbrev main_v83 : Ref sig .tc := ⟨.hbm, 110, rfl⟩
abbrev main_v84 : Ref sig .tc := ⟨.hbm, 111, rfl⟩
abbrev main_c_10 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_11 : Ref sig .tc := ⟨.hbm, 118, rfl⟩
abbrev main_v90 : Ref sig .tc := ⟨.hbm, 119, rfl⟩
abbrev main_v91 : Ref sig .tc := ⟨.hbm, 120, rfl⟩
abbrev main_c_12 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  slices_S150000x256_S50000x256_100000_0 : S150000x256.Slices ![100000, 0] S50000x256
  bcast_S_S4096 : S_.BroadcastsInDim S4096 (![] : Fin 0 → Fin S4096.rank)
  bcast_S4096_S4096x1_0 : S4096.BroadcastsInDim S4096x1 (![0] : Fin 1 → Fin S4096x1.rank)
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S10000x64_S64x64_S10000x64_1_0_0_1_n_n_wf : DotDims.WF S10000x64 S64x64 S10000x64 [1] [0] [0] [1] [] []
  gather_S100000x256_S4096x1_S4096x256_1_0_n_n_0_1_1256_wf : GatherDims.WF S100000x256 S4096x1 S4096x256 [1] [0] [] [0] [] 1 ![1, 256]
  gather_S50000x256_S4096x1_S4096x256_1_0_n_n_0_1_1256_wf : GatherDims.WF S50000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S150000x64.size a
  hwx0_1 : ∀ i : grid0.Coords, EltTy.bits .f32 = 32 ∨ (Rect.block (s := S150000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S150000x64.size a
  hwx0_6 : ∀ i : grid0.Coords, EltTy.bits .f32 = 32 ∨ (Rect.block (s := S150000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S150000x64.size a
  hwx0_7 : ∀ i : grid0.Coords, EltTy.bits .f32 = 32 ∨ (Rect.block (s := S150000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S150000x64.size a
  hwx1_6 : ∀ i : grid1.Coords, EltTy.bits .f32 = 32 ∨ (Rect.block (s := S150000x64) S10000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S150000x64.size a
  hwx1_7 : ∀ i : grid1.Coords, EltTy.bits .f32 = 32 ∨ (Rect.block (s := S150000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S150000x64.size a
  hwx2_1 : ∀ i : grid2.Coords, EltTy.bits .f32 = 32 ∨ (Rect.block (s := S150000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S150000x64.size a
  hwx2_6 : ∀ i : grid2.Coords, EltTy.bits .f32 = 32 ∨ (Rect.block (s := S150000x64) S10000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S150000x64.size a
  hwx2_7 : ∀ i : grid2.Coords, EltTy.bits .f32 = 32 ∨ (Rect.block (s := S150000x64) S10000x64.size (cc2_transform_7 i) (hinb2_7 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

abbrev win0_0 : Pipeline.Window sig grid0 :=
  Pipeline.Window.ofSpec (Memref.whole main_v0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_0) S10000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v48_1) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v48_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72_0) S10000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_1) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S2000000 : Shape := ⟨1, ![2000000]⟩
abbrev S4096 : Shape := ⟨1, ![4096]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000 : Shape := ⟨1, ![150000]⟩
abbrev S150000x1 : Shape := ⟨2, ![150000, 1]⟩
abbrev S150000x256 : Shape := ⟨2, ![150000, 256]⟩
abbrev S100000x256 : Shape := ⟨2, ![100000, 256]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 199
  | .vmem => 0
  | .smem => 0
  | _ => 0

abbrev hbmTy0_0 (i : Nat) : BufTy := match i % 128 with
  | 0 => ⟨S100000x64, .f32⟩
  | 1 => ⟨S50000x64, .f32⟩
  | 2 => ⟨S3x64x64, .f32⟩
  | 3 => ⟨S3x64, .f32⟩
  | 4 => ⟨S3x64x64, .f32⟩
  | 5 => ⟨S3x64, .f32⟩
  | 6 => ⟨S2000000, .f32⟩
  | 7 => ⟨S2000000, .i32⟩
  | 8 => ⟨S2000000, .i32⟩
  | 9 => ⟨S4096, .i32⟩
  | 10 => ⟨S4096, .i32⟩
  | 11 => ⟨S4096, .i32⟩
  | 12 => ⟨S150000x64, .f32⟩
  | 13 => ⟨S2000000x1, .f32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S2000000x64, .f32⟩
  | 24 => ⟨S2000000x64, .f32⟩
  | 25 => ⟨S_, .f32⟩
  | 26 => ⟨S150000x64, .f32⟩
  | 27 => ⟨S2000000x1, .i32⟩
  | 28 => ⟨S150000x64, .f32⟩
  | 29 => ⟨S150000x64, .f32⟩
  | 30 => ⟨S1x64x64, .f32⟩
  | 31 => ⟨S64x64, .f32⟩
  | 32 => ⟨S150000x64, .f32⟩
  | 33 => ⟨S1x64, .f32⟩
  | 34 => ⟨S64, .f32⟩
  | 35 => ⟨S1x64, .f32⟩
  | 36 => ⟨S150000x64, .f32⟩
  | 37 => ⟨S150000x64, .f32⟩
  | 38 => ⟨S1x64x64, .f32⟩
  | 39 => ⟨S64x64, .f32⟩
  | 40 => ⟨S150000x64, .f32⟩
  | 41 => ⟨S150000x64, .f32⟩
  | 42 => ⟨S1x64, .f32⟩
  | 43 => ⟨S64, .f32⟩
  | 44 => ⟨S1x64, .f32⟩
  | 45 => ⟨S150000x64, .f32⟩
  | 46 => ⟨S150000x64, .f32⟩
  | 47 => ⟨S_, .f32⟩
  | 48 => ⟨S_, .f32⟩
  | 49 => ⟨S150000x64, .f32⟩
  | 50 => ⟨S150000x64, .i1⟩
  | 51 => ⟨S_, .f32⟩
  | 52 => ⟨S150000x64, .f32⟩
  | 53 => ⟨S150000x64, .f32⟩
  | 54 => ⟨S150000x64, .f32⟩
  | 55 => ⟨S150000x64, .f32⟩
  | 56 => ⟨S_, .f32⟩
  | 57 => ⟨S150000, .f32⟩
  | 58 => ⟨S150000x1, .f32⟩
  | 59 => ⟨S150000x1, .f32⟩
  | 60 => ⟨S_, .f32⟩
  | 61 => ⟨S150000x1, .f32⟩
  | 62 => ⟨S150000x1, .f32⟩
  | 63 => ⟨S150000x64, .f32⟩
  | 64 => ⟨S150000x64, .f32⟩
  | 65 => ⟨S2000000x1, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x64, .f32⟩
  | 75 => ⟨S2000000x64, .f32⟩
  | 76 => ⟨S2000000x64, .f32⟩
  | 77 => ⟨S_, .f32⟩
  | 78 => ⟨S150000x64, .f32⟩
  | 79 => ⟨S2000000x1, .i32⟩
  | 80 => ⟨S150000x64, .f32⟩
  | 81 => ⟨S150000x64, .f32⟩
  | 82 => ⟨S1x64x64, .f32⟩
  | 83 => ⟨S64x64, .f32⟩
  | 84 => ⟨S150000x64, .f32⟩
  | 85 => ⟨S1x64, .f32⟩
  | 86 => ⟨S64, .f32⟩
  | 87 => ⟨S1x64, .f32⟩
  | 88 => ⟨S150000x64, .f32⟩
  | 89 => ⟨S150000x64, .f32⟩
  | 90 => ⟨S1x64x64, .f32⟩
  | 91 => ⟨S64x64, .f32⟩
  | 92 => ⟨S150000x64, .f32⟩
  | 93 => ⟨S150000x64, .f32⟩
  | 94 => ⟨S1x64, .f32⟩
  | 95 => ⟨S64, .f32⟩
  | 96 => ⟨S1x64, .f32⟩
  | 97 => ⟨S150000x64, .f32⟩
  | 98 => ⟨S150000x64, .f32⟩
  | 99 => ⟨S_, .f32⟩
  | 100 => ⟨S_, .f32⟩
  | 101 => ⟨S150000x64, .f32⟩
  | 102 => ⟨S150000x64, .i1⟩
  | 103 => ⟨S_, .f32⟩
  | 104 => ⟨S150000x64, .f32⟩
  | 105 => ⟨S150000x64, .f32⟩
  | 106 => ⟨S150000x64, .f32⟩
  | 107 => ⟨S150000x64, .f32⟩
  | 108 => ⟨S_, .f32⟩
  | 109 => ⟨S150000, .f32⟩
  | 110 => ⟨S150000x1, .f32⟩
  | 111 => ⟨S150000x1, .f32⟩
  | 112 => ⟨S_, .f32⟩
  | 113 => ⟨S150000x1, .f32⟩
  | 114 => ⟨S150000x1, .f32⟩
  | 115 => ⟨S150000x64, .f32⟩
  | 116 => ⟨S150000x64, .f32⟩
  | 117 => ⟨S2000000x1, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x64, .f32⟩
  | 127 => ⟨S2000000x64, .f32⟩
  | _ => ⟨S100000x64, .f32⟩

abbrev hbmTy0_1 (i : Nat) : BufTy := match i % 128 with
  | 0 => ⟨S2000000x64, .f32⟩
  | 1 => ⟨S_, .f32⟩
  | 2 => ⟨S150000x64, .f32⟩
  | 3 => ⟨S2000000x1, .i32⟩
  | 4 => ⟨S150000x64, .f32⟩
  | 5 => ⟨S150000x64, .f32⟩
  | 6 => ⟨S1x64x64, .f32⟩
  | 7 => ⟨S64x64, .f32⟩
  | 8 => ⟨S150000x64, .f32⟩
  | 9 => ⟨S1x64, .f32⟩
  | 10 => ⟨S64, .f32⟩
  | 11 => ⟨S1x64, .f32⟩
  | 12 => ⟨S150000x64, .f32⟩
  | 13 => ⟨S150000x64, .f32⟩
  | 14 => ⟨S1x64x64, .f32⟩
  | 15 => ⟨S64x64, .f32⟩
  | 16 => ⟨S150000x64, .f32⟩
  | 17 => ⟨S150000x64, .f32⟩
  | 18 => ⟨S1x64, .f32⟩
  | 19 => ⟨S64, .f32⟩
  | 20 => ⟨S1x64, .f32⟩
  | 21 => ⟨S150000x64, .f32⟩
  | 22 => ⟨S150000x64, .f32⟩
  | 23 => ⟨S_, .f32⟩
  | 24 => ⟨S_, .f32⟩
  | 25 => ⟨S150000x64, .f32⟩
  | 26 => ⟨S150000x64, .i1⟩
  | 27 => ⟨S_, .f32⟩
  | 28 => ⟨S150000x64, .f32⟩
  | 29 => ⟨S150000x64, .f32⟩
  | 30 => ⟨S150000x64, .f32⟩
  | 31 => ⟨S150000x64, .f32⟩
  | 32 => ⟨S_, .f32⟩
  | 33 => ⟨S150000, .f32⟩
  | 34 => ⟨S150000x1, .f32⟩
  | 35 => ⟨S150000x1, .f32⟩
  | 36 => ⟨S_, .f32⟩
  | 37 => ⟨S150000x1, .f32⟩
  | 38 => ⟨S150000x1, .f32⟩
  | 39 => ⟨S150000x64, .f32⟩
  | 40 => ⟨S150000x64, .f32⟩
  | 41 => ⟨S150000x256, .f32⟩
  | 42 => ⟨S100000x256, .f32⟩
  | 43 => ⟨S50000x256, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S4096x256, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x256, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_3 : Ref sig .tc := ⟨.hbm, 66, rfl⟩
abbrev main_v39 : Ref sig .tc := ⟨.hbm, 67, rfl⟩
abbrev main_v40 : Ref sig .tc := ⟨.hbm, 68, rfl⟩
abbrev main_c_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_6 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v69 : Ref sig .tc := ⟨.hbm, 106, rfl⟩
abbrev main_call3_v0 : Ref sig .tc := ⟨.hbm, 107, rfl⟩
abbrev main_call3_cst : Ref sig .tc := ⟨.hbm, 108, rfl⟩
abbrev main_call3_v1 : Ref sig .tc := ⟨.hbm, 109, rfl⟩
abbrev main_call3_v2 : Ref sig .tc := ⟨.hbm, 110, rfl⟩
abbrev main_v70 : Ref sig .tc := ⟨.hbm, 111, rfl⟩
abbrev main_cst_7 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_8 : Ref sig .tc := ⟨.hbm, 118, rfl⟩
abbrev main_v76 : Ref sig .tc := ⟨.hbm, 119, rfl⟩
abbrev main_v77 : Ref sig .tc := ⟨.hbm, 120, rfl⟩
abbrev main_c_9 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_10 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_11 : Ref sig .tc := ⟨.hbm, 151, rfl⟩
abbrev main_call4_cst : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v106 : Ref sig .tc := ⟨.hbm, 158, rfl⟩
abbrev main_call5_v0 : Ref sig .tc := ⟨.hbm, 159, rfl⟩
abbrev main_call5_cst : Ref sig .tc := ⟨.hbm, 160, rfl⟩
abbrev main_call5_v1 : Ref sig .tc := ⟨.hbm, 161, rfl⟩
abbrev main_call5_v2 : Ref sig .tc := ⟨.hbm, 162, rfl⟩
abbrev main_v107 : Ref sig .tc := ⟨.hbm, 163, rfl⟩
abbrev main_cst_12 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_13 : Ref sig .tc := ⟨.hbm, 172, rfl⟩
abbrev main_v115 : Ref sig .tc := ⟨.hbm, 173, rfl⟩
abbrev main_v116 : Ref sig .tc := ⟨.hbm, 174, rfl⟩
abbrev main_c_14 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_c_15 : Ref sig .tc := ⟨.hbm, 181, rfl⟩
abbrev main_v122 : Ref sig .tc := ⟨.hbm, 182, rfl⟩
abbrev main_v123 : Ref sig .tc := ⟨.hbm, 183, rfl⟩
abbrev main_c_16 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_c_17 : Ref sig .tc := ⟨.hbm, 190, rfl⟩
abbrev main_v129 : Ref sig .tc := ⟨.hbm, 191, rfl⟩
abbrev main_v130 : Ref sig .tc := ⟨.hbm, 192, rfl⟩
abbrev main_c_18 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  slices_S150000x256_S50000x256_100000_0 : S150000x256.Slices ![100000, 0] S50000x256
  bcast_S_S4096 : S_.BroadcastsInDim S4096 (![] : Fin 0 → Fin S4096.rank)
  bcast_S4096_S4096x1_0 : S4096.BroadcastsInDim S4096x1 (![0] : Fin 1 → Fin S4096x1.rank)
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S150000x64_S64x64_S150000x64_1_0_0_1_n_n_wf : DotDims.WF S150000x64 S64x64 S150000x64 [1] [0] [0] [1] [] []
  gather_S100000x256_S4096x1_S4096x256_1_0_n_n_0_1_1256_wf : GatherDims.WF S100000x256 S4096x1 S4096x256 [1] [0] [] [0] [] 1 ![1, 256]
  gather_S50000x256_S4096x1_S4096x256_1_0_n_n_0_1_1256_wf : GatherDims.WF S50000x256 S4096x1 S4096x256 [1] [0] [] [0] [] 1 ![1, 256]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

class Facts : Prop extends Facts₀ where

variable [Facts]
-- ==== Proof.KFrame0.lean ====
/-
  Pallas call 0 of the kernel program, at the contents V the TensorCore's buffers hold when the call is
  entered: each window's block at a grid point, what one run of the body leaves in the two output staging buffers
  (the layer's un-normalised rows and its normalised rows, each stored whole), the body's triple, the pipeline's
  proof data and the body obligation at every grid point.
-/
import proofs.«133046_j55070070670115_1_alg».proof.Proof.Gen.Kernel.Launch
import proofs.«133046_j55070070670115_1_alg».proof.Proof.Gen.Kernel.Skeleton
import proofs.«133046_j55070070670115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every grid point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every grid point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every grid point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a row block, of a weight matrix and of a bias row. -/
abbrev r0_a : Rect S10000x64 := Rect.unit (s := S10000x64) ![0, 0] S10000x64.size inb_S10000x64_S10000x64_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- Output window 6's staging buffer after the body: the un-normalised rows of the six input blocks, stored whole. -/
def out0_6 (x0 x1 : Vec F S10000x64 .f32) (x2 : Vec F S64x64 .f32) (x3 : Vec F S1x64 .f32) (x4 : Vec F S64x64 .f32) (x5 : Vec F S1x64 .f32) : Vec F S10000x64 .f32 :=
  View.canon [⟨r0_a, k0_pay1 (View.ld x0 r0_a) (View.ld x1 r0_a) (View.ld x2 r0_w) (View.ld x3 r0_b) (View.ld x4 r0_w) (View.ld x5 r0_b)⟩]
/-- Output window 7's staging buffer after the body: the normalised rows, stored whole. -/
def out0_7 (x0 x1 : Vec F S10000x64 .f32) (x2 : Vec F S64x64 .f32) (x3 : Vec F S1x64 .f32) (x4 : Vec F S64x64 .f32) (x5 : Vec F S1x64 .f32) : Vec F S10000x64 .f32 :=
  View.canon [⟨r0_a, k0_pay2 (View.ld x0 r0_a) (View.ld x1 r0_a) (View.ld x2 r0_w) (View.ld x3 r0_b) (View.ld x4 r0_w) (View.ld x5 r0_b)⟩]

/-- One whole-block store covers the buffer. -/
theorem cover0_a (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

set_option maxHeartbeats 4000000 in
/-- The body on whole staging memrefs, the six inputs' at read contents and the two outputs' at anything, runs to the
    continuation holding the inputs' as they were and the outputs' at `out0_6` and `out0_7` of the inputs'. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__ngcf_layer_kernel i arg1 harg1 arg2 harg2 arg3 harg3 arg4 harg4 arg5 harg5 arg6 harg6 arg7 harg7 arg8 harg8) K := by
  simp only [cc0__ngcf_layer_kernel_eq_skeleton]; unfold cc0__ngcf_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  iexists _; isplitr
  swap; · iexact H7
  ipureintro
  exact View.read_writes_eq_canon _ _ _ (cover0_a _)

/-- The proof data of pipeline 0 on core c: the arrays as the call finds them; after the body at point t each input's
    buffer at its block and each output's at the body's value of the six input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any grid point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KFrame1.lean ====
/-
  Pallas call 1 of the kernel program, at the contents V the TensorCore's buffers hold when the call is
  entered: each window's block at a grid point, what one run of the body leaves in the two output staging buffers
  (the layer's un-normalised rows and its normalised rows, each stored whole), the body's triple, the pipeline's
  proof data and the body obligation at every grid point.
-/
import proofs.«133046_j55070070670115_1_alg».proof.Proof.Gen.Kernel.Launch
import proofs.«133046_j55070070670115_1_alg».proof.Proof.Gen.Kernel.Skeleton
import proofs.«133046_j55070070670115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every grid point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of a row block, of a weight matrix and of a bias row. -/
abbrev r1_a : Rect S10000x64 := Rect.unit (s := S10000x64) ![0, 0] S10000x64.size inb_S10000x64_S10000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

/-- Output window 6's staging buffer after the body: the un-normalised rows of the six input blocks, stored whole. -/
def out1_6 (x0 x1 : Vec F S10000x64 .f32) (x2 : Vec F S64x64 .f32) (x3 : Vec F S1x64 .f32) (x4 : Vec F S64x64 .f32) (x5 : Vec F S1x64 .f32) : Vec F S10000x64 .f32 :=
  View.canon [⟨r1_a, k1_pay1 (View.ld x0 r1_a) (View.ld x1 r1_a) (View.ld x2 r1_w) (View.ld x3 r1_b) (View.ld x4 r1_w) (View.ld x5 r1_b)⟩]
/-- Output window 7's staging buffer after the body: the normalised rows, stored whole. -/
def out1_7 (x0 x1 : Vec F S10000x64 .f32) (x2 : Vec F S64x64 .f32) (x3 : Vec F S1x64 .f32) (x4 : Vec F S64x64 .f32) (x5 : Vec F S1x64 .f32) : Vec F S10000x64 .f32 :=
  View.canon [⟨r1_a, k1_pay2 (View.ld x0 r1_a) (View.ld x1 r1_a) (View.ld x2 r1_w) (View.ld x3 r1_b) (View.ld x4 r1_w) (View.ld x5 r1_b)⟩]

/-- One whole-block store covers the buffer. -/
theorem cover1_a (p0 : Vec F S10000x64 .f32) (y : S10000x64.Idx) :
    ∃ pc ∈ ([⟨r1_a, p0⟩] : List (View.Piece (Elt F) S10000x64 .f32)), y ∈ pc.1.set :=
  View.cover_of_tiled [⟨r1_a, p0⟩] S10000x64.size (by rfl) y

set_option maxHeartbeats 4000000 in
/-- The body on whole staging memrefs, the six inputs' at read contents and the two outputs' at anything, runs to the
    continuation holding the inputs' as they were and the outputs' at `out1_6` and `out1_7` of the inputs'. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__ngcf_layer_kernel i arg1 harg1 arg2 harg2 arg3 harg3 arg4 harg4 arg5 harg5 arg6 harg6 arg7 harg7 arg8 harg8) K := by
  simp only [cc1__ngcf_layer_kernel_eq_skeleton]; unfold cc1__ngcf_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_a _)
  iexists _; isplitr
  swap; · iexact H7
  ipureintro
  exact View.read_writes_eq_canon _ _ _ (cover1_a _)

/-- The proof data of pipeline 1 on core c: the arrays as the call finds them; after the body at point t each input's
    buffer at its block and each output's at the body's value of the six input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any grid point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KFrame2.lean ====
/-
  Pallas call 2 of the kernel program, at the contents V the TensorCore's buffers hold when the call is
  entered: each window's block at a grid point, what one run of the body leaves in the two output staging buffers
  (the layer's un-normalised rows and its normalised rows, each stored whole), the body's triple, the pipeline's
  proof data and the body obligation at every grid point.
-/
import proofs.«133046_j55070070670115_1_alg».proof.Proof.Gen.Kernel.Launch
import proofs.«133046_j55070070670115_1_alg».proof.Proof.Gen.Kernel.Skeleton
import proofs.«133046_j55070070670115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every grid point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every grid point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of a row block, of a weight matrix and of a bias row. -/
abbrev r2_a : Rect S10000x64 := Rect.unit (s := S10000x64) ![0, 0] S10000x64.size inb_S10000x64_S10000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0

/-- Output window 6's staging buffer after the body: the un-normalised rows of the six input blocks, stored whole. -/
def out2_6 (x0 x1 : Vec F S10000x64 .f32) (x2 : Vec F S64x64 .f32) (x3 : Vec F S1x64 .f32) (x4 : Vec F S64x64 .f32) (x5 : Vec F S1x64 .f32) : Vec F S10000x64 .f32 :=
  View.canon [⟨r2_a, k2_pay1 (View.ld x0 r2_a) (View.ld x1 r2_a) (View.ld x2 r2_w) (View.ld x3 r2_b) (View.ld x4 r2_w) (View.ld x5 r2_b)⟩]
/-- Output window 7's staging buffer after the body: the normalised rows, stored whole. -/
def out2_7 (x0 x1 : Vec F S10000x64 .f32) (x2 : Vec F S64x64 .f32) (x3 : Vec F S1x64 .f32) (x4 : Vec F S64x64 .f32) (x5 : Vec F S1x64 .f32) : Vec F S10000x64 .f32 :=
  View.canon [⟨r2_a, k2_pay2 (View.ld x0 r2_a) (View.ld x1 r2_a) (View.ld x2 r2_w) (View.ld x3 r2_b) (View.ld x4 r2_w) (View.ld x5 r2_b)⟩]

/-- One whole-block store covers the buffer. -/
theorem cover2_a (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

set_option maxHeartbeats 4000000 in
/-- The body on whole staging memrefs, the six inputs' at read contents and the two outputs' at anything, runs to the
    continuation holding the inputs' as they were and the outputs' at `out2_6` and `out2_7` of the inputs'. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__ngcf_layer_kernel i arg1 harg1 arg2 harg2 arg3 harg3 arg4 harg4 arg5 harg5 arg6 harg6 arg7 harg7 arg8 harg8) K := by
  simp only [cc2__ngcf_layer_kernel_eq_skeleton]; unfold cc2__ngcf_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  iexists _; isplitr
  swap; · iexact H7
  ipureintro
  exact View.read_writes_eq_canon _ _ _ (cover2_a _)

/-- The proof data of pipeline 2 on core c: the arrays as the call finds them; after the body at point t each input's
    buffer at its block and each output's at the body's value of the six input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any grid point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KRun.lean ====
/-
  The kernel program's run: the contents of the TensorCore's buffers at every boundary between a host
  stretch and a pallas call, as a fold from the launch memory; every pipeline's proof data at its call's entry
  contents; the three calls as segments between the four host stretches; and the run itself — every weakly fair
  execution of the program terminates, and in the final state every unscoped buffer holds the last boundary's contents.
  The frame (each argument array ends as launched) is read off that.
-/
import proofs.«133046_j55070070670115_1_alg».proof.Proof.KFrame0
import proofs.«133046_j55070070670115_1_alg».proof.Proof.KFrame1
import proofs.«133046_j55070070670115_1_alg».proof.Proof.KFrame2
import proofs.«133046_j55070070670115_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)

/-- After the host stretch before pallas call 0 (the call's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At pallas call 0's exit: its arrays at what the pipeline leaves (the inputs as entered, each output's write-backs
    folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem W1_of (c : Dev nD) (r : Ref sig .tc) (h : r ∉ hostOps0_W) : W1 m c (Proc.devRef .tc r) = W0 m c (Proc.devRef .tc r) :=
  StableHlo.after_of_writes_sub hostOps0 _ hostOps0_writes h

/-- After the host stretch before pallas call 1 (the call's entry). -/
abbrev W3 : Dev nD → Valuation τ sig (Elt F) := fun c => StableHlo.after hostOps1 (W2 m c)
/-- The same read at the TensorCore's references. -/
abbrev U3 : (c : Dev nD) → (b : Ref sig .tc) → Buf (Elt F) ((c : Thread nD τ).loc b) := fun c b => W3 m c b
/-- At pallas call 1's exit: its arrays at what the pipeline leaves (the inputs as entered, each output's write-backs
    folded), every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem W3_of (c : Dev nD) (r : Ref sig .tc) (h : r ∉ hostOps1_W) : W3 m c (Proc.devRef .tc r) = W2 m c (Proc.devRef .tc r) :=
  StableHlo.after_of_writes_sub hostOps1 _ hostOps1_writes h

/-- After the host stretch before pallas call 2 (the call's entry). -/
abbrev W5 : Dev nD → Valuation τ sig (Elt F) := fun c => StableHlo.after hostOps2 (W4 m c)
/-- The same read at the TensorCore's references. -/
abbrev U5 : (c : Dev nD) → (b : Ref sig .tc) → Buf (Elt F) ((c : Thread nD τ).loc b) := fun c b => W5 m c b
/-- At pallas call 2's exit: its arrays at what the pipeline leaves (the inputs as entered, each output's write-backs
    folded), every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
theorem W5_of (c : Dev nD) (r : Ref sig .tc) (h : r ∉ hostOps2_W) : W5 m c (Proc.devRef .tc r) = W4 m c (Proc.devRef .tc r) :=
  StableHlo.after_of_writes_sub hostOps2 _ hostOps2_writes h

/-- After the last host stretch: the contents the program ends with. -/
abbrev W7 : Dev nD → Valuation τ sig (Elt F) := fun c => StableHlo.after hostOps3 (W6 m c)
theorem W7_of (c : Dev nD) (r : Ref sig .tc) (h : r ∉ hostOps3_W) : W7 m c (Proc.devRef .tc r) = W6 m c (Proc.devRef .tc r) :=
  StableHlo.after_of_writes_sub hostOps3 _ hostOps3_writes h

/-- A buffer that no host stretch writes and that is no window's array ends as launched. -/
theorem W7_launch (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m c (Proc.devRef .tc r) = m ((c : Thread nD τ).loc r) :=
  (W7_of m c r h3).trans <| (W6_of_ne m c r n2).trans <| (W5_of m c r h2).trans <| (W4_of_ne m c r n1).trans <|
    (W3_of m c r h1).trans <| (W2_of_ne m c r n0).trans <| (W1_of m c r h0).trans rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m c) ∗ ∃ r, prngReg c r)

/-! ## The pallas calls as segments -/

set_option backward.isDefEq.respectTransparency.types false in
/-- Pallas call 0 over the thread state: entered from every unscoped buffer at `W1`, left at `W2`. Its arrays
    are split out of the unscoped buffers and put back at the exit contents; the generator register goes into the
    class invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W3`, left at `W4`. Its arrays
    are split out of the unscoped buffers and put back at the exit contents; the generator register goes into the
    class invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `W5`, left at `W6`. Its arrays
    are split out of the unscoped buffers and put back at the exit contents; the generator register goes into the
    class invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and in every final state each unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Frm

end
-- ==== Proof.IFrame0.lean ====
/-
  Pallas call 0 of the idealized kernel program, at the contents V the TensorCore's buffers hold when the call is
  entered: each window's block at a grid point, what one run of the body leaves in the two output staging buffers
  (the layer's un-normalised rows and its normalised rows, each stored whole), the body's triple, the pipeline's
  proof data and the body obligation at every grid point.
-/
import proofs.«133046_j55070070670115_1_alg».proof.Proof.Gen.KernelIdeal.Launch
import proofs.«133046_j55070070670115_1_alg».proof.Proof.Gen.KernelIdeal.Skeleton
import proofs.«133046_j55070070670115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every grid point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every grid point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every grid point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a row block, of a weight matrix and of a bias row. -/
abbrev r0_a : Rect S10000x64 := Rect.unit (s := S10000x64) ![0, 0] S10000x64.size inb_S10000x64_S10000x64_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- Output window 6's staging buffer after the body: the un-normalised rows of the six input blocks, stored whole. -/
def out0_6 (x0 x1 : Vec F S10000x64 .f32) (x2 : Vec F S64x64 .f32) (x3 : Vec F S1x64 .f32) (x4 : Vec F S64x64 .f32) (x5 : Vec F S1x64 .f32) : Vec F S10000x64 .f32 :=
  View.canon [⟨r0_a, k0_pay1 (View.ld x0 r0_a) (View.ld x1 r0_a) (View.ld x2 r0_w) (View.ld x3 r0_b) (View.ld x4 r0_w) (View.ld x5 r0_b)⟩]
/-- Output window 7's staging buffer after the body: the normalised rows, stored whole. -/
def out0_7 (x0 x1 : Vec F S10000x64 .f32) (x2 : Vec F S64x64 .f32) (x3 : Vec F S1x64 .f32) (x4 : Vec F S64x64 .f32) (x5 : Vec F S1x64 .f32) : Vec F S10000x64 .f32 :=
  View.canon [⟨r0_a, k0_pay2 (View.ld x0 r0_a) (View.ld x1 r0_a) (View.ld x2 r0_w) (View.ld x3 r0_b) (View.ld x4 r0_w) (View.ld x5 r0_b)⟩]

/-- One whole-block store covers the buffer. -/
theorem cover0_a (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

set_option maxHeartbeats 4000000 in
/-- The body on whole staging memrefs, the six inputs' at read contents and the two outputs' at anything, runs to the
    continuation holding the inputs' as they were and the outputs' at `out0_6` and `out0_7` of the inputs'. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__ngcf_layer_kernel i arg1 harg1 arg2 harg2 arg3 harg3 arg4 harg4 arg5 harg5 arg6 harg6 arg7 harg7 arg8 harg8) K := by
  simp only [cc0__ngcf_layer_kernel_eq_skeleton]; unfold cc0__ngcf_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_a _)
  iexists _; isplitr
  swap; · iexact H7
  ipureintro
  exact View.read_writes_eq_canon _ _ _ (cover0_a _)

/-- The proof data of pipeline 0 on core c: the arrays as the call finds them; after the body at point t each input's
    buffer at its block and each output's at the body's value of the six input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any grid point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.IFrame1.lean ====
/-
  Pallas call 1 of the idealized kernel program, at the contents V the TensorCore's buffers hold when the call is
  entered: each window's block at a grid point, what one run of the body leaves in the two output staging buffers
  (the layer's un-normalised rows and its normalised rows, each stored whole), the body's triple, the pipeline's
  proof data and the body obligation at every grid point.
-/
import proofs.«133046_j55070070670115_1_alg».proof.Proof.Gen.KernelIdeal.Launch
import proofs.«133046_j55070070670115_1_alg».proof.Proof.Gen.KernelIdeal.Skeleton
import proofs.«133046_j55070070670115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every grid point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of a row block, of a weight matrix and of a bias row. -/
abbrev r1_a : Rect S10000x64 := Rect.unit (s := S10000x64) ![0, 0] S10000x64.size inb_S10000x64_S10000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

/-- Output window 6's staging buffer after the body: the un-normalised rows of the six input blocks, stored whole. -/
def out1_6 (x0 x1 : Vec F S10000x64 .f32) (x2 : Vec F S64x64 .f32) (x3 : Vec F S1x64 .f32) (x4 : Vec F S64x64 .f32) (x5 : Vec F S1x64 .f32) : Vec F S10000x64 .f32 :=
  View.canon [⟨r1_a, k1_pay1 (View.ld x0 r1_a) (View.ld x1 r1_a) (View.ld x2 r1_w) (View.ld x3 r1_b) (View.ld x4 r1_w) (View.ld x5 r1_b)⟩]
/-- Output window 7's staging buffer after the body: the normalised rows, stored whole. -/
def out1_7 (x0 x1 : Vec F S10000x64 .f32) (x2 : Vec F S64x64 .f32) (x3 : Vec F S1x64 .f32) (x4 : Vec F S64x64 .f32) (x5 : Vec F S1x64 .f32) : Vec F S10000x64 .f32 :=
  View.canon [⟨r1_a, k1_pay2 (View.ld x0 r1_a) (View.ld x1 r1_a) (View.ld x2 r1_w) (View.ld x3 r1_b) (View.ld x4 r1_w) (View.ld x5 r1_b)⟩]

/-- One whole-block store covers the buffer. -/
theorem cover1_a (p0 : Vec F S10000x64 .f32) (y : S10000x64.Idx) :
    ∃ pc ∈ ([⟨r1_a, p0⟩] : List (View.Piece (Elt F) S10000x64 .f32)), y ∈ pc.1.set :=
  View.cover_of_tiled [⟨r1_a, p0⟩] S10000x64.size (by rfl) y

set_option maxHeartbeats 4000000 in
/-- The body on whole staging memrefs, the six inputs' at read contents and the two outputs' at anything, runs to the
    continuation holding the inputs' as they were and the outputs' at `out1_6` and `out1_7` of the inputs'. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__ngcf_layer_kernel i arg1 harg1 arg2 harg2 arg3 harg3 arg4 harg4 arg5 harg5 arg6 harg6 arg7 harg7 arg8 harg8) K := by
  simp only [cc1__ngcf_layer_kernel_eq_skeleton]; unfold cc1__ngcf_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_a _)
  iexists _; isplitr
  swap; · iexact H7
  ipureintro
  exact View.read_writes_eq_canon _ _ _ (cover1_a _)

/-- The proof data of pipeline 1 on core c: the arrays as the call finds them; after the body at point t each input's
    buffer at its block and each output's at the body's value of the six input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any grid point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.IFrame2.lean ====
/-
  Pallas call 2 of the idealized kernel program, at the contents V the TensorCore's buffers hold when the call is
  entered: each window's block at a grid point, what one run of the body leaves in the two output staging buffers
  (the layer's un-normalised rows and its normalised rows, each stored whole), the body's triple, the pipeline's
  proof data and the body obligation at every grid point.
-/
import proofs.«133046_j55070070670115_1_alg».proof.Proof.Gen.KernelIdeal.Launch
import proofs.«133046_j55070070670115_1_alg».proof.Proof.Gen.KernelIdeal.Skeleton
import proofs.«133046_j55070070670115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every grid point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every grid point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of a row block, of a weight matrix and of a bias row. -/
abbrev r2_a : Rect S10000x64 := Rect.unit (s := S10000x64) ![0, 0] S10000x64.size inb_S10000x64_S10000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0

/-- Output window 6's staging buffer after the body: the un-normalised rows of the six input blocks, stored whole. -/
def out2_6 (x0 x1 : Vec F S10000x64 .f32) (x2 : Vec F S64x64 .f32) (x3 : Vec F S1x64 .f32) (x4 : Vec F S64x64 .f32) (x5 : Vec F S1x64 .f32) : Vec F S10000x64 .f32 :=
  View.canon [⟨r2_a, k2_pay1 (View.ld x0 r2_a) (View.ld x1 r2_a) (View.ld x2 r2_w) (View.ld x3 r2_b) (View.ld x4 r2_w) (View.ld x5 r2_b)⟩]
/-- Output window 7's staging buffer after the body: the normalised rows, stored whole. -/
def out2_7 (x0 x1 : Vec F S10000x64 .f32) (x2 : Vec F S64x64 .f32) (x3 : Vec F S1x64 .f32) (x4 : Vec F S64x64 .f32) (x5 : Vec F S1x64 .f32) : Vec F S10000x64 .f32 :=
  View.canon [⟨r2_a, k2_pay2 (View.ld x0 r2_a) (View.ld x1 r2_a) (View.ld x2 r2_w) (View.ld x3 r2_b) (View.ld x4 r2_w) (View.ld x5 r2_b)⟩]

/-- One whole-block store covers the buffer. -/
theorem cover2_a (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

set_option maxHeartbeats 4000000 in
/-- The body on whole staging memrefs, the six inputs' at read contents and the two outputs' at anything, runs to the
    continuation holding the inputs' as they were and the outputs' at `out2_6` and `out2_7` of the inputs'. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__ngcf_layer_kernel i arg1 harg1 arg2 harg2 arg3 harg3 arg4 harg4 arg5 harg5 arg6 harg6 arg7 harg7 arg8 harg8) K := by
  simp only [cc2__ngcf_layer_kernel_eq_skeleton]; unfold cc2__ngcf_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_a _)
  iexists _; isplitr
  swap; · iexact H7
  ipureintro
  exact View.read_writes_eq_canon _ _ _ (cover2_a _)

/-- The proof data of pipeline 2 on core c: the arrays as the call finds them; after the body at point t each input's
    buffer at its block and each output's at the body's value of the six input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any grid point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.IRun.lean ====
/-
  The idealized kernel program's run: the contents of the TensorCore's buffers at every boundary between a host
  stretch and a pallas call, as a fold from the launch memory; every pipeline's proof data at its call's entry
  contents; the three calls as segments between the four host stretches; and the run itself — every weakly fair
  execution of the program terminates, and in the final state every unscoped buffer holds the last boundary's contents.
  The frame (each argument array ends as launched) is read off that.
-/
import proofs.«133046_j55070070670115_1_alg».proof.Proof.IFrame0
import proofs.«133046_j55070070670115_1_alg».proof.Proof.IFrame1
import proofs.«133046_j55070070670115_1_alg».proof.Proof.IFrame2
import proofs.«133046_j55070070670115_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)

/-- After the host stretch before pallas call 0 (the call's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At pallas call 0's exit: its arrays at what the pipeline leaves (the inputs as entered, each output's write-backs
    folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem W1_of (c : Dev nD) (r : Ref sig .tc) (h : r ∉ hostOps0_W) : W1 m c (Proc.devRef .tc r) = W0 m c (Proc.devRef .tc r) :=
  StableHlo.after_of_writes_sub hostOps0 _ hostOps0_writes h

/-- After the host stretch before pallas call 1 (the call's entry). -/
abbrev W3 : Dev nD → Valuation τ sig (Elt F) := fun c => StableHlo.after hostOps1 (W2 m c)
/-- The same read at the TensorCore's references. -/
abbrev U3 : (c : Dev nD) → (b : Ref sig .tc) → Buf (Elt F) ((c : Thread nD τ).loc b) := fun c b => W3 m c b
/-- At pallas call 1's exit: its arrays at what the pipeline leaves (the inputs as entered, each output's write-backs
    folded), every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem W3_of (c : Dev nD) (r : Ref sig .tc) (h : r ∉ hostOps1_W) : W3 m c (Proc.devRef .tc r) = W2 m c (Proc.devRef .tc r) :=
  StableHlo.after_of_writes_sub hostOps1 _ hostOps1_writes h

/-- After the host stretch before pallas call 2 (the call's entry). -/
abbrev W5 : Dev nD → Valuation τ sig (Elt F) := fun c => StableHlo.after hostOps2 (W4 m c)
/-- The same read at the TensorCore's references. -/
abbrev U5 : (c : Dev nD) → (b : Ref sig .tc) → Buf (Elt F) ((c : Thread nD τ).loc b) := fun c b => W5 m c b
/-- At pallas call 2's exit: its arrays at what the pipeline leaves (the inputs as entered, each output's write-backs
    folded), every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
theorem W5_of (c : Dev nD) (r : Ref sig .tc) (h : r ∉ hostOps2_W) : W5 m c (Proc.devRef .tc r) = W4 m c (Proc.devRef .tc r) :=
  StableHlo.after_of_writes_sub hostOps2 _ hostOps2_writes h

/-- After the last host stretch: the contents the program ends with. -/
abbrev W7 : Dev nD → Valuation τ sig (Elt F) := fun c => StableHlo.after hostOps3 (W6 m c)
theorem W7_of (c : Dev nD) (r : Ref sig .tc) (h : r ∉ hostOps3_W) : W7 m c (Proc.devRef .tc r) = W6 m c (Proc.devRef .tc r) :=
  StableHlo.after_of_writes_sub hostOps3 _ hostOps3_writes h

/-- A buffer that no host stretch writes and that is no window's array ends as launched. -/
theorem W7_launch (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m c (Proc.devRef .tc r) = m ((c : Thread nD τ).loc r) :=
  (W7_of m c r h3).trans <| (W6_of_ne m c r n2).trans <| (W5_of m c r h2).trans <| (W4_of_ne m c r n1).trans <|
    (W3_of m c r h1).trans <| (W2_of_ne m c r n0).trans <| (W1_of m c r h0).trans rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m c) ∗ ∃ r, prngReg c r)

/-! ## The pallas calls as segments -/

set_option backward.isDefEq.respectTransparency.types false in
/-- Pallas call 0 over the thread state: entered from every unscoped buffer at `W1`, left at `W2`. Its arrays
    are split out of the unscoped buffers and put back at the exit contents; the generator register goes into the
    class invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W3`, left at `W4`. Its arrays
    are split out of the unscoped buffers and put back at the exit contents; the generator register goes into the
    class invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `W5`, left at `W6`. Its arrays
    are split out of the unscoped buffers and put back at the exit contents; the generator register goes into the
    class invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and in every final state each unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Frm

end
-- ==== Proof.LayerSpec.lean ====
/-
  One layer of the message-passing network, row by row, over the extended reals.

  For a node with aggregated neighbour row `a` and own embedding row `e` (64 entries each), weights `w1`, `w2`
  (64 × 64) and biases `b1`, `b2`, the pre-activation at output column `k` is
      ((Σ_j a_j · w1_jk + b1_k) + Σ_j (e_j · a_j) · w2_jk) + b2_k,
  the layer's output `hrow` is its leaky rectification x ↦ if x ≥ 0 then x else 0.01 · x, and the normalised output
  `nrow` divides a row by its Euclidean length floored at 1e-12. The constants are the values of the f32 literals
  the programs carry. Everything is written with the scalar operations of the extended-real reading of floats, so
  that a vector program read at one element lands on these terms.

  Also here: the little algebra both programs need to reach this form — the regrouping of the four-term sum, the
  rectifier with its product written either way round, and a matrix product with one contracted axis read as a
  sum over `Fin n`.
-/
import Idealize.ShloMosaic.PureOps.Ideal.Laws
import Idealize.ShloMosaic.Lib.ValueIdx

noncomputable section

open scoped BigOperators

namespace Cert.Layer

open Idealize.ShloMosaic Idealize.ShloMosaic.ValueIdx

/-- The f32 literal 0.01 (pattern `0x3C23D70A`) as an extended real: the rectifier's slope below zero. -/
def slope : EReal := Ideal.ofBits .f32 0x3C23D70A#32

/-- The f32 literal 1e-12 (pattern `0x2B8CBCCC`) as an extended real: the floor of a row's length. -/
def tiny : EReal := Ideal.ofBits .f32 0x2B8CBCCC#32

/-- The leaky rectifier: `x` where `x ≥ 0`, else `0.01 · x`. -/
def rect (x : EReal) : EReal :=
  Scalar.select (Ideal.cmp .oge x (Ideal.ofBits .f32 0x00000000#32)) x (slope * x)

/-- The pre-activation at column `k`: `((Σ_j a_j · w1_jk + b1_k) + Σ_j (e_j · a_j) · w2_jk) + b2_k`. -/
def prerow (a e : Fin 64 → EReal) (w1 w2 : Fin 64 → Fin 64 → EReal) (b1 b2 : Fin 64 → EReal) (k : Fin 64) : EReal :=
  (((∑ j : Fin 64, a j * w1 j k) + b1 k) + ∑ j : Fin 64, (e j * a j) * w2 j k) + b2 k

/-- The layer's output at column `k` of a row: the rectified pre-activation. -/
def hrow (a e : Fin 64 → EReal) (w1 w2 : Fin 64 → Fin 64 → EReal) (b1 b2 : Fin 64 → EReal) (k : Fin 64) : EReal :=
  rect (prerow a e w1 w2 b1 b2 k)

/-- The normalised output at column `k` of a row `h`: `h_k / max(√(Σ_j h_j²), 1e-12)`. -/
def nrow (h : Fin 64 → EReal) (k : Fin 64) : EReal :=
  Ideal.div (h k) (max (Ideal.sqrt (∑ j : Fin 64, h j * h j)) tiny)

/-- The four-term sum grouped as two biased products, `(p + b) + (q + c)`, is the left-nested `((p + b) + q) + c`:
    addition of extended reals is associative with no finiteness condition. -/
theorem regroup (p b q c : EReal) : (p + b) + (q + c) = ((p + b) + q) + c := (add_assoc _ _ _).symm

/-- The rectifier with the product written `x · 0.01`. -/
theorem rect_mul_comm (x : EReal) :
    Scalar.select (Ideal.cmp .oge x (Ideal.ofBits .f32 0x00000000#32)) x (x * slope) = rect x := by
  unfold rect; rw [mul_comm x slope]

/-- A host sum started from the f32 literal `0.0` is the bare sum. -/
theorem zero_lit_add (x : EReal) : Ideal.ofBits .f32 0x00000000#32 + x = x := by
  rw [Ideal.ofBits_zero_f32, zero_add]

end Cert.Layer

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.KernelLayer.lean ====
/-
  The kernel body's two stored values, read at one element.

  The first stored value is the layer's output block: at row `r` and column `k` it is `hrow` of the block's rows
  (the aggregated block's row `r`, the embedding block's row `r`, the two weight matrices and the two bias rows).
  The second is the normalised block: at `(r, k)` it is `nrow` of row `r` of the first. The steps are the two matrix
  products read as sums over the contracted axis, the bias rows broadcast over the block's rows, the regrouping of the
  four-term sum, the rectifier, and for the second value the row sum of squares, its cast to a column and the column
  broadcast over the lanes.
-/
import proofs.«133046_j55070070670115_1_alg».proof.Proof.Gen.KernelIdeal.Skeleton
import proofs.«133046_j55070070670115_1_alg».proof.Proof.LayerSpec
import proofs.«133046_j55070070670115_1_alg».proof.Proof.LibColumnForms
import Idealize.ShloMosaic.Lib.ValueLayout

noncomputable section

open scoped BigOperators

namespace Cert.Layer

open Idealize.ShloMosaic Idealize.ShloMosaic.ValueIdx Idealize.ShloMosaic.ValueLayout
open Cert.KernelIdeal (S10000x64 S64x64 S1x64 S10000 S10000x1 dot_S10000x64_S64x64_S10000x64_1_0_0_1_n_n)

/-! ## The block matrix product read at an element -/

/-- On the left operand's row axis the operand index is the output's row. -/
theorem klhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- On the left operand's column axis, the contracted one, it is the contraction position. -/
theorem klhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- On the right operand's row axis, the contracted one, it is the contraction position. -/
theorem krhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- On the right operand's column axis the operand index is the output's column. -/
theorem krhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block times a weight matrix into a zero accumulator, at `(r, k)`: `Σ_j A_rj · W_jk`. -/
theorem kmatmul_apply (A : FVec Ideal S10000x64 .f32) (W : FVec Ideal S64x64 .f32) (r : Fin 10000) (k : Fin 64) :
    matmul dot_S10000x64_S64x64_S10000x64_1_0_0_1_n_n none A W (constant S10000x64 .f32 0x00000000#32) (ix2 r k)
      = ∑ j : Fin 64, A (ix2 r j) * W (ix2 j k) := by
  refine (Ideal.matmul_constant_zero_apply _ _ _ _ _).trans ?_
  rw [← Equiv.sum_comp (contrEquiv1 dot_S10000x64_S64x64_S10000x64_1_0_0_1_n_n 64 rfl rfl).symm]
  refine Finset.sum_congr rfl fun j _ => ?_
  have hk := contrEquiv1_symm_val dot_S10000x64_S64x64_S10000x64_1_0_0_1_n_n 64 rfl rfl j
  have el : dot_S10000x64_S64x64_S10000x64_1_0_0_1_n_n.lhsIdx (ix2 r k)
      ((contrEquiv1 dot_S10000x64_S64x64_S10000x64_1_0_0_1_n_n 64 rfl rfl).symm j) = ix2 r j :=
    funext fun a => Fin.ext (by
      match a with
      | ⟨0, _⟩ => exact klhs_0 _ _
      | ⟨1, _⟩ => exact (klhs_1 _ _).trans hk)
  have er : dot_S10000x64_S64x64_S10000x64_1_0_0_1_n_n.rhsIdx (ix2 r k)
      ((contrEquiv1 dot_S10000x64_S64x64_S10000x64_1_0_0_1_n_n 64 rfl rfl).symm j) = ix2 j k :=
    funext fun a => Fin.ext (by
      match a with
      | ⟨0, _⟩ => exact (krhs_0 _ _).trans hk
      | ⟨1, _⟩ => exact krhs_1 _ _)
  rw [el, er]

/-! ## The rectifier and the row sum read at an element -/

/-- The block's rectification at an element is the rectifier of that element. -/
theorem krect_apply (V : FVec Ideal S10000x64 .f32) (j : S10000x64.Idx) :
    select (cmpf .oge V (broadcast S10000x64 (Scalar.ofBits (F := Ideal) .f32 0x00000000#32))) V
        (mulf V (broadcast S10000x64 (Scalar.ofBits (F := Ideal) .f32 0x3C23D70A#32))) j = rect (V j) :=
  rect_mul_comm (V j)

/-- The sum of a block along its lanes, at row `r`: `Σ_j G_rj`. -/
theorem krowsum_apply (G : FVec Ideal S10000x64 .f32) (h : S10000x64.Reduces [1] S10000) (hφ : FKind.Formats .f32)
    (hacc : (0x00000000#32 : BitVec 32) = 0x00000000#32) (r : Fin 10000) :
    multiReduction (F := Ideal) .add [1] S10000 G 0x00000000#32 h hφ hacc (ix1 r) = ∑ j : Fin 64, G (ix2 r j) := by
  refine (Ideal.multiReduction_add_single G 0x00000000#32 h hφ hacc (ix1 r)).trans ?_
  refine Finset.sum_congr rfl fun j _ => congrArg G (funext fun a => Fin.ext ?_)
  match a with
  | ⟨0, _⟩ => rfl
  | ⟨1, _⟩ => rfl

/-! ## The two stored values -/

/-- The layer's output block at `(r, k)` is `hrow` of row `r` of the two input blocks. -/
theorem pay1_apply (x0 x2 : Vec Ideal S10000x64 .f32) (x5 x12 : Vec Ideal S64x64 .f32) (x8 x15 : Vec Ideal S1x64 .f32)
    (r : Fin 10000) (k : Fin 64) :
    Cert.KernelIdeal.Gen.k0_pay1 (F := Ideal) x0 x2 x5 x8 x12 x15 (ix2 r k)
      = hrow (fun j => x2 (ix2 r j)) (fun j => x0 (ix2 r j)) (fun j k => x5 (ix2 j k)) (fun j k => x12 (ix2 j k))
          (fun k => x8 (ix2 0 k)) (fun k => x15 (ix2 0 k)) k := by
  unfold Cert.KernelIdeal.Gen.k0_pay1
  simp only [shapeCast_self]
  refine (krect_apply _ _).trans (congrArg rect ?_)
  rw [addf_apply, addf_apply, addf_apply, kmatmul_apply, kmatmul_apply, broadcastTo_1b_ab_apply, broadcastTo_1b_ab_apply]
  exact regroup _ _ _ _

/-- The normalised block at `(r, k)` is `nrow` of row `r` of the output block. -/
theorem pay2_apply (x0 x2 : Vec Ideal S10000x64 .f32) (x5 x12 : Vec Ideal S64x64 .f32) (x8 x15 : Vec Ideal S1x64 .f32)
    (r : Fin 10000) (k : Fin 64) :
    Cert.KernelIdeal.Gen.k0_pay2 (F := Ideal) x0 x2 x5 x8 x12 x15 (ix2 r k)
      = nrow (fun j => Cert.KernelIdeal.Gen.k0_pay1 (F := Ideal) x0 x2 x5 x8 x12 x15 (ix2 r j)) k := by
  unfold Cert.KernelIdeal.Gen.k0_pay2
  generalize Cert.KernelIdeal.Gen.k0_pay1 (F := Ideal) x0 x2 x5 x8 x12 x15 = H
  rw [divf_apply, broadcastTo_a1_ab_apply, maximumf_apply]
  show Ideal.div (H (ix2 r k)) (max (Ideal.sqrt (shapeCast S10000x1 _ _ (ix2 r (0 : Fin 1)))) tiny) = _
  rw [shapeCast_a_a1_apply, krowsum_apply]
  rfl

/-! ## The three launches store the same two values -/

theorem k1_pay1_eq {F : FTy → Type} [FloatOps F] :
    Cert.KernelIdeal.Gen.k1_pay1 (F := F) = Cert.KernelIdeal.Gen.k0_pay1 (F := F) := rfl
theorem k1_pay2_eq {F : FTy → Type} [FloatOps F] :
    Cert.KernelIdeal.Gen.k1_pay2 (F := F) = Cert.KernelIdeal.Gen.k0_pay2 (F := F) := rfl
theorem k2_pay1_eq {F : FTy → Type} [FloatOps F] :
    Cert.KernelIdeal.Gen.k2_pay1 (F := F) = Cert.KernelIdeal.Gen.k0_pay1 (F := F) := rfl
theorem k2_pay2_eq {F : FTy → Type} [FloatOps F] :
    Cert.KernelIdeal.Gen.k2_pay2 (F := F) = Cert.KernelIdeal.Gen.k0_pay2 (F := F) := rfl

end Cert.Layer

end
-- ==== Proof.RefLayer.lean ====
/-
  One layer of the reference, as two functions of whole arrays, written with the operations the reference program
  prints, in its order: the pre-activation ((agg·W1 + b1) + (ego ⊙ agg)·W2) + b2, the leaky rectifier
  x ↦ if x ≥ 0 then x else 0.01·x, and the row normalisation h ↦ h / max(√(Σ_k h_k²), 1e-12).
-/
import proofs.«133046_j55070070670115_1_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Cert.ReferenceIdeal.Facts]

/-- The layer's un-normalised output: the rectified sum of the two linear maps, the first of the aggregated
    neighbours, the second of their elementwise product with the node's own embedding. -/
def refH (ego agg : FVec F S150000x64 .f32) (w1 : FVec F S64x64 .f32) (b1 : FVec F S64 .f32)
    (w2 : FVec F S64x64 .f32) (b2 : FVec F S64 .f32) : FVec F S150000x64 .f32 :=
  let pre : FVec F S150000x64 .f32 :=
    addf (addf (addf (Host.dotGeneral dot_S150000x64_S64x64_S150000x64_1_0_0_1_n_n none agg w1)
        (broadcastInDim S150000x64 ![0, 1] bcast_S1x64_S150000x64_0_1 (broadcastInDim S1x64 ![1] bcast_S64_S1x64_1 b1)))
      (Host.dotGeneral dot_S150000x64_S64x64_S150000x64_1_0_0_1_n_n none (mulf ego agg) w2))
      (broadcastInDim S150000x64 ![0, 1] bcast_S1x64_S150000x64_0_1 (broadcastInDim S1x64 ![1] bcast_S64_S1x64_1 b2))
  select (cmpf .oge pre (broadcastInDim S150000x64 ![] bcast_S_S150000x64 (constant S_ .f32 0x00000000#32))) pre
    (mulf (broadcastInDim S150000x64 ![] bcast_S_S150000x64 (id (constant S_ .f32 0x3C23D70A#32))) pre)

/-- The layer's normalised output: every row divided by its Euclidean length, the length floored at 1e-12. -/
def refN (h : FVec F S150000x64 .f32) : FVec F S150000x64 .f32 :=
  Host.divf h (broadcastInDim S150000x64 ![0, 1] bcast_S150000x1_S150000x64_0_1
    (maximumf (Host.sqrt (broadcastInDim S150000x1 ![0] bcast_S150000_S150000x1_0
        (Host.reduceAdd (mulf h h) (constant S_ .f32 0x00000000#32) reducesTo_S150000x64_S150000_d1 h_S_)))
      (broadcastInDim S150000x1 ![] bcast_S_S150000x1 (constant S_ .f32 0x2B8CBCCC#32))))

end Cert.ReferenceIdeal.Hand

end
-- ==== Proof.RefLayerRead.lean ====
/-
  The reference's layer functions, read at one element.

  `refH` at row `R` and column `k` is `hrow` of row `R` of the aggregated and embedding arrays, and `refN` at `(R, k)` is
  `nrow` of row `R` of its operand. The steps are the two host matrix products read as sums over the contracted axis, the
  bias vector broadcast first to a row and then over all rows, the scalar constants broadcast to the array, and for the
  normalisation the host row sum (started from the literal 0.0), its broadcast to a column and the column's broadcast
  over the lanes.
-/
import proofs.«133046_j55070070670115_1_alg».proof.Proof.RefLayer
import proofs.«133046_j55070070670115_1_alg».proof.Proof.LayerSpec
import Idealize.ShloMosaic.Lib.ValueLayout

noncomputable section

open scoped BigOperators

namespace Cert.Layer

open Idealize.ShloMosaic Idealize.ShloMosaic.ValueIdx
open Cert.ReferenceIdeal (S150000x64 S64x64 S1x64 S64 S150000 S150000x1 S_ dot_S150000x64_S64x64_S150000x64_1_0_0_1_n_n)

variable [Cert.ReferenceIdeal.Facts]

/-! ## The host matrix product read at an element -/

/-- On the left operand's row axis the operand index is the output's row. -/
theorem rlhs_0 (i : S150000x64.Idx) (q : dot_S150000x64_S64x64_S150000x64_1_0_0_1_n_n.contr.Idx) :
    (dot_S150000x64_S64x64_S150000x64_1_0_0_1_n_n.lhsIdx i q 0).val = (i 0).val := by
  unfold DotDims.lhsIdx
  rw [dif_neg (show ¬(0 : Fin S150000x64.rank) ∈ dot_S150000x64_S64x64_S150000x64_1_0_0_1_n_n.lhsBatch from List.not_mem_nil),
    dif_pos (show (0 : Fin S150000x64.rank) ∈ dot_S150000x64_S64x64_S150000x64_1_0_0_1_n_n.lhsNonContracting from List.mem_singleton.mpr rfl)]
  rfl

/-- On the left operand's column axis, the contracted one, it is the contraction position. -/
theorem rlhs_1 (i : S150000x64.Idx) (q : dot_S150000x64_S64x64_S150000x64_1_0_0_1_n_n.contr.Idx) :
    (dot_S150000x64_S64x64_S150000x64_1_0_0_1_n_n.lhsIdx i q 1).val = (q ⟨0, Nat.one_pos⟩).val :=
  dot_S150000x64_S64x64_S150000x64_1_0_0_1_n_n.lhsIdx_val_of_single rfl i q

/-- On the right operand's row axis, the contracted one, it is the contraction position. -/
theorem rrhs_0 (i : S150000x64.Idx) (q : dot_S150000x64_S64x64_S150000x64_1_0_0_1_n_n.contr.Idx) :
    (dot_S150000x64_S64x64_S150000x64_1_0_0_1_n_n.rhsIdx i q 0).val = (q ⟨0, Nat.one_pos⟩).val :=
  dot_S150000x64_S64x64_S150000x64_1_0_0_1_n_n.rhsIdx_val_of_single rfl i q

/-- On the right operand's column axis the operand index is the output's column. -/
theorem rrhs_1 (i : S150000x64.Idx) (q : dot_S150000x64_S64x64_S150000x64_1_0_0_1_n_n.contr.Idx) :
    (dot_S150000x64_S64x64_S150000x64_1_0_0_1_n_n.rhsIdx i q 1).val = (i 1).val := by
  unfold DotDims.rhsIdx
  rw [dif_neg (show ¬(1 : Fin S64x64.rank) ∈ dot_S150000x64_S64x64_S150000x64_1_0_0_1_n_n.rhsBatch from List.not_mem_nil),
    dif_pos (show (1 : Fin S64x64.rank) ∈ dot_S150000x64_S64x64_S150000x64_1_0_0_1_n_n.rhsNonContracting from List.mem_singleton.mpr rfl)]
  rfl

/-- An array times a weight matrix on the host, at `(R, k)`: `Σ_j A_Rj · W_jk`. -/
theorem rdot_apply (A : FVec Ideal S150000x64 .f32) (W : FVec Ideal S64x64 .f32) (R : Fin 150000) (k : Fin 64) :
    Host.dotGeneral dot_S150000x64_S64x64_S150000x64_1_0_0_1_n_n none A W (ix2 R k)
      = ∑ j : Fin 64, A (ix2 R j) * W (ix2 j k) := by
  refine (Ideal.dotGeneral_apply _ _ _ _ _ _).trans ?_
  rw [← Equiv.sum_comp (contrEquiv1 dot_S150000x64_S64x64_S150000x64_1_0_0_1_n_n 64 rfl rfl).symm]
  refine Finset.sum_congr rfl fun j _ => ?_
  have hk := contrEquiv1_symm_val dot_S150000x64_S64x64_S150000x64_1_0_0_1_n_n 64 rfl rfl j
  have el : dot_S150000x64_S64x64_S150000x64_1_0_0_1_n_n.lhsIdx (ix2 R k)
      ((contrEquiv1 dot_S150000x64_S64x64_S150000x64_1_0_0_1_n_n 64 rfl rfl).symm j) = ix2 R j :=
    funext fun a => Fin.ext (by
      match a with
      | ⟨0, _⟩ => exact rlhs_0 _ _
      | ⟨1, _⟩ => exact (rlhs_1 _ _).trans hk)
  have er : dot_S150000x64_S64x64_S150000x64_1_0_0_1_n_n.rhsIdx (ix2 R k)
      ((contrEquiv1 dot_S150000x64_S64x64_S150000x64_1_0_0_1_n_n 64 rfl rfl).symm j) = ix2 j k :=
    funext fun a => Fin.ext (by
      match a with
      | ⟨0, _⟩ => exact (rrhs_0 _ _).trans hk
      | ⟨1, _⟩ => exact rrhs_1 _ _)
  rw [el, er]

/-! ## The broadcasts read at an element -/

/-- A bias vector broadcast to a row and the row over all rows reads, at `(R, k)`, the vector at `k`. -/
theorem rbias_apply (b : FVec Ideal S64 .f32) (h1 : S64.BroadcastsInDim S1x64 (![1] : Fin 1 → Fin S1x64.rank))
    (h2 : S1x64.BroadcastsInDim S150000x64 (![0, 1] : Fin 2 → Fin S150000x64.rank)) (R : Fin 150000) (k : Fin 64) :
    broadcastInDim S150000x64 ![0, 1] h2 (broadcastInDim S1x64 ![1] h1 b) (ix2 R k) = b (ix1 k) := by
  refine (broadcastInDim_apply _ h2 _ (ix2 R k) (ix2 (0 : Fin 1) k) fun a => ?_).trans ?_
  · match a with
    | ⟨0, _⟩ => rfl
    | ⟨1, _⟩ => rfl
  · refine broadcastInDim_apply _ h1 b (ix2 (0 : Fin 1) k) (ix1 k) fun a => ?_
    match a with
    | ⟨0, _⟩ => rfl

/-- A column broadcast over the lanes reads, at `(R, k)`, the column's entry in row `R`. -/
theorem rcol_apply (v : FVec Ideal S150000x1 .f32)
    (h : S150000x1.BroadcastsInDim S150000x64 (![0, 1] : Fin 2 → Fin S150000x64.rank)) (R : Fin 150000) (k : Fin 64) :
    broadcastInDim S150000x64 ![0, 1] h v (ix2 R k) = v (ix2 R (0 : Fin 1)) := by
  refine broadcastInDim_apply _ h v (ix2 R k) (ix2 R (0 : Fin 1)) fun a => ?_
  match a with
  | ⟨0, _⟩ => rfl
  | ⟨1, _⟩ => rfl

/-- A vector broadcast to a column reads, at `(R, 0)`, the vector at `R`. -/
theorem rtocol_apply (v : FVec Ideal S150000 .f32)
    (h : S150000.BroadcastsInDim S150000x1 (![0] : Fin 1 → Fin S150000x1.rank)) (R : Fin 150000) (u : Fin 1) :
    broadcastInDim S150000x1 ![0] h v (ix2 R u) = v (ix1 R) := by
  refine broadcastInDim_apply _ h v (ix2 R u) (ix1 R) fun a => ?_
  match a with
  | ⟨0, _⟩ => rfl

/-- The host's quotient at an element is the quotient of the elements. -/
theorem hostDivf_apply {s : Shape} {φ : FTy} (a b : FVec Ideal s φ) (i : s.Idx) :
    Host.divf a b i = Ideal.div (a i) (b i) := rfl

/-- The host's square root at an element is the square root of the element. -/
theorem hostSqrt_apply {s : Shape} {φ : FTy} (a : FVec Ideal s φ) (i : s.Idx) : Host.sqrt a i = Ideal.sqrt (a i) := rfl

/-- A scalar f32 constant broadcast to an array reads, everywhere, the value of its literal. -/
theorem rsplat_apply {t : Shape} (bits : BitVec 32) (h : S_.BroadcastsInDim t (![] : Fin 0 → Fin t.rank)) (j : t.Idx) :
    broadcastInDim t ![] h (constant (F := Ideal) S_ .f32 bits) j = Ideal.ofBits .f32 bits := rfl

/-- The host's sum of an array along its lanes, started from the literal 0.0, at row `R`: `Σ_j G_Rj`. -/
theorem rrowsum_apply (G : FVec Ideal S150000x64 .f32) (h : S150000x64.ReducesTo [1] S150000) (hu : 0 < S_.numel)
    (R : Fin 150000) :
    Host.reduceAdd (F := Ideal) G (constant (F := Ideal) S_ .f32 0x00000000#32) h hu (ix1 R) = ∑ j : Fin 64, G (ix2 R j) := by
  show Ideal.hostReduceAdd h G (Ideal.ofBits .f32 0x00000000#32) (ix1 R) = _
  rw [Ideal.hostReduceAdd_single h (by decide), zero_lit_add]
  refine Finset.sum_congr rfl fun j _ => congrArg G (funext fun a => Fin.ext ?_)
  match a with
  | ⟨0, _⟩ => rfl
  | ⟨1, _⟩ => rfl

/-! ## The two layer functions -/

/-- The reference's layer output at `(R, k)` is `hrow` of row `R` of its two input arrays. -/
theorem refH_apply (ego agg : FVec Ideal S150000x64 .f32) (w1 w2 : FVec Ideal S64x64 .f32) (b1 b2 : FVec Ideal S64 .f32)
    (R : Fin 150000) (k : Fin 64) :
    Cert.ReferenceIdeal.Hand.refH ego agg w1 b1 w2 b2 (ix2 R k)
      = hrow (fun j => agg (ix2 R j)) (fun j => ego (ix2 R j)) (fun j k => w1 (ix2 j k)) (fun j k => w2 (ix2 j k))
          (fun k => b1 (ix1 k)) (fun k => b2 (ix1 k)) k := by
  unfold Cert.ReferenceIdeal.Hand.refH
  show rect _ = _
  refine congrArg rect ?_
  rw [addf_apply, addf_apply, addf_apply, rdot_apply, rdot_apply, rbias_apply, rbias_apply]
  rfl

/-- The reference's normalised output at `(R, k)` is `nrow` of row `R` of its operand. -/
theorem refN_apply (h : FVec Ideal S150000x64 .f32) (R : Fin 150000) (k : Fin 64) :
    Cert.ReferenceIdeal.Hand.refN h (ix2 R k) = nrow (fun j => h (ix2 R j)) k := by
  unfold Cert.ReferenceIdeal.Hand.refN
  rw [hostDivf_apply, rcol_apply, maximumf_apply, hostSqrt_apply, rtocol_apply, rrowsum_apply, rsplat_apply]
  rfl

end Cert.Layer

end
-- ==== Proof.LayerBridge.lean ====
/-
  One layer of the kernel against one layer of the reference, at one element.

  Where row `r` of the kernel's two input blocks is row `R` of the reference's two input arrays, and the weights and
  biases agree, the kernel's stored layer output at `(r, k)` is the reference's layer output at `(R, k)`; and where row `r`
  of the kernel's layer output is row `R` of the reference's, the two normalised outputs agree at `(r, k)` and `(R, k)`.
  Both sides are the same row-wise function (`hrow`, `nrow`) of those rows.
-/
import proofs.«133046_j55070070670115_1_alg».proof.Proof.KernelLayer
import proofs.«133046_j55070070670115_1_alg».proof.Proof.RefLayerRead

noncomputable section

open scoped BigOperators

namespace Cert.Layer

open Idealize.ShloMosaic Idealize.ShloMosaic.ValueIdx

variable [Cert.ReferenceIdeal.Facts]

/-- `hrow` depends on its rows, matrices and biases only through their entries. -/
theorem hrow_congr {a a' e e' : Fin 64 → EReal} {w1 w1' w2 w2' : Fin 64 → Fin 64 → EReal} {b1 b1' b2 b2' : Fin 64 → EReal}
    (ha : ∀ j, a j = a' j) (he : ∀ j, e j = e' j) (hw1 : ∀ j k, w1 j k = w1' j k) (hw2 : ∀ j k, w2 j k = w2' j k)
    (hb1 : ∀ k, b1 k = b1' k) (hb2 : ∀ k, b2 k = b2' k) (k : Fin 64) :
    hrow a e w1 w2 b1 b2 k = hrow a' e' w1' w2' b1' b2' k := by
  obtain rfl : a = a' := funext ha
  obtain rfl : e = e' := funext he
  obtain rfl : w1 = w1' := funext fun j => funext (hw1 j)
  obtain rfl : w2 = w2' := funext fun j => funext (hw2 j)
  obtain rfl : b1 = b1' := funext hb1
  obtain rfl : b2 = b2' := funext hb2
  rfl

/-- `nrow` depends on its row only through its entries. -/
theorem nrow_congr {h h' : Fin 64 → EReal} (hh : ∀ j, h j = h' j) (k : Fin 64) : nrow h k = nrow h' k := by
  obtain rfl : h = h' := funext hh
  rfl

/-- The kernel's stored layer output at `(r, k)` is the reference's layer output at `(R, k)`, when row `r` of the
    kernel's blocks is row `R` of the reference's arrays and the weights and biases agree entry by entry. -/
theorem pay1_eq_refH (x0 x2 : Vec Ideal Cert.KernelIdeal.S10000x64 .f32) (x5 x12 : Vec Ideal Cert.KernelIdeal.S64x64 .f32)
    (x8 x15 : Vec Ideal Cert.KernelIdeal.S1x64 .f32)
    (ego agg : FVec Ideal Cert.ReferenceIdeal.S150000x64 .f32) (w1 w2 : FVec Ideal Cert.ReferenceIdeal.S64x64 .f32)
    (b1 b2 : FVec Ideal Cert.ReferenceIdeal.S64 .f32) (r : Fin 10000) (R : Fin 150000)
    (hego : ∀ j : Fin 64, x0 (ix2 r j) = ego (ix2 R j)) (hagg : ∀ j : Fin 64, x2 (ix2 r j) = agg (ix2 R j))
    (hw1 : ∀ j k : Fin 64, x5 (ix2 j k) = w1 (ix2 j k)) (hw2 : ∀ j k : Fin 64, x12 (ix2 j k) = w2 (ix2 j k))
    (hb1 : ∀ k : Fin 64, x8 (ix2 0 k) = b1 (ix1 k)) (hb2 : ∀ k : Fin 64, x15 (ix2 0 k) = b2 (ix1 k)) (k : Fin 64) :
    Cert.KernelIdeal.Gen.k0_pay1 (F := Ideal) x0 x2 x5 x8 x12 x15 (ix2 r k)
      = Cert.ReferenceIdeal.Hand.refH ego agg w1 b1 w2 b2 (ix2 R k) := by
  rw [pay1_apply, refH_apply]
  exact hrow_congr hagg hego hw1 hw2 hb1 hb2 k

/-- The kernel's stored normalised output at `(r, k)` is the reference's at `(R, k)`, when row `r` of the kernel's
    layer output is row `R` of the reference's. -/
theorem pay2_eq_refN (x0 x2 : Vec Ideal Cert.KernelIdeal.S10000x64 .f32) (x5 x12 : Vec Ideal Cert.KernelIdeal.S64x64 .f32)
    (x8 x15 : Vec Ideal Cert.KernelIdeal.S1x64 .f32) (h : FVec Ideal Cert.ReferenceIdeal.S150000x64 .f32)
    (r : Fin 10000) (R : Fin 150000)
    (hh : ∀ j : Fin 64, Cert.KernelIdeal.Gen.k0_pay1 (F := Ideal) x0 x2 x5 x8 x12 x15 (ix2 r j) = h (ix2 R j)) (k : Fin 64) :
    Cert.KernelIdeal.Gen.k0_pay2 (F := Ideal) x0 x2 x5 x8 x12 x15 (ix2 r k)
      = Cert.ReferenceIdeal.Hand.refN h (ix2 R k) := by
  rw [pay2_apply, refN_apply]
  exact nrow_congr hh k

end Cert.Layer

end
-- ==== Proof.IValueCore.lean ====
/-
  One row block of the kernel against the whole arrays of the reference. Row y of grid point T's block is row
  T·10000 + y of the array, so when the six input blocks are the blocks of the arrays ego, agg (row blocks), of the
  weight matrices (whole) and of the bias rows (whole), the body's stored values are the reference's layer functions
  of those arrays, read at the array's index.
-/
import proofs.«133046_j55070070670115_1_alg».proof.Proof.LayerBridge

noncomputable section

namespace Cert.KernelIdeal.Val

open Idealize.ShloMosaic Idealize.ShloMosaic.ValueIdx
open Cert.KernelIdeal (S10000x64 S64x64 S1x64)

variable [Cert.ReferenceIdeal.Facts]

/-- The un-normalised rows: the body's first stored value at an index of the block is the reference's layer output at
    the array index with the same column and the row shifted by the block's offset. -/
theorem h_block (x0 x1 : Vec Ideal S10000x64 .f32) (x2 x4 : Vec Ideal S64x64 .f32) (x3 x5 : Vec Ideal S1x64 .f32)
    (ego agg : FVec Ideal Cert.ReferenceIdeal.S150000x64 .f32) (w1 w2 : FVec Ideal Cert.ReferenceIdeal.S64x64 .f32)
    (b1 b2 : FVec Ideal Cert.ReferenceIdeal.S64 .f32) (T : ℕ)
    (h0 : ∀ (r : Fin 10000) (R : Fin 150000) (j : Fin 64), R.val = T * 10000 + r.val → x0 (ix2 r j) = ego (ix2 R j))
    (h1 : ∀ (r : Fin 10000) (R : Fin 150000) (j : Fin 64), R.val = T * 10000 + r.val → x1 (ix2 r j) = agg (ix2 R j))
    (h2 : ∀ j k : Fin 64, x2 (ix2 j k) = w1 (ix2 j k)) (h4 : ∀ j k : Fin 64, x4 (ix2 j k) = w2 (ix2 j k))
    (h3 : ∀ k : Fin 64, x3 (ix2 0 k) = b1 (ix1 k)) (h5 : ∀ k : Fin 64, x5 (ix2 0 k) = b2 (ix1 k))
    (y : S10000x64.Idx) (i : Cert.ReferenceIdeal.S150000x64.Idx)
    (hi0 : (i 0).val = T * 10000 + (y 0).val) (hi1 : (i 1).val = (y 1).val) :
    Cert.KernelIdeal.Gen.k0_pay1 (F := Ideal) x0 x1 x2 x3 x4 x5 y = Cert.ReferenceIdeal.Hand.refH ego agg w1 b1 w2 b2 i := by
  obtain ⟨r, k, rfl⟩ : ∃ (r : Fin 10000) (k : Fin 64), y = ix2 r k := ⟨y 0, y 1, eq_ix2 y⟩
  obtain ⟨R, k', rfl⟩ : ∃ (R : Fin 150000) (k' : Fin 64), i = ix2 R k' := ⟨i 0, i 1, eq_ix2 i⟩
  obtain rfl : k' = k := Fin.ext hi1
  exact Cert.Layer.pay1_eq_refH x0 x1 x2 x4 x3 x5 ego agg w1 w2 b1 b2 r R (fun j => h0 r R j hi0) (fun j => h1 r R j hi0) h2 h4 h3 h5 k'

/-- The normalised rows: the body's second stored value is the reference's normalisation of its layer output. -/
theorem n_block (x0 x1 : Vec Ideal S10000x64 .f32) (x2 x4 : Vec Ideal S64x64 .f32) (x3 x5 : Vec Ideal S1x64 .f32)
    (ego agg : FVec Ideal Cert.ReferenceIdeal.S150000x64 .f32) (w1 w2 : FVec Ideal Cert.ReferenceIdeal.S64x64 .f32)
    (b1 b2 : FVec Ideal Cert.ReferenceIdeal.S64 .f32) (T : ℕ)
    (h0 : ∀ (r : Fin 10000) (R : Fin 150000) (j : Fin 64), R.val = T * 10000 + r.val → x0 (ix2 r j) = ego (ix2 R j))
    (h1 : ∀ (r : Fin 10000) (R : Fin 150000) (j : Fin 64), R.val = T * 10000 + r.val → x1 (ix2 r j) = agg (ix2 R j))
    (h2 : ∀ j k : Fin 64, x2 (ix2 j k) = w1 (ix2 j k)) (h4 : ∀ j k : Fin 64, x4 (ix2 j k) = w2 (ix2 j k))
    (h3 : ∀ k : Fin 64, x3 (ix2 0 k) = b1 (ix1 k)) (h5 : ∀ k : Fin 64, x5 (ix2 0 k) = b2 (ix1 k))
    (y : S10000x64.Idx) (i : Cert.ReferenceIdeal.S150000x64.Idx)
    (hi0 : (i 0).val = T * 10000 + (y 0).val) (hi1 : (i 1).val = (y 1).val) :
    Cert.KernelIdeal.Gen.k0_pay2 (F := Ideal) x0 x1 x2 x3 x4 x5 y
      = Cert.ReferenceIdeal.Hand.refN (Cert.ReferenceIdeal.Hand.refH ego agg w1 b1 w2 b2) i := by
  obtain ⟨r, k, rfl⟩ : ∃ (r : Fin 10000) (k : Fin 64), y = ix2 r k := ⟨y 0, y 1, eq_ix2 y⟩
  obtain ⟨R, k', rfl⟩ : ∃ (R : Fin 150000) (k' : Fin 64), i = ix2 R k' := ⟨i 0, i 1, eq_ix2 i⟩
  obtain rfl : k' = k := Fin.ext hi1
  exact Cert.Layer.pay2_eq_refN x0 x1 x2 x4 x3 x5 _ r R
    (fun j => Cert.Layer.pay1_eq_refH x0 x1 x2 x4 x3 x5 ego agg w1 w2 b1 b2 r R (fun j => h0 r R j hi0) (fun j => h1 r R j hi0) h2 h4 h3 h5 j) k'

end Cert.KernelIdeal.Val

end
-- ==== Proof.IValue0.lean ====
/-
  Pallas call 0 of the idealized kernel program, read as values at the extended reals: the array behind its first
  output window ends holding the reference's layer function of the arrays the call is entered with, and the array
  behind its second output window that function's row normalisation. Grid point t's blocks are rows
  t·10000 … t·10000 + 9999 of the two row arrays and the whole of the weight and bias arrays; the fifteen blocks
  of an output tile its array.
-/
import proofs.«133046_j55070070670115_1_alg».proof.Proof.IFrame0
import proofs.«133046_j55070070670115_1_alg».proof.Proof.IValueCore
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row windows sit at block row t, every other window at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks read at coordinates -/

theorem read0_0 (c : Dev nD) (t : Fin cfg0.N) (r : Fin 10000) (R : Fin 150000) (j : Fin 64) (hR : R.val = t.val * 10000 + r.val) :
    iblk0 V c 0 t (ix2 r j) = (V c main_v0 : Cert.ReferenceIdeal.S150000x64.Idx → EReal) (ix2 R j) := by
  unfold iblk0
  show V c main_v0 (((cfg0.win 0).blk t).view.emb (ix2 r j)) = V c main_v0 (ix2 R j)
  refine congrArg (V c main_v0) ?_
  funext a; apply Fin.ext
  have e := idx_facts0 t
  match a with
  | ⟨0, _⟩ => show win0_0.index t (0 : Fin 2) * 10000 + 1 * r.val = R.val; omega
  | ⟨1, _⟩ => show win0_0.index t (1 : Fin 2) * 64 + 1 * j.val = j.val; omega

theorem read0_1 (c : Dev nD) (t : Fin cfg0.N) (r : Fin 10000) (R : Fin 150000) (j : Fin 64) (hR : R.val = t.val * 10000 + r.val) :
    iblk0 V c 1 t (ix2 r j) = (V c main_v13 : Cert.ReferenceIdeal.S150000x64.Idx → EReal) (ix2 R j) := by
  unfold iblk0
  show V c main_v13 (((cfg0.win 1).blk t).view.emb (ix2 r j)) = V c main_v13 (ix2 R j)
  refine congrArg (V c main_v13) ?_
  funext a; apply Fin.ext
  have e := idx_facts0 t
  match a with
  | ⟨0, _⟩ => show win0_1.index t (0 : Fin 2) * 10000 + 1 * r.val = R.val; omega
  | ⟨1, _⟩ => show win0_1.index t (1 : Fin 2) * 64 + 1 * j.val = j.val; omega

theorem read0_2 (c : Dev nD) (t : Fin cfg0.N) (j k : Fin 64) :
    iblk0 V c 2 t (ix2 j k) = (V c main_v15 : Cert.ReferenceIdeal.S64x64.Idx → EReal) (ix2 j k) := by
  unfold iblk0
  show V c main_v15 (((cfg0.win 2).blk t).view.emb (ix2 j k)) = V c main_v15 (ix2 j k)
  refine congrArg (V c main_v15) ?_
  funext a; apply Fin.ext
  have e := idx_facts0 t
  match a with
  | ⟨0, _⟩ => show win0_2.index t (0 : Fin 2) * 64 + 1 * j.val = j.val; omega
  | ⟨1, _⟩ => show win0_2.index t (1 : Fin 2) * 64 + 1 * k.val = k.val; omega

theorem read0_3 (c : Dev nD) (t : Fin cfg0.N) (k : Fin 64) :
    iblk0 V c 3 t (ix2 (0 : Fin 1) k) = (V c main_v22 : S1x64.Idx → EReal) (ix2 (0 : Fin 1) k) := by
  unfold iblk0
  show V c main_v22 (((cfg0.win 3).blk t).view.emb (ix2 (0 : Fin 1) k)) = V c main_v22 (ix2 (0 : Fin 1) k)
  refine congrArg (V c main_v22) ?_
  funext a; apply Fin.ext
  have e := idx_facts0 t
  match a with
  | ⟨0, _⟩ => show win0_3.index t (0 : Fin 2) * 1 + 1 * 0 = 0; omega
  | ⟨1, _⟩ => show win0_3.index t (1 : Fin 2) * 64 + 1 * k.val = k.val; omega

theorem read0_4 (c : Dev nD) (t : Fin cfg0.N) (j k : Fin 64) :
    iblk0 V c 4 t (ix2 j k) = (V c main_v19 : Cert.ReferenceIdeal.S64x64.Idx → EReal) (ix2 j k) := by
  unfold iblk0
  show V c main_v19 (((cfg0.win 4).blk t).view.emb (ix2 j k)) = V c main_v19 (ix2 j k)
  refine congrArg (V c main_v19) ?_
  funext a; apply Fin.ext
  have e := idx_facts0 t
  match a with
  | ⟨0, _⟩ => show win0_4.index t (0 : Fin 2) * 64 + 1 * j.val = j.val; omega
  | ⟨1, _⟩ => show win0_4.index t (1 : Fin 2) * 64 + 1 * k.val = k.val; omega

theorem read0_5 (c : Dev nD) (t : Fin cfg0.N) (k : Fin 64) :
    iblk0 V c 5 t (ix2 (0 : Fin 1) k) = (V c main_v23 : S1x64.Idx → EReal) (ix2 (0 : Fin 1) k) := by
  unfold iblk0
  show V c main_v23 (((cfg0.win 5).blk t).view.emb (ix2 (0 : Fin 1) k)) = V c main_v23 (ix2 (0 : Fin 1) k)
  refine congrArg (V c main_v23) ?_
  funext a; apply Fin.ext
  have e := idx_facts0 t
  match a with
  | ⟨0, _⟩ => show win0_5.index t (0 : Fin 2) * 1 + 1 * 0 = 0; omega
  | ⟨1, _⟩ => show win0_5.index t (1 : Fin 2) * 64 + 1 * k.val = k.val; omega

/-! ## What a grid point writes back -/

theorem flushed0_6_eq (c : Dev nD) (b1 b2 : FVec Ideal Cert.ReferenceIdeal.S64 .f32)
    (hb1 : ∀ k : Fin 64, (V c main_v22 : S1x64.Idx → EReal) (ix2 (0 : Fin 1) k) = b1 (ix1 k))
    (hb2 : ∀ k : Fin 64, (V c main_v23 : S1x64.Idx → EReal) (ix2 (0 : Fin 1) k) = b2 (ix1 k)) (t : Fin cfg0.N) :
    (dat0 V c).flushed 6 t = ((cfg0.win 6).blk t).view.read (Elt Ideal) (Cert.ReferenceIdeal.Hand.refH (V c main_v0) (V c main_v13) (V c main_v15) b1 (V c main_v19) b2) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz, View.ld_unit_zero (S := S1x64) hz]
  funext y
  have e := idx_facts0 t
  refine h_block (iblk0 V c 0 t) (iblk0 V c 1 t) (iblk0 V c 2 t) (iblk0 V c 4 t) (iblk0 V c 3 t) (iblk0 V c 5 t)
    (V c main_v0) (V c main_v13) (V c main_v15) (V c main_v19) b1 b2 t.val
    (fun r R j hR => read0_0 V c t r R j hR) (fun r R j hR => read0_1 V c t r R j hR)
    (fun j k => read0_2 V c t j k) (fun j k => read0_4 V c t j k)
    (fun k => (read0_3 V c t k).trans (hb1 k)) (fun k => (read0_5 V c t k).trans (hb2 k)) y _ ?_ ?_
  · show win0_6.index t (0 : Fin 2) * 10000 + 1 * (y 0).val = t.val * 10000 + (y 0).val; omega
  · show win0_6.index t (1 : Fin 2) * 64 + 1 * (y 1).val = (y 1).val; omega

theorem flushed0_7_eq (c : Dev nD) (b1 b2 : FVec Ideal Cert.ReferenceIdeal.S64 .f32)
    (hb1 : ∀ k : Fin 64, (V c main_v22 : S1x64.Idx → EReal) (ix2 (0 : Fin 1) k) = b1 (ix1 k))
    (hb2 : ∀ k : Fin 64, (V c main_v23 : S1x64.Idx → EReal) (ix2 (0 : Fin 1) k) = b2 (ix1 k)) (t : Fin cfg0.N) :
    (dat0 V c).flushed 7 t = ((cfg0.win 7).blk t).view.read (Elt Ideal) (Cert.ReferenceIdeal.Hand.refN (Cert.ReferenceIdeal.Hand.refH (V c main_v0) (V c main_v13) (V c main_v15) b1 (V c main_v19) b2)) := by
  show (cfg0.win 7).cut (grid0.coords t) ((dat0 V c).after 7 t) = _
  rw [after0_7]
  unfold out0_7
  rw [View.canon_unit_zero hz]
  simp only [View.ld_unit_zero (S := S10000x64) hz, View.ld_unit_zero (S := S64x64) hz, View.ld_unit_zero (S := S1x64) hz]
  funext y
  have e := idx_facts0 t
  refine n_block (iblk0 V c 0 t) (iblk0 V c 1 t) (iblk0 V c 2 t) (iblk0 V c 4 t) (iblk0 V c 3 t) (iblk0 V c 5 t)
    (V c main_v0) (V c main_v13) (V c main_v15) (V c main_v19) b1 b2 t.val
    (fun r R j hR => read0_0 V c t r R j hR) (fun r R j hR => read0_1 V c t r R j hR)
    (fun j k => read0_2 V c t j k) (fun j k => read0_4 V c t j k)
    (fun k => (read0_3 V c t k).trans (hb1 k)) (fun k => (read0_5 V c t k).trans (hb2 k)) y _ ?_ ?_
  · show win0_7.index t (0 : Fin 2) * 10000 + 1 * (y 0).val = t.val * 10000 + (y 0).val; omega
  · show win0_7.index t (1 : Fin 2) * 64 + 1 * (y 1).val = (y 1).val; omega

/-! ## The blocks tile the arrays -/

theorem mem_blk0_6 (t : Fin cfg0.N) (i : S150000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v24_0).slice (win0_6.rect t)).set ↔ _
  rw [View.set_slice_whole, Rect.mem_set_unit]
  exact Iff.rfl

/-- Every row of the array lies in the block of the grid point row / 10000. -/
theorem cover0_6 (i : S150000x64.Idx) : ∃ t : Fin cfg0.N, (cfg0.win 6).flush t = true ∧ i ∈ ((cfg0.win 6).blk t).view.set := by
  have hi0 : (i 0).val < 150000 := (i 0).isLt
  have hi1 : (i 1).val < 64 := (i 1).isLt
  have hN : cfg0.N = 15 := N_0
  let t : Fin cfg0.N := ⟨(i 0).val / 10000, lt_of_lt_of_eq (by omega) hN.symm⟩
  have e := idx_facts0 t
  have ht : t.val = (i 0).val / 10000 := rfl
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

theorem mem_blk0_7 (t : Fin cfg0.N) (i : S150000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v24_1).slice (win0_7.rect t)).set ↔ _
  rw [View.set_slice_whole, Rect.mem_set_unit]
  exact Iff.rfl

/-- Every row of the array lies in the block of the grid point row / 10000. -/
theorem cover0_7 (i : S150000x64.Idx) : ∃ t : Fin cfg0.N, (cfg0.win 7).flush t = true ∧ i ∈ ((cfg0.win 7).blk t).view.set := by
  have hi0 : (i 0).val < 150000 := (i 0).isLt
  have hi1 : (i 1).val < 64 := (i 1).isLt
  have hN : cfg0.N = 15 := N_0
  let t : Fin cfg0.N := ⟨(i 0).val / 10000, lt_of_lt_of_eq (by omega) hN.symm⟩
  have e := idx_facts0 t
  have ht : t.val = (i 0).val / 10000 := rfl
  refine ⟨t, flush0_7 t, ?_⟩
  rw [mem_blk0_7]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-! ## The arrays after the call -/

theorem final0_6 (c : Dev nD) (b1 b2 : FVec Ideal Cert.ReferenceIdeal.S64 .f32)
    (hb1 : ∀ k : Fin 64, (V c main_v22 : S1x64.Idx → EReal) (ix2 (0 : Fin 1) k) = b1 (ix1 k))
    (hb2 : ∀ k : Fin 64, (V c main_v23 : S1x64.Idx → EReal) (ix2 (0 : Fin 1) k) = b2 (ix1 k)) :
    (dat0 V c).arrAt 6 cfg0.N = (Cert.ReferenceIdeal.Hand.refH (V c main_v0) (V c main_v13) (V c main_v15) b1 (V c main_v19) b2) :=
  (dat0 V c).arrAt_eq_of_cover 6 _ (fun t _ => flushed0_6_eq V c b1 b2 hb1 hb2 t) cover0_6

theorem final0_7 (c : Dev nD) (b1 b2 : FVec Ideal Cert.ReferenceIdeal.S64 .f32)
    (hb1 : ∀ k : Fin 64, (V c main_v22 : S1x64.Idx → EReal) (ix2 (0 : Fin 1) k) = b1 (ix1 k))
    (hb2 : ∀ k : Fin 64, (V c main_v23 : S1x64.Idx → EReal) (ix2 (0 : Fin 1) k) = b2 (ix1 k)) :
    (dat0 V c).arrAt 7 cfg0.N = Cert.ReferenceIdeal.Hand.refN (Cert.ReferenceIdeal.Hand.refH (V c main_v0) (V c main_v13) (V c main_v15) b1 (V c main_v19) b2) :=
  (dat0 V c).arrAt_eq_of_cover 7 _ (fun t _ => flushed0_7_eq V c b1 b2 hb1 hb2 t) cover0_7

end Cert.KernelIdeal.Val

end
-- ==== Proof.IValue1.lean ====
/-
  Pallas call 1 of the idealized kernel program, read as values at the extended reals: the array behind its first
  output window ends holding the reference's layer function of the arrays the call is entered with, and the array
  behind its second output window that function's row normalisation. Grid point t's blocks are rows
  t·10000 … t·10000 + 9999 of the two row arrays and the whole of the weight and bias arrays; the fifteen blocks
  of an output tile its array.
-/
import proofs.«133046_j55070070670115_1_alg».proof.Proof.IFrame1
import proofs.«133046_j55070070670115_1_alg».proof.Proof.IValueCore
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable [Cert.ReferenceIdeal.Facts]
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row windows sit at block row t, every other window at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## The input blocks read at coordinates -/

theorem read1_0 (c : Dev nD) (t : Fin cfg1.N) (r : Fin 10000) (R : Fin 150000) (j : Fin 64) (hR : R.val = t.val * 10000 + r.val) :
    iblk1 V c 0 t (ix2 r j) = (V c main_v24_0 : Cert.ReferenceIdeal.S150000x64.Idx → EReal) (ix2 R j) := by
  unfold iblk1
  show V c main_v24_0 (((cfg1.win 0).blk t).view.emb (ix2 r j)) = V c main_v24_0 (ix2 R j)
  refine congrArg (V c main_v24_0) ?_
  funext a; apply Fin.ext
  have e := idx_facts1 t
  match a with
  | ⟨0, _⟩ => show win1_0.index t (0 : Fin 2) * 10000 + 1 * r.val = R.val; omega
  | ⟨1, _⟩ => show win1_0.index t (1 : Fin 2) * 64 + 1 * j.val = j.val; omega

theorem read1_1 (c : Dev nD) (t : Fin cfg1.N) (r : Fin 10000) (R : Fin 150000) (j : Fin 64) (hR : R.val = t.val * 10000 + r.val) :
    iblk1 V c 1 t (ix2 r j) = (V c main_v37 : Cert.ReferenceIdeal.S150000x64.Idx → EReal) (ix2 R j) := by
  unfold iblk1
  show V c main_v37 (((cfg1.win 1).blk t).view.emb (ix2 r j)) = V c main_v37 (ix2 R j)
  refine congrArg (V c main_v37) ?_
  funext a; apply Fin.ext
  have e := idx_facts1 t
  match a with
  | ⟨0, _⟩ => show win1_1.index t (0 : Fin 2) * 10000 + 1 * r.val = R.val; omega
  | ⟨1, _⟩ => show win1_1.index t (1 : Fin 2) * 64 + 1 * j.val = j.val; omega

theorem read1_2 (c : Dev nD) (t : Fin cfg1.N) (j k : Fin 64) :
    iblk1 V c 2 t (ix2 j k) = (V c main_v39 : Cert.ReferenceIdeal.S64x64.Idx → EReal) (ix2 j k) := by
  unfold iblk1
  show V c main_v39 (((cfg1.win 2).blk t).view.emb (ix2 j k)) = V c main_v39 (ix2 j k)
  refine congrArg (V c main_v39) ?_
  funext a; apply Fin.ext
  have e := idx_facts1 t
  match a with
  | ⟨0, _⟩ => show win1_2.index t (0 : Fin 2) * 64 + 1 * j.val = j.val; omega
  | ⟨1, _⟩ => show win1_2.index t (1 : Fin 2) * 64 + 1 * k.val = k.val; omega

theorem read1_3 (c : Dev nD) (t : Fin cfg1.N) (k : Fin 64) :
    iblk1 V c 3 t (ix2 (0 : Fin 1) k) = (V c main_v46 : S1x64.Idx → EReal) (ix2 (0 : Fin 1) k) := by
  unfold iblk1
  show V c main_v46 (((cfg1.win 3).blk t).view.emb (ix2 (0 : Fin 1) k)) = V c main_v46 (ix2 (0 : Fin 1) k)
  refine congrArg (V c main_v46) ?_
  funext a; apply Fin.ext
  have e := idx_facts1 t
  match a with
  | ⟨0, _⟩ => show win1_3.index t (0 : Fin 2) * 1 + 1 * 0 = 0; omega
  | ⟨1, _⟩ => show win1_3.index t (1 : Fin 2) * 64 + 1 * k.val = k.val; omega

theorem read1_4 (c : Dev nD) (t : Fin cfg1.N) (j k : Fin 64) :
    iblk1 V c 4 t (ix2 j k) = (V c main_v43 : Cert.ReferenceIdeal.S64x64.Idx → EReal) (ix2 j k) := by
  unfold iblk1
  show V c main_v43 (((cfg1.win 4).blk t).view.emb (ix2 j k)) = V c main_v43 (ix2 j k)
  refine congrArg (V c main_v43) ?_
  funext a; apply Fin.ext
  have e := idx_facts1 t
  match a with
  | ⟨0, _⟩ => show win1_4.index t (0 : Fin 2) * 64 + 1 * j.val = j.val; omega
  | ⟨1, _⟩ => show win1_4.index t (1 : Fin 2) * 64 + 1 * k.val = k.val; omega

theorem read1_5 (c : Dev nD) (t : Fin cfg1.N) (k : Fin 64) :
    iblk1 V c 5 t (ix2 (0 : Fin 1) k) = (V c main_v47 : S1x64.Idx → EReal) (ix2 (0 : Fin 1) k) := by
  unfold iblk1
  show V c main_v47 (((cfg1.win 5).blk t).view.emb (ix2 (0 : Fin 1) k)) = V c main_v47 (ix2 (0 : Fin 1) k)
  refine congrArg (V c main_v47) ?_
  funext a; apply Fin.ext
  have e := idx_facts1 t
  match a with
  | ⟨0, _⟩ => show win1_5.index t (0 : Fin 2) * 1 + 1 * 0 = 0; omega
  | ⟨1, _⟩ => show win1_5.index t (1 : Fin 2) * 64 + 1 * k.val = k.val; omega

/-! ## What a grid point writes back -/

theorem flushed1_6_eq (c : Dev nD) (b1 b2 : FVec Ideal Cert.ReferenceIdeal.S64 .f32)
    (hb1 : ∀ k : Fin 64, (V c main_v46 : S1x64.Idx → EReal) (ix2 (0 : Fin 1) k) = b1 (ix1 k))
    (hb2 : ∀ k : Fin 64, (V c main_v47 : S1x64.Idx → EReal) (ix2 (0 : Fin 1) k) = b2 (ix1 k)) (t : Fin cfg1.N) :
    (dat1 V c).flushed 6 t = ((cfg1.win 6).blk t).view.read (Elt Ideal) (Cert.ReferenceIdeal.Hand.refH (V c main_v24_0) (V c main_v37) (V c main_v39) b1 (V c main_v43) b2) := by
  show (cfg1.win 6).cut (grid1.coords t) ((dat1 V c).after 6 t) = _
  rw [after1_6]
  unfold out1_6
  rw [View.canon_unit_zero hz1]
  simp only [View.ld_unit_zero (S := S10000x64) hz1, View.ld_unit_zero (S := S64x64) hz1, View.ld_unit_zero (S := S1x64) hz1]
  funext y
  have e := idx_facts1 t
  rw [Cert.Layer.k1_pay1_eq]
  refine h_block (iblk1 V c 0 t) (iblk1 V c 1 t) (iblk1 V c 2 t) (iblk1 V c 4 t) (iblk1 V c 3 t) (iblk1 V c 5 t)
    (V c main_v24_0) (V c main_v37) (V c main_v39) (V c main_v43) b1 b2 t.val
    (fun r R j hR => read1_0 V c t r R j hR) (fun r R j hR => read1_1 V c t r R j hR)
    (fun j k => read1_2 V c t j k) (fun j k => read1_4 V c t j k)
    (fun k => (read1_3 V c t k).trans (hb1 k)) (fun k => (read1_5 V c t k).trans (hb2 k)) y _ ?_ ?_
  · show win1_6.index t (0 : Fin 2) * 10000 + 1 * (y 0).val = t.val * 10000 + (y 0).val; omega
  · show win1_6.index t (1 : Fin 2) * 64 + 1 * (y 1).val = (y 1).val; omega

theorem flushed1_7_eq (c : Dev nD) (b1 b2 : FVec Ideal Cert.ReferenceIdeal.S64 .f32)
    (hb1 : ∀ k : Fin 64, (V c main_v46 : S1x64.Idx → EReal) (ix2 (0 : Fin 1) k) = b1 (ix1 k))
    (hb2 : ∀ k : Fin 64, (V c main_v47 : S1x64.Idx → EReal) (ix2 (0 : Fin 1) k) = b2 (ix1 k)) (t : Fin cfg1.N) :
    (dat1 V c).flushed 7 t = ((cfg1.win 7).blk t).view.read (Elt Ideal) (Cert.ReferenceIdeal.Hand.refN (Cert.ReferenceIdeal.Hand.refH (V c main_v24_0) (V c main_v37) (V c main_v39) b1 (V c main_v43) b2)) := by
  show (cfg1.win 7).cut (grid1.coords t) ((dat1 V c).after 7 t) = _
  rw [after1_7]
  unfold out1_7
  rw [View.canon_unit_zero hz1]
  simp only [View.ld_unit_zero (S := S10000x64) hz1, View.ld_unit_zero (S := S64x64) hz1, View.ld_unit_zero (S := S1x64) hz1]
  funext y
  have e := idx_facts1 t
  rw [Cert.Layer.k1_pay2_eq]
  refine n_block (iblk1 V c 0 t) (iblk1 V c 1 t) (iblk1 V c 2 t) (iblk1 V c 4 t) (iblk1 V c 3 t) (iblk1 V c 5 t)
    (V c main_v24_0) (V c main_v37) (V c main_v39) (V c main_v43) b1 b2 t.val
    (fun r R j hR => read1_0 V c t r R j hR) (fun r R j hR => read1_1 V c t r R j hR)
    (fun j k => read1_2 V c t j k) (fun j k => read1_4 V c t j k)
    (fun k => (read1_3 V c t k).trans (hb1 k)) (fun k => (read1_5 V c t k).trans (hb2 k)) y _ ?_ ?_
  · show win1_7.index t (0 : Fin 2) * 10000 + 1 * (y 0).val = t.val * 10000 + (y 0).val; omega
  · show win1_7.index t (1 : Fin 2) * 64 + 1 * (y 1).val = (y 1).val; omega

/-! ## The blocks tile the arrays -/

theorem mem_blk1_6 (t : Fin cfg1.N) (i : S150000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v48_0).slice (win1_6.rect t)).set ↔ _
  rw [View.set_slice_whole, Rect.mem_set_unit]
  exact Iff.rfl

/-- Every row of the array lies in the block of the grid point row / 10000. -/
theorem cover1_6 (i : S150000x64.Idx) : ∃ t : Fin cfg1.N, (cfg1.win 6).flush t = true ∧ i ∈ ((cfg1.win 6).blk t).view.set := by
  have hi0 : (i 0).val < 150000 := (i 0).isLt
  have hi1 : (i 1).val < 64 := (i 1).isLt
  have hN : cfg1.N = 15 := N_1
  let t : Fin cfg1.N := ⟨(i 0).val / 10000, lt_of_lt_of_eq (by omega) hN.symm⟩
  have e := idx_facts1 t
  have ht : t.val = (i 0).val / 10000 := rfl
  refine ⟨t, flush1_6 t, ?_⟩
  rw [mem_blk1_6]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

theorem mem_blk1_7 (t : Fin cfg1.N) (i : S150000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v48_1).slice (win1_7.rect t)).set ↔ _
  rw [View.set_slice_whole, Rect.mem_set_unit]
  exact Iff.rfl

/-- Every row of the array lies in the block of the grid point row / 10000. -/
theorem cover1_7 (i : S150000x64.Idx) : ∃ t : Fin cfg1.N, (cfg1.win 7).flush t = true ∧ i ∈ ((cfg1.win 7).blk t).view.set := by
  have hi0 : (i 0).val < 150000 := (i 0).isLt
  have hi1 : (i 1).val < 64 := (i 1).isLt
  have hN : cfg1.N = 15 := N_1
  let t : Fin cfg1.N := ⟨(i 0).val / 10000, lt_of_lt_of_eq (by omega) hN.symm⟩
  have e := idx_facts1 t
  have ht : t.val = (i 0).val / 10000 := rfl
  refine ⟨t, flush1_7 t, ?_⟩
  rw [mem_blk1_7]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 64 ≤ (i 1).val ∧ (i 1).val < win1_7.index t (1 : Fin 2) * 64 + 64; omega

/-! ## The arrays after the call -/

theorem final1_6 (c : Dev nD) (b1 b2 : FVec Ideal Cert.ReferenceIdeal.S64 .f32)
    (hb1 : ∀ k : Fin 64, (V c main_v46 : S1x64.Idx → EReal) (ix2 (0 : Fin 1) k) = b1 (ix1 k))
    (hb2 : ∀ k : Fin 64, (V c main_v47 : S1x64.Idx → EReal) (ix2 (0 : Fin 1) k) = b2 (ix1 k)) :
    (dat1 V c).arrAt 6 cfg1.N = (Cert.ReferenceIdeal.Hand.refH (V c main_v24_0) (V c main_v37) (V c main_v39) b1 (V c main_v43) b2) :=
  (dat1 V c).arrAt_eq_of_cover 6 _ (fun t _ => flushed1_6_eq V c b1 b2 hb1 hb2 t) cover1_6

theorem final1_7 (c : Dev nD) (b1 b2 : FVec Ideal Cert.ReferenceIdeal.S64 .f32)
    (hb1 : ∀ k : Fin 64, (V c main_v46 : S1x64.Idx → EReal) (ix2 (0 : Fin 1) k) = b1 (ix1 k))
    (hb2 : ∀ k : Fin 64, (V c main_v47 : S1x64.Idx → EReal) (ix2 (0 : Fin 1) k) = b2 (ix1 k)) :
    (dat1 V c).arrAt 7 cfg1.N = Cert.ReferenceIdeal.Hand.refN (Cert.ReferenceIdeal.Hand.refH (V c main_v24_0) (V c main_v37) (V c main_v39) b1 (V c main_v43) b2) :=
  (dat1 V c).arrAt_eq_of_cover 7 _ (fun t _ => flushed1_7_eq V c b1 b2 hb1 hb2 t) cover1_7

end Cert.KernelIdeal.Val

end
-- ==== Proof.IValue2.lean ====
/-
  Pallas call 2 of the idealized kernel program, read as values at the extended reals: the array behind its first
  output window ends holding the reference's layer function of the arrays the call is entered with, and the array
  behind its second output window that function's row normalisation. Grid point t's blocks are rows
  t·10000 … t·10000 + 9999 of the two row arrays and the whole of the weight and bias arrays; the fifteen blocks
  of an output tile its array.
-/
import proofs.«133046_j55070070670115_1_alg».proof.Proof.IFrame2
import proofs.«133046_j55070070670115_1_alg».proof.Proof.IValueCore
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row windows sit at block row t, every other window at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! ## The input blocks read at coordinates -/

theorem read2_0 (c : Dev nD) (t : Fin cfg2.N) (r : Fin 10000) (R : Fin 150000) (j : Fin 64) (hR : R.val = t.val * 10000 + r.val) :
    iblk2 V c 0 t (ix2 r j) = (V c main_v48_0 : Cert.ReferenceIdeal.S150000x64.Idx → EReal) (ix2 R j) := by
  unfold iblk2
  show V c main_v48_0 (((cfg2.win 0).blk t).view.emb (ix2 r j)) = V c main_v48_0 (ix2 R j)
  refine congrArg (V c main_v48_0) ?_
  funext a; apply Fin.ext
  have e := idx_facts2 t
  match a with
  | ⟨0, _⟩ => show win2_0.index t (0 : Fin 2) * 10000 + 1 * r.val = R.val; omega
  | ⟨1, _⟩ => show win2_0.index t (1 : Fin 2) * 64 + 1 * j.val = j.val; omega

theorem read2_1 (c : Dev nD) (t : Fin cfg2.N) (r : Fin 10000) (R : Fin 150000) (j : Fin 64) (hR : R.val = t.val * 10000 + r.val) :
    iblk2 V c 1 t (ix2 r j) = (V c main_v61 : Cert.ReferenceIdeal.S150000x64.Idx → EReal) (ix2 R j) := by
  unfold iblk2
  show V c main_v61 (((cfg2.win 1).blk t).view.emb (ix2 r j)) = V c main_v61 (ix2 R j)
  refine congrArg (V c main_v61) ?_
  funext a; apply Fin.ext
  have e := idx_facts2 t
  match a with
  | ⟨0, _⟩ => show win2_1.index t (0 : Fin 2) * 10000 + 1 * r.val = R.val; omega
  | ⟨1, _⟩ => show win2_1.index t (1 : Fin 2) * 64 + 1 * j.val = j.val; omega

theorem read2_2 (c : Dev nD) (t : Fin cfg2.N) (j k : Fin 64) :
    iblk2 V c 2 t (ix2 j k) = (V c main_v63 : Cert.ReferenceIdeal.S64x64.Idx → EReal) (ix2 j k) := by
  unfold iblk2
  show V c main_v63 (((cfg2.win 2).blk t).view.emb (ix2 j k)) = V c main_v63 (ix2 j k)
  refine congrArg (V c main_v63) ?_
  funext a; apply Fin.ext
  have e := idx_facts2 t
  match a with
  | ⟨0, _⟩ => show win2_2.index t (0 : Fin 2) * 64 + 1 * j.val = j.val; omega
  | ⟨1, _⟩ => show win2_2.index t (1 : Fin 2) * 64 + 1 * k.val = k.val; omega

theorem read2_3 (c : Dev nD) (t : Fin cfg2.N) (k : Fin 64) :
    iblk2 V c 3 t (ix2 (0 : Fin 1) k) = (V c main_v70 : S1x64.Idx → EReal) (ix2 (0 : Fin 1) k) := by
  unfold iblk2
  show V c main_v70 (((cfg2.win 3).blk t).view.emb (ix2 (0 : Fin 1) k)) = V c main_v70 (ix2 (0 : Fin 1) k)
  refine congrArg (V c main_v70) ?_
  funext a; apply Fin.ext
  have e := idx_facts2 t
  match a with
  | ⟨0, _⟩ => show win2_3.index t (0 : Fin 2) * 1 + 1 * 0 = 0; omega
  | ⟨1, _⟩ => show win2_3.index t (1 : Fin 2) * 64 + 1 * k.val = k.val; omega

theorem read2_4 (c : Dev nD) (t : Fin cfg2.N) (j k : Fin 64) :
    iblk2 V c 4 t (ix2 j k) = (V c main_v67 : Cert.ReferenceIdeal.S64x64.Idx → EReal) (ix2 j k) := by
  unfold iblk2
  show V c main_v67 (((cfg2.win 4).blk t).view.emb (ix2 j k)) = V c main_v67 (ix2 j k)
  refine congrArg (V c main_v67) ?_
  funext a; apply Fin.ext
  have e := idx_facts2 t
  match a with
  | ⟨0, _⟩ => show win2_4.index t (0 : Fin 2) * 64 + 1 * j.val = j.val; omega
  | ⟨1, _⟩ => show win2_4.index t (1 : Fin 2) * 64 + 1 * k.val = k.val; omega

theorem read2_5 (c : Dev nD) (t : Fin cfg2.N) (k : Fin 64) :
    iblk2 V c 5 t (ix2 (0 : Fin 1) k) = (V c main_v71 : S1x64.Idx → EReal) (ix2 (0 : Fin 1) k) := by
  unfold iblk2
  show V c main_v71 (((cfg2.win 5).blk t).view.emb (ix2 (0 : Fin 1) k)) = V c main_v71 (ix2 (0 : Fin 1) k)
  refine congrArg (V c main_v71) ?_
  funext a; apply Fin.ext
  have e := idx_facts2 t
  match a with
  | ⟨0, _⟩ => show win2_5.index t (0 : Fin 2) * 1 + 1 * 0 = 0; omega
  | ⟨1, _⟩ => show win2_5.index t (1 : Fin 2) * 64 + 1 * k.val = k.val; omega

/-! ## What a grid point writes back -/

theorem flushed2_6_eq (c : Dev nD) (b1 b2 : FVec Ideal Cert.ReferenceIdeal.S64 .f32)
    (hb1 : ∀ k : Fin 64, (V c main_v70 : S1x64.Idx → EReal) (ix2 (0 : Fin 1) k) = b1 (ix1 k))
    (hb2 : ∀ k : Fin 64, (V c main_v71 : S1x64.Idx → EReal) (ix2 (0 : Fin 1) k) = b2 (ix1 k)) (t : Fin cfg2.N) :
    (dat2 V c).flushed 6 t = ((cfg2.win 6).blk t).view.read (Elt Ideal) (Cert.ReferenceIdeal.Hand.refH (V c main_v48_0) (V c main_v61) (V c main_v63) b1 (V c main_v67) b2) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S1x64) hz2]
  funext y
  have e := idx_facts2 t
  rw [Cert.Layer.k2_pay1_eq]
  refine h_block (iblk2 V c 0 t) (iblk2 V c 1 t) (iblk2 V c 2 t) (iblk2 V c 4 t) (iblk2 V c 3 t) (iblk2 V c 5 t)
    (V c main_v48_0) (V c main_v61) (V c main_v63) (V c main_v67) b1 b2 t.val
    (fun r R j hR => read2_0 V c t r R j hR) (fun r R j hR => read2_1 V c t r R j hR)
    (fun j k => read2_2 V c t j k) (fun j k => read2_4 V c t j k)
    (fun k => (read2_3 V c t k).trans (hb1 k)) (fun k => (read2_5 V c t k).trans (hb2 k)) y _ ?_ ?_
  · show win2_6.index t (0 : Fin 2) * 10000 + 1 * (y 0).val = t.val * 10000 + (y 0).val; omega
  · show win2_6.index t (1 : Fin 2) * 64 + 1 * (y 1).val = (y 1).val; omega

theorem flushed2_7_eq (c : Dev nD) (b1 b2 : FVec Ideal Cert.ReferenceIdeal.S64 .f32)
    (hb1 : ∀ k : Fin 64, (V c main_v70 : S1x64.Idx → EReal) (ix2 (0 : Fin 1) k) = b1 (ix1 k))
    (hb2 : ∀ k : Fin 64, (V c main_v71 : S1x64.Idx → EReal) (ix2 (0 : Fin 1) k) = b2 (ix1 k)) (t : Fin cfg2.N) :
    (dat2 V c).flushed 7 t = ((cfg2.win 7).blk t).view.read (Elt Ideal) (Cert.ReferenceIdeal.Hand.refN (Cert.ReferenceIdeal.Hand.refH (V c main_v48_0) (V c main_v61) (V c main_v63) b1 (V c main_v67) b2)) := by
  show (cfg2.win 7).cut (grid2.coords t) ((dat2 V c).after 7 t) = _
  rw [after2_7]
  unfold out2_7
  rw [View.canon_unit_zero hz2]
  simp only [View.ld_unit_zero (S := S10000x64) hz2, View.ld_unit_zero (S := S64x64) hz2, View.ld_unit_zero (S := S1x64) hz2]
  funext y
  have e := idx_facts2 t
  rw [Cert.Layer.k2_pay2_eq]
  refine n_block (iblk2 V c 0 t) (iblk2 V c 1 t) (iblk2 V c 2 t) (iblk2 V c 4 t) (iblk2 V c 3 t) (iblk2 V c 5 t)
    (V c main_v48_0) (V c main_v61) (V c main_v63) (V c main_v67) b1 b2 t.val
    (fun r R j hR => read2_0 V c t r R j hR) (fun r R j hR => read2_1 V c t r R j hR)
    (fun j k => read2_2 V c t j k) (fun j k => read2_4 V c t j k)
    (fun k => (read2_3 V c t k).trans (hb1 k)) (fun k => (read2_5 V c t k).trans (hb2 k)) y _ ?_ ?_
  · show win2_7.index t (0 : Fin 2) * 10000 + 1 * (y 0).val = t.val * 10000 + (y 0).val; omega
  · show win2_7.index t (1 : Fin 2) * 64 + 1 * (y 1).val = (y 1).val; omega

/-! ## The blocks tile the arrays -/

theorem mem_blk2_6 (t : Fin cfg2.N) (i : S150000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v72_0).slice (win2_6.rect t)).set ↔ _
  rw [View.set_slice_whole, Rect.mem_set_unit]
  exact Iff.rfl

/-- Every row of the array lies in the block of the grid point row / 10000. -/
theorem cover2_6 (i : S150000x64.Idx) : ∃ t : Fin cfg2.N, (cfg2.win 6).flush t = true ∧ i ∈ ((cfg2.win 6).blk t).view.set := by
  have hi0 : (i 0).val < 150000 := (i 0).isLt
  have hi1 : (i 1).val < 64 := (i 1).isLt
  have hN : cfg2.N = 15 := N_2
  let t : Fin cfg2.N := ⟨(i 0).val / 10000, lt_of_lt_of_eq (by omega) hN.symm⟩
  have e := idx_facts2 t
  have ht : t.val = (i 0).val / 10000 := rfl
  refine ⟨t, flush2_6 t, ?_⟩
  rw [mem_blk2_6]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

theorem mem_blk2_7 (t : Fin cfg2.N) (i : S150000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v72_1).slice (win2_7.rect t)).set ↔ _
  rw [View.set_slice_whole, Rect.mem_set_unit]
  exact Iff.rfl

/-- Every row of the array lies in the block of the grid point row / 10000. -/
theorem cover2_7 (i : S150000x64.Idx) : ∃ t : Fin cfg2.N, (cfg2.win 7).flush t = true ∧ i ∈ ((cfg2.win 7).blk t).view.set := by
  have hi0 : (i 0).val < 150000 := (i 0).isLt
  have hi1 : (i 1).val < 64 := (i 1).isLt
  have hN : cfg2.N = 15 := N_2
  let t : Fin cfg2.N := ⟨(i 0).val / 10000, lt_of_lt_of_eq (by omega) hN.symm⟩
  have e := idx_facts2 t
  have ht : t.val = (i 0).val / 10000 := rfl
  refine ⟨t, flush2_7 t, ?_⟩
  rw [mem_blk2_7]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 64 ≤ (i 1).val ∧ (i 1).val < win2_7.index t (1 : Fin 2) * 64 + 64; omega

/-! ## The arrays after the call -/

theorem final2_6 (c : Dev nD) (b1 b2 : FVec Ideal Cert.ReferenceIdeal.S64 .f32)
    (hb1 : ∀ k : Fin 64, (V c main_v70 : S1x64.Idx → EReal) (ix2 (0 : Fin 1) k) = b1 (ix1 k))
    (hb2 : ∀ k : Fin 64, (V c main_v71 : S1x64.Idx → EReal) (ix2 (0 : Fin 1) k) = b2 (ix1 k)) :
    (dat2 V c).arrAt 6 cfg2.N = (Cert.ReferenceIdeal.Hand.refH (V c main_v48_0) (V c main_v61) (V c main_v63) b1 (V c main_v67) b2) :=
  (dat2 V c).arrAt_eq_of_cover 6 _ (fun t _ => flushed2_6_eq V c b1 b2 hb1 hb2 t) cover2_6

theorem final2_7 (c : Dev nD) (b1 b2 : FVec Ideal Cert.ReferenceIdeal.S64 .f32)
    (hb1 : ∀ k : Fin 64, (V c main_v70 : S1x64.Idx → EReal) (ix2 (0 : Fin 1) k) = b1 (ix1 k))
    (hb2 : ∀ k : Fin 64, (V c main_v71 : S1x64.Idx → EReal) (ix2 (0 : Fin 1) k) = b2 (ix1 k)) :
    (dat2 V c).arrAt 7 cfg2.N = Cert.ReferenceIdeal.Hand.refN (Cert.ReferenceIdeal.Hand.refH (V c main_v48_0) (V c main_v61) (V c main_v63) b1 (V c main_v67) b2) :=
  (dat2 V c).arrAt_eq_of_cover 7 _ (fun t _ => flushed2_7_eq V c b1 b2 hb1 hb2 t) cover2_7

end Cert.KernelIdeal.Val

end
-- ==== Proof.RefRunDefs.lean ====
/-
  The pieces of the reference's computation around one layer's two dense maps, each as ONE function of whole arrays
  written with the operations the reference program prints, in its order: the two embedding tables stacked; the sparse
  aggregation agg[r] = Σ over the edges (r, c) of val · ego[c]; one layer's weight matrix and bias out of the stacked
  parameters; the four embeddings side by side; and the gather of a batch of rows out of the first 100000 rows
  (the users) or out of the last 50000 (the items), a negative row number counted from the end.
-/
import proofs.«133046_j55070070670115_1_alg».proof.ReferenceIdeal

noncomputable section

namespace Cert.ReferenceIdeal.RefRun

open Idealize.ShloMosaic Cert.ReferenceIdeal
open Cert.ReferenceIdeal.Facts₀ Cert.ReferenceIdeal.Facts

variable {F : FTy → Type} [FloatOps F] [Cert.ReferenceIdeal.Facts]

/-- The user table on top of the item table: the 150000 starting embeddings. -/
def cat0 (u : FVec F S100000x64 .f32) (i : FVec F S50000x64 .f32) : FVec F S150000x64 .f32 :=
  concatenate S150000x64 0 [⟨S100000x64, u⟩, ⟨S50000x64, i⟩] concatenates_S100000x64_S50000x64_S150000x64_d0

/-- The sparse aggregation: for each of the 2000000 edges the row `ego[col]` (a negative `col` counted from the end)
    times the edge's weight, summed into row `row` of an array of zeros. -/
def spmm (ego : FVec F S150000x64 .f32) (vals : FVec F S2000000 .f32) (rows cols : IVec S2000000 32) :
    FVec F S150000x64 .f32 :=
  Host.scatterAdd scatter_S150000x64_S2000000x1_S2000000x64_1_0_0_1
    (broadcastInDim S150000x64 ![] bcast_S_S150000x64 (constant (F := F) S_ .f32 0x00000000#32))
    (broadcastInDim S2000000x1 ![0] bcast_S2000000_S2000000x1_0 rows)
    (mulf
      (broadcastInDim S2000000x64 ![0, 1] bcast_S2000000x1_S2000000x64_0_1
        (broadcastInDim S2000000x1 ![0] bcast_S2000000_S2000000x1_0 vals))
      (Host.gather gather_S150000x64_S2000000x1_S2000000x64_1_0_n_n_0_1_164 ego
        (broadcastInDim S2000000x1 ![0] bcast_S2000000_S2000000x1_0
          (select (cmpi .slt cols (broadcastInDim S2000000 ![] bcast_S_S2000000 (constantI S_ 32 0#32)))
            (addi cols (broadcastInDim S2000000 ![] bcast_S_S2000000 (constantI S_ 32 150000#32))) cols))))

/-- Layer `k`'s 64×64 weight matrix out of the three stacked ones. -/
def wK : Fin 3 → FVec F S3x64x64 .f32 → FVec F S64x64 .f32
  | 0, a => shapeCast S64x64 (extractStridedSlice S1x64x64 ![0, 0, 0] a slices_S3x64x64_S1x64x64_0_0_0) shapeCasts_S1x64x64_S64x64
  | 1, a => shapeCast S64x64 (extractStridedSlice S1x64x64 ![1, 0, 0] a slices_S3x64x64_S1x64x64_1_0_0) shapeCasts_S1x64x64_S64x64
  | 2, a => shapeCast S64x64 (extractStridedSlice S1x64x64 ![2, 0, 0] a slices_S3x64x64_S1x64x64_2_0_0) shapeCasts_S1x64x64_S64x64

/-- Layer `k`'s bias of 64 entries out of the three stacked ones. -/
def bK : Fin 3 → FVec F S3x64 .f32 → FVec F S64 .f32
  | 0, a => shapeCast S64 (extractStridedSlice S1x64 ![0, 0] a slices_S3x64_S1x64_0_0) shapeCasts_S1x64_S64
  | 1, a => shapeCast S64 (extractStridedSlice S1x64 ![1, 0] a slices_S3x64_S1x64_1_0) shapeCasts_S1x64_S64
  | 2, a => shapeCast S64 (extractStridedSlice S1x64 ![2, 0] a slices_S3x64_S1x64_2_0) shapeCasts_S1x64_S64

/-- The starting embeddings and the three layers' normalised ones side by side: 256 columns. -/
def cat4 (e0 n1 n2 n3 : FVec F S150000x64 .f32) : FVec F S150000x256 .f32 :=
  concatenate S150000x256 1 [⟨S150000x64, e0⟩, ⟨S150000x64, n1⟩, ⟨S150000x64, n2⟩, ⟨S150000x64, n3⟩]
    concatenates_S150000x64_S150000x64_S150000x64_S150000x64_S150000x256_d1

/-- A batch of 4096 rows of the users' part (rows 0 … 99999), a negative row number counted from 100000. -/
def tailU (pred : FVec F S150000x256 .f32) (idx : IVec S4096 32) : FVec F S4096x256 .f32 :=
  Host.gather gather_S100000x256_S4096x1_S4096x256_1_0_n_n_0_1_1256
    (extractStridedSlice S100000x256 ![0, 0] pred slices_S150000x256_S100000x256_0_0)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 100000#32))) idx))

/-- A batch of 4096 rows of the items' part (rows 100000 … 149999), a negative row number counted from 50000. -/
def tailI (pred : FVec F S150000x256 .f32) (idx : IVec S4096 32) : FVec F S4096x256 .f32 :=
  Host.gather gather_S50000x256_S4096x1_S4096x256_1_0_n_n_0_1_1256
    (extractStridedSlice S50000x256 ![100000, 0] pred slices_S150000x256_S50000x256_100000_0)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 50000#32))) idx))

end Cert.ReferenceIdeal.RefRun

end
-- ==== Proof.NetSpec.lean ====
/-
  The whole network as one function of the nine float and index arrays it reads: the stacked embeddings, three
  message-passing layers (each the sparse aggregation of the current embeddings followed by the dense layer; the next
  layer consumes the un-normalised output), and the starting embeddings beside the three normalised outputs.
-/
import proofs.«133046_j55070070670115_1_alg».proof.Proof.RefRunDefs
import proofs.«133046_j55070070670115_1_alg».proof.Proof.RefLayer

noncomputable section

namespace Cert.Net

open Idealize.ShloMosaic Cert.ReferenceIdeal Cert.ReferenceIdeal.RefRun Cert.ReferenceIdeal.Hand

variable {F : FTy → Type} [FloatOps F] [Cert.ReferenceIdeal.Facts]

/-- Layer k's un-normalised output from the current embeddings: aggregate, then the dense layer with layer k's parameters. -/
def layer (a2 : FVec F S3x64x64 .f32) (a3 : FVec F S3x64 .f32) (a4 : FVec F S3x64x64 .f32) (a5 : FVec F S3x64 .f32)
    (a6 : FVec F S2000000 .f32) (a7 a8 : IVec S2000000 32) (k : Fin 3) (ego : FVec F S150000x64 .f32) : FVec F S150000x64 .f32 :=
  refH ego (spmm ego a6 a7 a8) (wK k a2) (bK k a3) (wK k a4) (bK k a5)

/-- The 256 prediction columns of every node: the starting embeddings and the three layers' normalised outputs. -/
def pred (a0 : FVec F S100000x64 .f32) (a1 : FVec F S50000x64 .f32) (a2 : FVec F S3x64x64 .f32) (a3 : FVec F S3x64 .f32)
    (a4 : FVec F S3x64x64 .f32) (a5 : FVec F S3x64 .f32) (a6 : FVec F S2000000 .f32) (a7 a8 : IVec S2000000 32) :
    FVec F S150000x256 .f32 :=
  cat4 (cat0 a0 a1)
    (refN (layer a2 a3 a4 a5 a6 a7 a8 0 (cat0 a0 a1)))
    (refN (layer a2 a3 a4 a5 a6 a7 a8 1 (layer a2 a3 a4 a5 a6 a7 a8 0 (cat0 a0 a1))))
    (refN (layer a2 a3 a4 a5 a6 a7 a8 2 (layer a2 a3 a4 a5 a6 a7 a8 1 (layer a2 a3 a4 a5 a6 a7 a8 0 (cat0 a0 a1)))))

end Cert.Net

end
-- ==== Proof.KernelBias.lean ====
/-
  The host reshapes of one layer's bias and weight, read at an index.

  Each layer's bias is cut from the stacked [3, 64] array as a row [1, 64], reshaped to a vector [64] and back to a
  row [1, 64]; each weight is cut from [3, 64, 64] as [1, 64, 64] and reshaped to [64, 64]. A reshape keeps the
  row-major position, so the row read at `(0, k)` is the vector at `k`, the vector at `k` is the row at `(0, k)`, the
  round trip is the identity, and the matrix at `(j, k)` is the slab at `(0, j, k)`.
-/
import proofs.«133046_j55070070670115_1_alg».proof.Proof.Gen.KernelIdeal
import Idealize.ShloMosaic.Lib.ValueLayout

noncomputable section

namespace Cert.Layer

open Idealize.ShloMosaic Idealize.ShloMosaic.ValueIdx

variable {α : Type}

/-- A vector [64] reshaped to a row [1, 64] reads, at `(u, k)`, the vector at `k`. -/
theorem row_of_vec (b : Cert.KernelIdeal.S64.Idx → α) (h : Cert.KernelIdeal.S64.ShapeCasts Cert.KernelIdeal.S1x64)
    (u : Fin 1) (k : Fin 64) : shapeCast Cert.KernelIdeal.S1x64 b h (ix2 u k) = b (ix1 k) :=
  shapeCast_a_1a_apply b h u k

/-- A row [1, 64] reshaped to a vector [64] reads, at `k`, the row at `(0, k)`. -/
theorem vec_of_row (x : Cert.KernelIdeal.S1x64.Idx → α) (h : Cert.KernelIdeal.S1x64.ShapeCasts Cert.KernelIdeal.S64)
    (k : Fin 64) : shapeCast Cert.KernelIdeal.S64 x h (ix1 k) = x (ix2 (0 : Fin 1) k) :=
  shapeCast_1a_a_apply x h k

/-- A row reshaped to a vector and back is the row. -/
theorem row_of_vec_of_row (x : Cert.KernelIdeal.S1x64.Idx → α)
    (h : Cert.KernelIdeal.S1x64.ShapeCasts Cert.KernelIdeal.S64) (h' : Cert.KernelIdeal.S64.ShapeCasts Cert.KernelIdeal.S1x64) :
    shapeCast Cert.KernelIdeal.S1x64 (shapeCast Cert.KernelIdeal.S64 x h) h' = x :=
  shapeCast_shapeCast x h h'

/-- A slab [1, 64, 64] reshaped to a matrix [64, 64] reads, at `(j, k)`, the slab at `(0, j, k)`. -/
theorem mat_of_slab (x : Cert.KernelIdeal.S1x64x64.Idx → α)
    (h : Cert.KernelIdeal.S1x64x64.ShapeCasts Cert.KernelIdeal.S64x64) (j k : Fin 64) :
    shapeCast Cert.KernelIdeal.S64x64 x h (ix2 j k) = x (ix3 (0 : Fin 1) j k) :=
  shapeCast_1ab_ab_apply x h j k

/-- The bias vector reshaped to the row a kernel launch takes, at `(0, k)`: the vector at `k`. -/
theorem bias_row {F : FTy → Type} [FloatOps F] (b : FVec F Cert.KernelIdeal.S64 .f32) (k : Fin 64) :
    shapeCast Cert.KernelIdeal.S1x64 b Cert.KernelIdeal.Facts₀.shapeCasts_S64_S1x64 (ix2 (0 : Fin 1) k) = b (ix1 k) :=
  row_of_vec b _ 0 k

end Cert.Layer

end
-- ==== Proof.IBridge.lean ====
/-
  The idealized kernel program's results as the network function of its arguments. The buffers' contents are walked
  boundary by boundary: a host stretch computes the aggregation and slices the layer's parameters exactly as the
  reference does; a pallas call leaves the reference's dense layer and its normalisation of the arrays it is entered
  with; the last stretch puts the four embeddings side by side and gathers the three batches.
-/
import proofs.«133046_j55070070670115_1_alg».proof.Proof.IRun
import proofs.«133046_j55070070670115_1_alg».proof.Proof.IValue0
import proofs.«133046_j55070070670115_1_alg».proof.Proof.IValue1
import proofs.«133046_j55070070670115_1_alg».proof.Proof.IValue2
import proofs.«133046_j55070070670115_1_alg».proof.Proof.NetSpec
import proofs.«133046_j55070070670115_1_alg».proof.Proof.KernelBias
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.ShloMosaic.StableHlo
open Cert.ReferenceIdeal.RefRun (cat0 spmm wK bK cat4 tailU tailI)
open Cert.ReferenceIdeal.Hand (refH refN)
open Cert.KernelIdeal.Facts₀ Cert.KernelIdeal.Facts

variable [Cert.ReferenceIdeal.Facts]

section Stretches

variable (W : Valuation τ sig (Elt Ideal))

set_option maxHeartbeats 2000000 in
theorem s0_ego : StableHlo.after hostOps0 W (Proc.devRef .tc main_v0) = cat0 (F := Ideal) (W (Proc.devRef .tc main_arg0)) (W (Proc.devRef .tc main_arg1)) := by
  simp only [hostOps0]
  after_results_simp <;> rfl

/-! ### Host stretch 0: the aggregation of the current embeddings and layer 0's parameters -/

set_option maxHeartbeats 2000000 in
theorem s0_agg : StableHlo.after hostOps0 W (Proc.devRef .tc main_v13) = spmm (F := Ideal) (cat0 (F := Ideal) (W (Proc.devRef .tc main_arg0)) (W (Proc.devRef .tc main_arg1))) (W (Proc.devRef .tc main_arg6)) (W (Proc.devRef .tc main_arg7)) (W (Proc.devRef .tc main_arg8)) := by
  simp only [hostOps0]
  after_results_simp <;> rfl
set_option maxHeartbeats 2000000 in
theorem s0_w1 : StableHlo.after hostOps0 W (Proc.devRef .tc main_v15) = wK (F := Ideal) 0 (W (Proc.devRef .tc main_arg2)) := by
  simp only [hostOps0]
  after_results_simp <;> rfl
set_option maxHeartbeats 2000000 in
theorem s0_b1 : StableHlo.after hostOps0 W (Proc.devRef .tc main_v17) = bK (F := Ideal) 0 (W (Proc.devRef .tc main_arg3)) := by
  simp only [hostOps0]
  after_results_simp <;> rfl
set_option maxHeartbeats 2000000 in
theorem s0_w2 : StableHlo.after hostOps0 W (Proc.devRef .tc main_v19) = wK (F := Ideal) 0 (W (Proc.devRef .tc main_arg4)) := by
  simp only [hostOps0]
  after_results_simp <;> rfl
set_option maxHeartbeats 2000000 in
theorem s0_b2 : StableHlo.after hostOps0 W (Proc.devRef .tc main_v21) = bK (F := Ideal) 0 (W (Proc.devRef .tc main_arg5)) := by
  simp only [hostOps0]
  after_results_simp <;> rfl
set_option maxHeartbeats 2000000 in
theorem s0_b1row (j : Fin 64) : (StableHlo.after hostOps0 W (Proc.devRef .tc main_v22) : S1x64.Idx → EReal) (ix2 (0 : Fin 1) j) = (bK (F := Ideal) 0 (W (Proc.devRef .tc main_arg3)) : Cert.ReferenceIdeal.S64.Idx → EReal) (ix1 j) := by
  have h : StableHlo.after hostOps0 W (Proc.devRef .tc main_v22) = shapeCast S1x64 (StableHlo.after hostOps0 W (Proc.devRef .tc main_v17)) Cert.KernelIdeal.Facts₀.shapeCasts_S64_S1x64 := by
    simp only [hostOps0]
    after_results_simp <;> rfl
  rw [h, s0_b1]
  exact Cert.Layer.row_of_vec _ _ 0 j
set_option maxHeartbeats 2000000 in
theorem s0_b2row (j : Fin 64) : (StableHlo.after hostOps0 W (Proc.devRef .tc main_v23) : S1x64.Idx → EReal) (ix2 (0 : Fin 1) j) = (bK (F := Ideal) 0 (W (Proc.devRef .tc main_arg5)) : Cert.ReferenceIdeal.S64.Idx → EReal) (ix1 j) := by
  have h : StableHlo.after hostOps0 W (Proc.devRef .tc main_v23) = shapeCast S1x64 (StableHlo.after hostOps0 W (Proc.devRef .tc main_v21)) Cert.KernelIdeal.Facts₀.shapeCasts_S64_S1x64 := by
    simp only [hostOps0]
    after_results_simp <;> rfl
  rw [h, s0_b2]
  exact Cert.Layer.row_of_vec _ _ 0 j

/-! ### Host stretch 1: the aggregation of the current embeddings and layer 1's parameters -/

set_option maxHeartbeats 2000000 in
theorem s1_agg : StableHlo.after hostOps1 W (Proc.devRef .tc main_v37) = spmm (F := Ideal) (W (Proc.devRef .tc main_v24_0)) (W (Proc.devRef .tc main_arg6)) (W (Proc.devRef .tc main_arg7)) (W (Proc.devRef .tc main_arg8)) := by
  simp only [hostOps1]
  after_results_simp <;> rfl
set_option maxHeartbeats 2000000 in
theorem s1_w1 : StableHlo.after hostOps1 W (Proc.devRef .tc main_v39) = wK (F := Ideal) 1 (W (Proc.devRef .tc main_arg2)) := by
  simp only [hostOps1]
  after_results_simp <;> rfl
set_option maxHeartbeats 2000000 in
theorem s1_b1 : StableHlo.after hostOps1 W (Proc.devRef .tc main_v41) = bK (F := Ideal) 1 (W (Proc.devRef .tc main_arg3)) := by
  simp only [hostOps1]
  after_results_simp <;> rfl
set_option maxHeartbeats 2000000 in
theorem s1_w2 : StableHlo.after hostOps1 W (Proc.devRef .tc main_v43) = wK (F := Ideal) 1 (W (Proc.devRef .tc main_arg4)) := by
  simp only [hostOps1]
  after_results_simp <;> rfl
set_option maxHeartbeats 2000000 in
theorem s1_b2 : StableHlo.after hostOps1 W (Proc.devRef .tc main_v45) = bK (F := Ideal) 1 (W (Proc.devRef .tc main_arg5)) := by
  simp only [hostOps1]
  after_results_simp <;> rfl
set_option maxHeartbeats 2000000 in
theorem s1_b1row (j : Fin 64) : (StableHlo.after hostOps1 W (Proc.devRef .tc main_v46) : S1x64.Idx → EReal) (ix2 (0 : Fin 1) j) = (bK (F := Ideal) 1 (W (Proc.devRef .tc main_arg3)) : Cert.ReferenceIdeal.S64.Idx → EReal) (ix1 j) := by
  have h : StableHlo.after hostOps1 W (Proc.devRef .tc main_v46) = shapeCast S1x64 (StableHlo.after hostOps1 W (Proc.devRef .tc main_v41)) Cert.KernelIdeal.Facts₀.shapeCasts_S64_S1x64 := by
    simp only [hostOps1]
    after_results_simp <;> rfl
  rw [h, s1_b1]
  exact Cert.Layer.row_of_vec _ _ 0 j
set_option maxHeartbeats 2000000 in
theorem s1_b2row (j : Fin 64) : (StableHlo.after hostOps1 W (Proc.devRef .tc main_v47) : S1x64.Idx → EReal) (ix2 (0 : Fin 1) j) = (bK (F := Ideal) 1 (W (Proc.devRef .tc main_arg5)) : Cert.ReferenceIdeal.S64.Idx → EReal) (ix1 j) := by
  have h : StableHlo.after hostOps1 W (Proc.devRef .tc main_v47) = shapeCast S1x64 (StableHlo.after hostOps1 W (Proc.devRef .tc main_v45)) Cert.KernelIdeal.Facts₀.shapeCasts_S64_S1x64 := by
    simp only [hostOps1]
    after_results_simp <;> rfl
  rw [h, s1_b2]
  exact Cert.Layer.row_of_vec _ _ 0 j

/-! ### Host stretch 2: the aggregation of the current embeddings and layer 2's parameters -/

set_option maxHeartbeats 2000000 in
theorem s2_agg : StableHlo.after hostOps2 W (Proc.devRef .tc main_v61) = spmm (F := Ideal) (W (Proc.devRef .tc main_v48_0)) (W (Proc.devRef .tc main_arg6)) (W (Proc.devRef .tc main_arg7)) (W (Proc.devRef .tc main_arg8)) := by
  simp only [hostOps2]
  after_results_simp <;> rfl
set_option maxHeartbeats 2000000 in
theorem s2_w1 : StableHlo.after hostOps2 W (Proc.devRef .tc main_v63) = wK (F := Ideal) 2 (W (Proc.devRef .tc main_arg2)) := by
  simp only [hostOps2]
  after_results_simp <;> rfl
set_option maxHeartbeats 2000000 in
theorem s2_b1 : StableHlo.after hostOps2 W (Proc.devRef .tc main_v65) = bK (F := Ideal) 2 (W (Proc.devRef .tc main_arg3)) := by
  simp only [hostOps2]
  after_results_simp <;> rfl
set_option maxHeartbeats 2000000 in
theorem s2_w2 : StableHlo.after hostOps2 W (Proc.devRef .tc main_v67) = wK (F := Ideal) 2 (W (Proc.devRef .tc main_arg4)) := by
  simp only [hostOps2]
  after_results_simp <;> rfl
set_option maxHeartbeats 2000000 in
theorem s2_b2 : StableHlo.after hostOps2 W (Proc.devRef .tc main_v69) = bK (F := Ideal) 2 (W (Proc.devRef .tc main_arg5)) := by
  simp only [hostOps2]
  after_results_simp <;> rfl
set_option maxHeartbeats 2000000 in
theorem s2_b1row (j : Fin 64) : (StableHlo.after hostOps2 W (Proc.devRef .tc main_v70) : S1x64.Idx → EReal) (ix2 (0 : Fin 1) j) = (bK (F := Ideal) 2 (W (Proc.devRef .tc main_arg3)) : Cert.ReferenceIdeal.S64.Idx → EReal) (ix1 j) := by
  have h : StableHlo.after hostOps2 W (Proc.devRef .tc main_v70) = shapeCast S1x64 (StableHlo.after hostOps2 W (Proc.devRef .tc main_v65)) Cert.KernelIdeal.Facts₀.shapeCasts_S64_S1x64 := by
    simp only [hostOps2]
    after_results_simp <;> rfl
  rw [h, s2_b1]
  exact Cert.Layer.row_of_vec _ _ 0 j
set_option maxHeartbeats 2000000 in
theorem s2_b2row (j : Fin 64) : (StableHlo.after hostOps2 W (Proc.devRef .tc main_v71) : S1x64.Idx → EReal) (ix2 (0 : Fin 1) j) = (bK (F := Ideal) 2 (W (Proc.devRef .tc main_arg5)) : Cert.ReferenceIdeal.S64.Idx → EReal) (ix1 j) := by
  have h : StableHlo.after hostOps2 W (Proc.devRef .tc main_v71) = shapeCast S1x64 (StableHlo.after hostOps2 W (Proc.devRef .tc main_v69)) Cert.KernelIdeal.Facts₀.shapeCasts_S64_S1x64 := by
    simp only [hostOps2]
    after_results_simp <;> rfl
  rw [h, s2_b2]
  exact Cert.Layer.row_of_vec _ _ 0 j

/-! ### The last host stretch: the four embeddings side by side, and the three gathered batches -/

set_option maxHeartbeats 2000000 in
theorem s3_u : StableHlo.after hostOps3 W (Proc.devRef .tc main_v82) = tailU (F := Ideal) (cat4 (F := Ideal) (W (Proc.devRef .tc main_v0)) (W (Proc.devRef .tc main_v24_1)) (W (Proc.devRef .tc main_v48_1)) (W (Proc.devRef .tc main_v72_1))) (W (Proc.devRef .tc main_arg9)) := by
  simp only [hostOps3]
  after_results_simp <;> rfl
set_option maxHeartbeats 2000000 in
theorem s3_i : StableHlo.after hostOps3 W (Proc.devRef .tc main_v89) = tailI (F := Ideal) (cat4 (F := Ideal) (W (Proc.devRef .tc main_v0)) (W (Proc.devRef .tc main_v24_1)) (W (Proc.devRef .tc main_v48_1)) (W (Proc.devRef .tc main_v72_1))) (W (Proc.devRef .tc main_arg10)) := by
  simp only [hostOps3]
  after_results_simp <;> rfl
set_option maxHeartbeats 2000000 in
theorem s3_j : StableHlo.after hostOps3 W (Proc.devRef .tc main_v96) = tailI (F := Ideal) (cat4 (F := Ideal) (W (Proc.devRef .tc main_v0)) (W (Proc.devRef .tc main_v24_1)) (W (Proc.devRef .tc main_v48_1)) (W (Proc.devRef .tc main_v72_1))) (W (Proc.devRef .tc main_arg11)) := by
  simp only [hostOps3]
  after_results_simp <;> rfl

end Stretches

section Walk

variable (m : (ℓ : Loc nD τ sig) → Buf (Elt Ideal) ℓ) (c : Dev nD)

/-- An argument array as launched. -/
abbrev arg (r : Ref sig .tc) : Buf (Elt Ideal) ((c : Thread nD τ).loc r) := m ((c : Thread nD τ).loc r)

/-! ### A buffer that nothing so far has written holds its launch contents -/

theorem W2_keep (r : Ref sig .tc) (h0 : r ∉ hostOps0_W) (n0 : ∀ w, Pipeline.arrRef spec0 w ≠ r) :
    W2 m c (Proc.devRef .tc r) = arg m c r :=
  (W2_of_ne m c r n0).trans ((W1_of m c r h0).trans rfl)
theorem W4_keep (r : Ref sig .tc) (h0 : r ∉ hostOps0_W) (h1 : r ∉ hostOps1_W) (n0 : ∀ w, Pipeline.arrRef spec0 w ≠ r)
    (n1 : ∀ w, Pipeline.arrRef spec1 w ≠ r) : W4 m c (Proc.devRef .tc r) = arg m c r :=
  (W4_of_ne m c r n1).trans ((W3_of m c r h1).trans (W2_keep m c r h0 n0))
theorem W6_keep (r : Ref sig .tc) (h0 : r ∉ hostOps0_W) (h1 : r ∉ hostOps1_W) (h2 : r ∉ hostOps2_W) (n0 : ∀ w, Pipeline.arrRef spec0 w ≠ r)
    (n1 : ∀ w, Pipeline.arrRef spec1 w ≠ r) (n2 : ∀ w, Pipeline.arrRef spec2 w ≠ r) : W6 m c (Proc.devRef .tc r) = arg m c r :=
  (W6_of_ne m c r n2).trans ((W5_of m c r h2).trans (W4_keep m c r h0 h1 n0 n1))

/-! ### Layer 1 -/

theorem ego0_eq : W1 m c (Proc.devRef .tc main_v0) = (cat0 (F := Ideal) (arg m c main_arg0) (arg m c main_arg1)) := s0_ego (W0 m c)

theorem h1_eq : W2 m c (Proc.devRef .tc main_v24_0) = (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))) := by
  have h := final0_6 (U1 m) c (bK (F := Ideal) 0 (arg m c main_arg3)) (bK (F := Ideal) 0 (arg m c main_arg5)) (fun k => s0_b1row (W0 m c) k) (fun k => s0_b2row (W0 m c) k)
  have e0 : U1 m c main_v0 = (cat0 (F := Ideal) (arg m c main_arg0) (arg m c main_arg1)) := s0_ego (W0 m c)
  have e1 : U1 m c main_v13 = spmm (F := Ideal) (cat0 (F := Ideal) (arg m c main_arg0) (arg m c main_arg1)) (arg m c main_arg6) (arg m c main_arg7) (arg m c main_arg8) := s0_agg (W0 m c)
  have e2 : U1 m c main_v15 = wK (F := Ideal) 0 (arg m c main_arg2) := s0_w1 (W0 m c)
  have e3 : U1 m c main_v19 = wK (F := Ideal) 0 (arg m c main_arg4) := s0_w2 (W0 m c)
  rw [e0, e1, e2, e3] at h
  exact (W2_arr m c 6).trans h

theorem n1_eq : W2 m c (Proc.devRef .tc main_v24_1) = refN (F := Ideal) (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))) := by
  have h := final0_7 (U1 m) c (bK (F := Ideal) 0 (arg m c main_arg3)) (bK (F := Ideal) 0 (arg m c main_arg5)) (fun k => s0_b1row (W0 m c) k) (fun k => s0_b2row (W0 m c) k)
  have e0 : U1 m c main_v0 = (cat0 (F := Ideal) (arg m c main_arg0) (arg m c main_arg1)) := s0_ego (W0 m c)
  have e1 : U1 m c main_v13 = spmm (F := Ideal) (cat0 (F := Ideal) (arg m c main_arg0) (arg m c main_arg1)) (arg m c main_arg6) (arg m c main_arg7) (arg m c main_arg8) := s0_agg (W0 m c)
  have e2 : U1 m c main_v15 = wK (F := Ideal) 0 (arg m c main_arg2) := s0_w1 (W0 m c)
  have e3 : U1 m c main_v19 = wK (F := Ideal) 0 (arg m c main_arg4) := s0_w2 (W0 m c)
  rw [e0, e1, e2, e3] at h
  exact (W2_arr m c 7).trans h

/-! ### Layer 2 -/

theorem h2_eq : W4 m c (Proc.devRef .tc main_v48_0) = (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1)))) := by
  have h := final1_6 (U3 m) c (bK (F := Ideal) 1 (W2 m c (Proc.devRef .tc main_arg3))) (bK (F := Ideal) 1 (W2 m c (Proc.devRef .tc main_arg5))) (fun k => s1_b1row (W2 m c) k) (fun k => s1_b2row (W2 m c) k)
  have e0 : U3 m c main_v24_0 = (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))) := (W3_of m c main_v24_0 (by decide)).trans (h1_eq m c)
  have e1 : U3 m c main_v37 = spmm (F := Ideal) (W2 m c (Proc.devRef .tc main_v24_0)) (W2 m c (Proc.devRef .tc main_arg6)) (W2 m c (Proc.devRef .tc main_arg7)) (W2 m c (Proc.devRef .tc main_arg8)) := s1_agg (W2 m c)
  have e2 : U3 m c main_v39 = wK (F := Ideal) 1 (W2 m c (Proc.devRef .tc main_arg2)) := s1_w1 (W2 m c)
  have e3 : U3 m c main_v43 = wK (F := Ideal) 1 (W2 m c (Proc.devRef .tc main_arg4)) := s1_w2 (W2 m c)
  rw [e0, e1, e2, e3, h1_eq m c, W2_keep m c main_arg2 (by decide) (by decide), W2_keep m c main_arg3 (by decide) (by decide),
    W2_keep m c main_arg4 (by decide) (by decide), W2_keep m c main_arg5 (by decide) (by decide), W2_keep m c main_arg6 (by decide) (by decide),
    W2_keep m c main_arg7 (by decide) (by decide), W2_keep m c main_arg8 (by decide) (by decide)] at h
  exact (W4_arr m c 6).trans h

theorem n2_eq : W4 m c (Proc.devRef .tc main_v48_1) = refN (F := Ideal) (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1)))) := by
  have h := final1_7 (U3 m) c (bK (F := Ideal) 1 (W2 m c (Proc.devRef .tc main_arg3))) (bK (F := Ideal) 1 (W2 m c (Proc.devRef .tc main_arg5))) (fun k => s1_b1row (W2 m c) k) (fun k => s1_b2row (W2 m c) k)
  have e0 : U3 m c main_v24_0 = (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))) := (W3_of m c main_v24_0 (by decide)).trans (h1_eq m c)
  have e1 : U3 m c main_v37 = spmm (F := Ideal) (W2 m c (Proc.devRef .tc main_v24_0)) (W2 m c (Proc.devRef .tc main_arg6)) (W2 m c (Proc.devRef .tc main_arg7)) (W2 m c (Proc.devRef .tc main_arg8)) := s1_agg (W2 m c)
  have e2 : U3 m c main_v39 = wK (F := Ideal) 1 (W2 m c (Proc.devRef .tc main_arg2)) := s1_w1 (W2 m c)
  have e3 : U3 m c main_v43 = wK (F := Ideal) 1 (W2 m c (Proc.devRef .tc main_arg4)) := s1_w2 (W2 m c)
  rw [e0, e1, e2, e3, h1_eq m c, W2_keep m c main_arg2 (by decide) (by decide), W2_keep m c main_arg3 (by decide) (by decide),
    W2_keep m c main_arg4 (by decide) (by decide), W2_keep m c main_arg5 (by decide) (by decide), W2_keep m c main_arg6 (by decide) (by decide),
    W2_keep m c main_arg7 (by decide) (by decide), W2_keep m c main_arg8 (by decide) (by decide)] at h
  exact (W4_arr m c 7).trans h

/-! ### Layer 3 -/

theorem h3_eq : W6 m c (Proc.devRef .tc main_v72_0) = (Cert.Net.layer (F := Ideal) (arg m c main_arg2) (arg m c main_arg3) (arg m c main_arg4) (arg m c main_arg5) (arg m c main_arg6) (arg m c main_arg7) (arg m c main_arg8) 2 (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))))) := by
  have h := final2_6 (U5 m) c (bK (F := Ideal) 2 (W4 m c (Proc.devRef .tc main_arg3))) (bK (F := Ideal) 2 (W4 m c (Proc.devRef .tc main_arg5))) (fun k => s2_b1row (W4 m c) k) (fun k => s2_b2row (W4 m c) k)
  have e0 : U5 m c main_v48_0 = (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1)))) := (W5_of m c main_v48_0 (by decide)).trans (h2_eq m c)
  have e1 : U5 m c main_v61 = spmm (F := Ideal) (W4 m c (Proc.devRef .tc main_v48_0)) (W4 m c (Proc.devRef .tc main_arg6)) (W4 m c (Proc.devRef .tc main_arg7)) (W4 m c (Proc.devRef .tc main_arg8)) := s2_agg (W4 m c)
  have e2 : U5 m c main_v63 = wK (F := Ideal) 2 (W4 m c (Proc.devRef .tc main_arg2)) := s2_w1 (W4 m c)
  have e3 : U5 m c main_v67 = wK (F := Ideal) 2 (W4 m c (Proc.devRef .tc main_arg4)) := s2_w2 (W4 m c)
  rw [e0, e1, e2, e3, h2_eq m c, W4_keep m c main_arg2 (by decide) (by decide) (by decide) (by decide), W4_keep m c main_arg3 (by decide) (by decide) (by decide) (by decide),
    W4_keep m c main_arg4 (by decide) (by decide) (by decide) (by decide), W4_keep m c main_arg5 (by decide) (by decide) (by decide) (by decide),
    W4_keep m c main_arg6 (by decide) (by decide) (by decide) (by decide), W4_keep m c main_arg7 (by decide) (by decide) (by decide) (by decide),
    W4_keep m c main_arg8 (by decide) (by decide) (by decide) (by decide)] at h
  exact (W6_arr m c 6).trans h

theorem n3_eq : W6 m c (Proc.devRef .tc main_v72_1) = refN (F := Ideal) (Cert.Net.layer (F := Ideal) (arg m c main_arg2) (arg m c main_arg3) (arg m c main_arg4) (arg m c main_arg5) (arg m c main_arg6) (arg m c main_arg7) (arg m c main_arg8) 2 (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))))) := by
  have h := final2_7 (U5 m) c (bK (F := Ideal) 2 (W4 m c (Proc.devRef .tc main_arg3))) (bK (F := Ideal) 2 (W4 m c (Proc.devRef .tc main_arg5))) (fun k => s2_b1row (W4 m c) k) (fun k => s2_b2row (W4 m c) k)
  have e0 : U5 m c main_v48_0 = (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1)))) := (W5_of m c main_v48_0 (by decide)).trans (h2_eq m c)
  have e1 : U5 m c main_v61 = spmm (F := Ideal) (W4 m c (Proc.devRef .tc main_v48_0)) (W4 m c (Proc.devRef .tc main_arg6)) (W4 m c (Proc.devRef .tc main_arg7)) (W4 m c (Proc.devRef .tc main_arg8)) := s2_agg (W4 m c)
  have e2 : U5 m c main_v63 = wK (F := Ideal) 2 (W4 m c (Proc.devRef .tc main_arg2)) := s2_w1 (W4 m c)
  have e3 : U5 m c main_v67 = wK (F := Ideal) 2 (W4 m c (Proc.devRef .tc main_arg4)) := s2_w2 (W4 m c)
  rw [e0, e1, e2, e3, h2_eq m c, W4_keep m c main_arg2 (by decide) (by decide) (by decide) (by decide), W4_keep m c main_arg3 (by decide) (by decide) (by decide) (by decide),
    W4_keep m c main_arg4 (by decide) (by decide) (by decide) (by decide), W4_keep m c main_arg5 (by decide) (by decide) (by decide) (by decide),
    W4_keep m c main_arg6 (by decide) (by decide) (by decide) (by decide), W4_keep m c main_arg7 (by decide) (by decide) (by decide) (by decide),
    W4_keep m c main_arg8 (by decide) (by decide) (by decide) (by decide)] at h
  exact (W6_arr m c 7).trans h

/-! ### The four embeddings at the last boundary, and the results -/

/-- The starting embeddings reach the last stretch untouched: the calls read them through an input window. -/
theorem ego0_last : W6 m c (Proc.devRef .tc main_v0) = (cat0 (F := Ideal) (arg m c main_arg0) (arg m c main_arg1)) :=
  (W6_of_ne m c main_v0 (by decide)).trans <| (W5_of m c main_v0 (by decide)).trans <| (W4_of_ne m c main_v0 (by decide)).trans <|
    (W3_of m c main_v0 (by decide)).trans <|
    ((W2_arr m c 0).trans (((dat0 (U1 m) c).arrAt_in 0 rfl _).trans (A_eq0 (U1 m) c 0))).trans (ego0_eq m c)
theorem n1_last : W6 m c (Proc.devRef .tc main_v24_1) = refN (F := Ideal) (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1))) :=
  (W6_of_ne m c main_v24_1 (by decide)).trans <| (W5_of m c main_v24_1 (by decide)).trans <| (W4_of_ne m c main_v24_1 (by decide)).trans <|
    (W3_of m c main_v24_1 (by decide)).trans (n1_eq m c)
theorem n2_last : W6 m c (Proc.devRef .tc main_v48_1) = refN (F := Ideal) (Cert.Net.layer (F := Ideal) (arg m c main_arg2) (arg m c main_arg3) (arg m c main_arg4) (arg m c main_arg5) (arg m c main_arg6) (arg m c main_arg7) (arg m c main_arg8) 1 (Cert.Net.layer (F := Ideal) (arg m c main_arg2) (arg m c main_arg3) (arg m c main_arg4) (arg m c main_arg5) (arg m c main_arg6) (arg m c main_arg7) (arg m c main_arg8) 0 (cat0 (F := Ideal) (arg m c main_arg0) (arg m c main_arg1)))) :=
  (W6_of_ne m c main_v48_1 (by decide)).trans <| (W5_of m c main_v48_1 (by decide)).trans (n2_eq m c)

theorem pred_last : cat4 (F := Ideal) (W6 m c (Proc.devRef .tc main_v0)) (W6 m c (Proc.devRef .tc main_v24_1)) (W6 m c (Proc.devRef .tc main_v48_1)) (W6 m c (Proc.devRef .tc main_v72_1))
    = Cert.Net.pred (F := Ideal) (arg m c main_arg0) (arg m c main_arg1) (arg m c main_arg2) (arg m c main_arg3) (arg m c main_arg4) (arg m c main_arg5) (arg m c main_arg6) (arg m c main_arg7) (arg m c main_arg8) := by
  rw [ego0_last m c, n1_last m c, n2_last m c, n3_eq m c]
  rfl

/-- THE RESULTS: at the last boundary the three result buffers hold the gathered batches of the network's prediction columns. -/
theorem result_u : W7 m c (Proc.devRef .tc main_v82) = tailU (F := Ideal) (Cert.Net.pred (F := Ideal) (arg m c main_arg0) (arg m c main_arg1) (arg m c main_arg2) (arg m c main_arg3) (arg m c main_arg4) (arg m c main_arg5) (arg m c main_arg6) (arg m c main_arg7) (arg m c main_arg8)) (arg m c main_arg9) := by
  have h := s3_u (W6 m c)
  rw [pred_last m c, W6_keep m c main_arg9 (by decide) (by decide) (by decide) (by decide) (by decide) (by decide)] at h
  exact h
theorem result_i : W7 m c (Proc.devRef .tc main_v89) = tailI (F := Ideal) (Cert.Net.pred (F := Ideal) (arg m c main_arg0) (arg m c main_arg1) (arg m c main_arg2) (arg m c main_arg3) (arg m c main_arg4) (arg m c main_arg5) (arg m c main_arg6) (arg m c main_arg7) (arg m c main_arg8)) (arg m c main_arg10) := by
  have h := s3_i (W6 m c)
  rw [pred_last m c, W6_keep m c main_arg10 (by decide) (by decide) (by decide) (by decide) (by decide) (by decide)] at h
  exact h
theorem result_j : W7 m c (Proc.devRef .tc main_v96) = tailI (F := Ideal) (Cert.Net.pred (F := Ideal) (arg m c main_arg0) (arg m c main_arg1) (arg m c main_arg2) (arg m c main_arg3) (arg m c main_arg4) (arg m c main_arg5) (arg m c main_arg6) (arg m c main_arg7) (arg m c main_arg8)) (arg m c main_arg11) := by
  have h := s3_j (W6 m c)
  rw [pred_last m c, W6_keep m c main_arg11 (by decide) (by decide) (by decide) (by decide) (by decide) (by decide)] at h
  exact h

end Walk

end Cert.KernelIdeal.Val

end
-- ==== Proof.RefRunSegs.lean ====
/- The reference program's 187 host operations, in order, as thirteen consecutive lists: each call of a module-local
   function is its body's operations over that call's buffers. With every list: the buffers its operations write, that
   every buffer an operation touches is a TensorCore reference, and that an operation writes only a listed buffer. -/
import proofs.«133046_j55070070670115_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The two embedding tables stacked into one array of 150000 rows. -/
abbrev segA0 : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]
/-- The buffers these operations write. -/
abbrev segA0_W : List (Ref sig .tc) := [main_v0]
theorem segA0_sub : (segA0 : List (HloOp τ sig (Elt F))).Forall fun op => op.bufs ⊆ tcRefs τ sig :=
  binary_bufs_sub ..
theorem segA0_writes : (segA0 : List (HloOp τ sig (Elt F))).Forall fun op => op.writes ⊆ (segA0_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

/-- Layer 1, the sparse aggregation: the edge weights times the gathered rows, summed into the rows' targets. -/
abbrev segS1 : List (HloOp τ sig (Elt F)) :=
  [ unary main_arg6 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg8 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 150000#32),
    unary main_c_0 main_v4 (broadcastInDim S2000000 ![] bcast_S_S2000000 : (⟨S_, .i32⟩ : BufTy).Contents (Elt F) → (⟨S2000000, .i32⟩ : BufTy).Contents (Elt F)),
    binary main_arg8 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg8 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg7 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)) ]
/-- The buffers these operations write. -/
abbrev segS1_W : List (Ref sig .tc) := [main_v1, main_c, main_v2, main_v3, main_c_0, main_v4, main_v5, main_v6, main_v7, main_v8, main_v9, main_v10, main_cst, main_v11, main_v12, main_v13]
theorem segS1_sub : (segS1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem segS1_writes : (segS1 : List (HloOp τ sig (Elt F))).Forall fun op => op.writes ⊆ (segS1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 1: the two linear maps with their biases, their sum, and the leaky rectifier. -/
abbrev segH1 : List (HloOp τ sig (Elt F)) :=
  [ binary main_v0 main_v13 main_v14 (mulf : (⟨S150000x64, .f32⟩ : BufTy).Contents (Elt F) → (⟨S150000x64, .f32⟩ : BufTy).Contents (Elt F) → (⟨S150000x64, .f32⟩ : BufTy).Contents (Elt F)),
    unary main_arg2 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    binary main_v13 main_v16 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S150000x64 ![0, 1] bcast_S1x64_S150000x64_0_1 : (⟨S1x64, .f32⟩ : BufTy).Contents (Elt F) → (⟨S150000x64, .f32⟩ : BufTy).Contents (Elt F)),
    binary main_v17 main_v21 main_v22 (addf : (⟨S150000x64, .f32⟩ : BufTy).Contents (Elt F) → (⟨S150000x64, .f32⟩ : BufTy).Contents (Elt F) → (⟨S150000x64, .f32⟩ : BufTy).Contents (Elt F)),
    unary main_arg4 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v23 main_v24 rfl shapeCasts_S1x64x64_S64x64,
    binary main_v14 main_v24 main_v25 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    binary main_v22 main_v25 main_v26 (addf : (⟨S150000x64, .f32⟩ : BufTy).Contents (Elt F) → (⟨S150000x64, .f32⟩ : BufTy).Contents (Elt F) → (⟨S150000x64, .f32⟩ : BufTy).Contents (Elt F)),
    unary main_arg5 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S150000x64 ![0, 1] bcast_S1x64_S150000x64_0_1 : (⟨S1x64, .f32⟩ : BufTy).Contents (Elt F) → (⟨S150000x64, .f32⟩ : BufTy).Contents (Elt F)),
    binary main_v26 main_v30 main_v31 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3C23D70A#32),
    nullary main_call0_cst (constant S_ .f32 0x00000000#32),
    unary main_call0_cst main_call0_v0 (broadcastInDim S150000x64 ![] bcast_S_S150000x64 : (⟨S_, .f32⟩ : BufTy).Contents (Elt F) → (⟨S150000x64, .f32⟩ : BufTy).Contents (Elt F)),
    binary main_v31 main_call0_v0 main_call0_v1 (cmpf .oge : (⟨S150000x64, .f32⟩ : BufTy).Contents (Elt F) → (⟨S150000x64, .f32⟩ : BufTy).Contents (Elt F) → (⟨S150000x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S150000x64 ![] bcast_S_S150000x64 : (⟨S_, .f32⟩ : BufTy).Contents (Elt F) → (⟨S150000x64, .f32⟩ : BufTy).Contents (Elt F)),
    binary main_call0_v3 main_v31 main_call0_v4 (mulf : (⟨S150000x64, .f32⟩ : BufTy).Contents (Elt F) → (⟨S150000x64, .f32⟩ : BufTy).Contents (Elt F) → (⟨S150000x64, .f32⟩ : BufTy).Contents (Elt F)),
    ternary main_call0_v1 main_v31 main_call0_v4 main_v32 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)) ]
/-- The buffers these operations write. -/
abbrev segH1_W : List (Ref sig .tc) := [main_v14, main_v15, main_v16, main_v17, main_v18, main_v19, main_v20, main_v21, main_v22, main_v23, main_v24, main_v25, main_v26, main_v27, main_v28, main_v29, main_v30, main_v31, main_cst_1, main_call0_cst, main_call0_v0, main_call0_v1, main_call0_v2, main_call0_v3, main_call0_v4, main_v32]
theorem segH1_sub : (segH1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem segH1_writes : (segH1 : List (HloOp τ sig (Elt F))).Forall fun op => op.writes ⊆ (segH1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 1: every row divided by its Euclidean length floored at 1e-12. -/
abbrev segN1 : List (HloOp τ sig (Elt F)) :=
  [ binary main_v32 main_v32 main_call1_v0 (mulf : (⟨S150000x64, .f32⟩ : BufTy).Contents (Elt F) → (⟨S150000x64, .f32⟩ : BufTy).Contents (Elt F) → (⟨S150000x64, .f32⟩ : BufTy).Contents (Elt F)),
    nullary main_call1_cst (constant S_ .f32 0x00000000#32),
    binary main_call1_v0 main_call1_cst main_call1_v1 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_call1_v1 main_call1_v2 (broadcastInDim S150000x1 ![0] bcast_S150000_S150000x1_0 : (⟨S150000, .f32⟩ : BufTy).Contents (Elt F) → (⟨S150000x1, .f32⟩ : BufTy).Contents (Elt F)),
    unary main_call1_v2 main_v33 (Host.sqrt : (⟨S150000x1, .f32⟩ : BufTy).Contents (Elt F) → (⟨S150000x1, .f32⟩ : BufTy).Contents (Elt F)),
    nullary main_cst_2 (constant S_ .f32 0x2B8CBCCC#32),
    unary main_cst_2 main_v34 (broadcastInDim S150000x1 ![] bcast_S_S150000x1 : (⟨S_, .f32⟩ : BufTy).Contents (Elt F) → (⟨S150000x1, .f32⟩ : BufTy).Contents (Elt F)),
    binary main_v33 main_v34 main_v35 (maximumf : (⟨S150000x1, .f32⟩ : BufTy).Contents (Elt F) → (⟨S150000x1, .f32⟩ : BufTy).Contents (Elt F) → (⟨S150000x1, .f32⟩ : BufTy).Contents (Elt F)),
    unary main_v35 main_v36 (broadcastInDim S150000x64 ![0, 1] bcast_S150000x1_S150000x64_0_1 : (⟨S150000x1, .f32⟩ : BufTy).Contents (Elt F) → (⟨S150000x64, .f32⟩ : BufTy).Contents (Elt F)),
    binary main_v32 main_v36 main_v37 (Host.divf : (⟨S150000x64, .f32⟩ : BufTy).Contents (Elt F) → (⟨S150000x64, .f32⟩ : BufTy).Contents (Elt F) → (⟨S150000x64, .f32⟩ : BufTy).Contents (Elt F)) ]
/-- The buffers these operations write. -/
abbrev segN1_W : List (Ref sig .tc) := [main_call1_v0, main_call1_cst, main_call1_v1, main_call1_v2, main_v33, main_cst_2, main_v34, main_v35, main_v36, main_v37]
theorem segN1_sub : (segN1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem segN1_writes : (segN1 : List (HloOp τ sig (Elt F))).Forall fun op => op.writes ⊆ (segN1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 2, the sparse aggregation. -/
abbrev segS2 : List (HloOp τ sig (Elt F)) :=
  [ unary main_arg6 main_v38 (broadcastInDim S2000000x1 ![0] bcast_S2000000_S2000000x1_0 : (⟨S2000000, .f32⟩ : BufTy).Contents (Elt F) → (⟨S2000000x1, .f32⟩ : BufTy).Contents (Elt F)),
    nullary main_c_3 (constantI S_ 32 0#32),
    unary main_c_3 main_v39 (broadcastInDim S2000000 ![] bcast_S_S2000000 : (⟨S_, .i32⟩ : BufTy).Contents (Elt F) → (⟨S2000000, .i32⟩ : BufTy).Contents (Elt F)),
    binary main_arg8 main_v39 main_v40 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 150000#32),
    unary main_c_4 main_v41 (broadcastInDim S2000000 ![] bcast_S_S2000000 : (⟨S_, .i32⟩ : BufTy).Contents (Elt F) → (⟨S2000000, .i32⟩ : BufTy).Contents (Elt F)),
    binary main_arg8 main_v41 main_v42 (addi : (⟨S2000000, .i32⟩ : BufTy).Contents (Elt F) → (⟨S2000000, .i32⟩ : BufTy).Contents (Elt F) → (⟨S2000000, .i32⟩ : BufTy).Contents (Elt F)),
    ternary main_v40 main_v42 main_arg8 main_v43 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v43 main_v44 (broadcastInDim S2000000x1 ![0] bcast_S2000000_S2000000x1_0 : (⟨S2000000, .i32⟩ : BufTy).Contents (Elt F) → (⟨S2000000x1, .i32⟩ : BufTy).Contents (Elt F)),
    binary main_v32 main_v44 main_v45 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v38 main_v46 (broadcastInDim S2000000x64 ![0, 1] bcast_S2000000x1_S2000000x64_0_1 : (⟨S2000000x1, .f32⟩ : BufTy).Contents (Elt F) → (⟨S2000000x64, .f32⟩ : BufTy).Contents (Elt F)),
    binary main_v46 main_v45 main_v47 (mulf : (⟨S2000000x64, .f32⟩ : BufTy).Contents (Elt F) → (⟨S2000000x64, .f32⟩ : BufTy).Contents (Elt F) → (⟨S2000000x64, .f32⟩ : BufTy).Contents (Elt F)),
    nullary main_cst_5 (constant S_ .f32 0x00000000#32),
    unary main_cst_5 main_v48 (broadcastInDim S150000x64 ![] bcast_S_S150000x64 : (⟨S_, .f32⟩ : BufTy).Contents (Elt F) → (⟨S150000x64, .f32⟩ : BufTy).Contents (Elt F)),
    unary main_arg7 main_v49 (broadcastInDim S2000000x1 ![0] bcast_S2000000_S2000000x1_0 : (⟨S2000000, .i32⟩ : BufTy).Contents (Elt F) → (⟨S2000000x1, .i32⟩ : BufTy).Contents (Elt F)),
    ternary main_v48 main_v49 main_v47 main_v50 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)) ]
/-- The buffers these operations write. -/
abbrev segS2_W : List (Ref sig .tc) := [main_v38, main_c_3, main_v39, main_v40, main_c_4, main_v41, main_v42, main_v43, main_v44, main_v45, main_v46, main_v47, main_cst_5, main_v48, main_v49, main_v50]
theorem segS2_sub : (segS2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem segS2_writes : (segS2 : List (HloOp τ sig (Elt F))).Forall fun op => op.writes ⊆ (segS2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 2: the elementwise product of the embedding and its aggregate. -/
abbrev segH2a : List (HloOp τ sig (Elt F)) :=
  [ binary main_v32 main_v50 main_v51 (mulf : (⟨S150000x64, .f32⟩ : BufTy).Contents (Elt F) → (⟨S150000x64, .f32⟩ : BufTy).Contents (Elt F) → (⟨S150000x64, .f32⟩ : BufTy).Contents (Elt F)) ]
/-- The buffers these operations write. -/
abbrev segH2a_W : List (Ref sig .tc) := [main_v51]
theorem segH2a_sub : (segH2a : List (HloOp τ sig (Elt F))).Forall fun op => op.bufs ⊆ tcRefs τ sig :=
  binary_bufs_sub ..
theorem segH2a_writes : (segH2a : List (HloOp τ sig (Elt F))).Forall fun op => op.writes ⊆ (segH2a_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

/-- Layer 2: the two linear maps with their biases, their sum, and the leaky rectifier. -/
abbrev segH2b : List (HloOp τ sig (Elt F)) :=
  [ unary main_arg2 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v52 main_v53 rfl shapeCasts_S1x64x64_S64x64,
    binary main_v50 main_v53 main_v54 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v55 ((extractStridedSlice S1x64 ![1, 0] · slices_S3x64_S1x64_1_0) : (⟨S3x64, .f32⟩ : BufTy).Contents (Elt F) → (⟨S1x64, .f32⟩ : BufTy).Contents (Elt F)),
    reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S150000x64 ![0, 1] bcast_S1x64_S150000x64_0_1 : (⟨S1x64, .f32⟩ : BufTy).Contents (Elt F) → (⟨S150000x64, .f32⟩ : BufTy).Contents (Elt F)),
    binary main_v54 main_v58 main_v59 (addf : (⟨S150000x64, .f32⟩ : BufTy).Contents (Elt F) → (⟨S150000x64, .f32⟩ : BufTy).Contents (Elt F) → (⟨S150000x64, .f32⟩ : BufTy).Contents (Elt F)),
    unary main_arg4 main_v60 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v60 main_v61 rfl shapeCasts_S1x64x64_S64x64,
    binary main_v51 main_v61 main_v62 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    binary main_v59 main_v62 main_v63 (addf : (⟨S150000x64, .f32⟩ : BufTy).Contents (Elt F) → (⟨S150000x64, .f32⟩ : BufTy).Contents (Elt F) → (⟨S150000x64, .f32⟩ : BufTy).Contents (Elt F)),
    unary main_arg5 main_v64 ((extractStridedSlice S1x64 ![1, 0] · slices_S3x64_S1x64_1_0) : (⟨S3x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S150000x64 ![0, 1] bcast_S1x64_S150000x64_0_1 : (⟨S1x64, .f32⟩ : BufTy).Contents (Elt F) → (⟨S150000x64, .f32⟩ : BufTy).Contents (Elt F)),
    binary main_v63 main_v67 main_v68 (addf : (⟨S150000x64, .f32⟩ : BufTy).Contents (Elt F) → (⟨S150000x64, .f32⟩ : BufTy).Contents (Elt F) → (⟨S150000x64, .f32⟩ : BufTy).Contents (Elt F)),
    nullary main_cst_6 (constant S_ .f32 0x3C23D70A#32),
    nullary main_call2_cst (constant S_ .f32 0x00000000#32),
    unary main_call2_cst main_call2_v0 (broadcastInDim S150000x64 ![] bcast_S_S150000x64 : (⟨S_, .f32⟩ : BufTy).Contents (Elt F) → (⟨S150000x64, .f32⟩ : BufTy).Contents (Elt F)),
    binary main_v68 main_call2_v0 main_call2_v1 (cmpf .oge : (⟨S150000x64, .f32⟩ : BufTy).Contents (Elt F) → (⟨S150000x64, .f32⟩ : BufTy).Contents (Elt F) → (⟨S150000x64, .i1⟩ : BufTy).Contents (Elt F)),
    unary main_cst_6 main_call2_v2 (id : (⟨S_, .f32⟩ : BufTy).Contents (Elt F) → (⟨S_, .f32⟩ : BufTy).Contents (Elt F)),
    unary main_call2_v2 main_call2_v3 (broadcastInDim S150000x64 ![] bcast_S_S150000x64 : (⟨S_, .f32⟩ : BufTy).Contents (Elt F) → (⟨S150000x64, .f32⟩ : BufTy).Contents (Elt F)),
    binary main_call2_v3 main_v68 main_call2_v4 (mulf : (⟨S150000x64, .f32⟩ : BufTy).Contents (Elt F) → (⟨S150000x64, .f32⟩ : BufTy).Contents (Elt F) → (⟨S150000x64, .f32⟩ : BufTy).Contents (Elt F)),
    ternary main_call2_v1 main_v68 main_call2_v4 main_v69 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)) ]
/-- The buffers these operations write. -/
abbrev segH2b_W : List (Ref sig .tc) := [main_v52, main_v53, main_v54, main_v55, main_v56, main_v57, main_v58, main_v59, main_v60, main_v61, main_v62, main_v63, main_v64, main_v65, main_v66, main_v67, main_v68, main_cst_6, main_call2_cst, main_call2_v0, main_call2_v1, main_call2_v2, main_call2_v3, main_call2_v4, main_v69]
theorem segH2b_sub : (segH2b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem segH2b_writes : (segH2b : List (HloOp τ sig (Elt F))).Forall fun op => op.writes ⊆ (segH2b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 2: the row normalisation. -/
abbrev segN2 : List (HloOp τ sig (Elt F)) :=
  [ binary main_v69 main_v69 main_call3_v0 (mulf : (⟨S150000x64, .f32⟩ : BufTy).Contents (Elt F) → (⟨S150000x64, .f32⟩ : BufTy).Contents (Elt F) → (⟨S150000x64, .f32⟩ : BufTy).Contents (Elt F)),
    nullary main_call3_cst (constant S_ .f32 0x00000000#32),
    binary main_call3_v0 main_call3_cst main_call3_v1 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_call3_v1 main_call3_v2 (broadcastInDim S150000x1 ![0] bcast_S150000_S150000x1_0 : (⟨S150000, .f32⟩ : BufTy).Contents (Elt F) → (⟨S150000x1, .f32⟩ : BufTy).Contents (Elt F)),
    unary main_call3_v2 main_v70 (Host.sqrt : (⟨S150000x1, .f32⟩ : BufTy).Contents (Elt F) → (⟨S150000x1, .f32⟩ : BufTy).Contents (Elt F)),
    nullary main_cst_7 (constant S_ .f32 0x2B8CBCCC#32),
    unary main_cst_7 main_v71 (broadcastInDim S150000x1 ![] bcast_S_S150000x1 : (⟨S_, .f32⟩ : BufTy).Contents (Elt F) → (⟨S150000x1, .f32⟩ : BufTy).Contents (Elt F)),
    binary main_v70 main_v71 main_v72 (maximumf : (⟨S150000x1, .f32⟩ : BufTy).Contents (Elt F) → (⟨S150000x1, .f32⟩ : BufTy).Contents (Elt F) → (⟨S150000x1, .f32⟩ : BufTy).Contents (Elt F)),
    unary main_v72 main_v73 (broadcastInDim S150000x64 ![0, 1] bcast_S150000x1_S150000x64_0_1 : (⟨S150000x1, .f32⟩ : BufTy).Contents (Elt F) → (⟨S150000x64, .f32⟩ : BufTy).Contents (Elt F)),
    binary main_v69 main_v73 main_v74 (Host.divf : (⟨S150000x64, .f32⟩ : BufTy).Contents (Elt F) → (⟨S150000x64, .f32⟩ : BufTy).Contents (Elt F) → (⟨S150000x64, .f32⟩ : BufTy).Contents (Elt F)) ]
/-- The buffers these operations write. -/
abbrev segN2_W : List (Ref sig .tc) := [main_call3_v0, main_call3_cst, main_call3_v1, main_call3_v2, main_v70, main_cst_7, main_v71, main_v72, main_v73, main_v74]
theorem segN2_sub : (segN2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem segN2_writes : (segN2 : List (HloOp τ sig (Elt F))).Forall fun op => op.writes ⊆ (segN2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 3, the sparse aggregation. -/
abbrev segS3 : List (HloOp τ sig (Elt F)) :=
  [ unary main_arg6 main_v75 (broadcastInDim S2000000x1 ![0] bcast_S2000000_S2000000x1_0 : (⟨S2000000, .f32⟩ : BufTy).Contents (Elt F) → (⟨S2000000x1, .f32⟩ : BufTy).Contents (Elt F)),
    nullary main_c_8 (constantI S_ 32 0#32),
    unary main_c_8 main_v76 (broadcastInDim S2000000 ![] bcast_S_S2000000 : (⟨S_, .i32⟩ : BufTy).Contents (Elt F) → (⟨S2000000, .i32⟩ : BufTy).Contents (Elt F)),
    binary main_arg8 main_v76 main_v77 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 150000#32),
    unary main_c_9 main_v78 (broadcastInDim S2000000 ![] bcast_S_S2000000 : (⟨S_, .i32⟩ : BufTy).Contents (Elt F) → (⟨S2000000, .i32⟩ : BufTy).Contents (Elt F)),
    binary main_arg8 main_v78 main_v79 (addi : (⟨S2000000, .i32⟩ : BufTy).Contents (Elt F) → (⟨S2000000, .i32⟩ : BufTy).Contents (Elt F) → (⟨S2000000, .i32⟩ : BufTy).Contents (Elt F)),
    ternary main_v77 main_v79 main_arg8 main_v80 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v80 main_v81 (broadcastInDim S2000000x1 ![0] bcast_S2000000_S2000000x1_0 : (⟨S2000000, .i32⟩ : BufTy).Contents (Elt F) → (⟨S2000000x1, .i32⟩ : BufTy).Contents (Elt F)),
    binary main_v69 main_v81 main_v82 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v75 main_v83 (broadcastInDim S2000000x64 ![0, 1] bcast_S2000000x1_S2000000x64_0_1 : (⟨S2000000x1, .f32⟩ : BufTy).Contents (Elt F) → (⟨S2000000x64, .f32⟩ : BufTy).Contents (Elt F)),
    binary main_v83 main_v82 main_v84 (mulf : (⟨S2000000x64, .f32⟩ : BufTy).Contents (Elt F) → (⟨S2000000x64, .f32⟩ : BufTy).Contents (Elt F) → (⟨S2000000x64, .f32⟩ : BufTy).Contents (Elt F)),
    nullary main_cst_10 (constant S_ .f32 0x00000000#32),
    unary main_cst_10 main_v85 (broadcastInDim S150000x64 ![] bcast_S_S150000x64 : (⟨S_, .f32⟩ : BufTy).Contents (Elt F) → (⟨S150000x64, .f32⟩ : BufTy).Contents (Elt F)),
    unary main_arg7 main_v86 (broadcastInDim S2000000x1 ![0] bcast_S2000000_S2000000x1_0 : (⟨S2000000, .i32⟩ : BufTy).Contents (Elt F) → (⟨S2000000x1, .i32⟩ : BufTy).Contents (Elt F)),
    ternary main_v85 main_v86 main_v84 main_v87 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)) ]
/-- The buffers these operations write. -/
abbrev segS3_W : List (Ref sig .tc) := [main_v75, main_c_8, main_v76, main_v77, main_c_9, main_v78, main_v79, main_v80, main_v81, main_v82, main_v83, main_v84, main_cst_10, main_v85, main_v86, main_v87]
theorem segS3_sub : (segS3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem segS3_writes : (segS3 : List (HloOp τ sig (Elt F))).Forall fun op => op.writes ⊆ (segS3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 3: the two linear maps with their biases and their sum. -/
abbrev segH3a : List (HloOp τ sig (Elt F)) :=
  [ binary main_v69 main_v87 main_v88 (mulf : (⟨S150000x64, .f32⟩ : BufTy).Contents (Elt F) → (⟨S150000x64, .f32⟩ : BufTy).Contents (Elt F) → (⟨S150000x64, .f32⟩ : BufTy).Contents (Elt F)),
    unary main_arg2 main_v89 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v89 main_v90 rfl shapeCasts_S1x64x64_S64x64,
    binary main_v87 main_v90 main_v91 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v92 ((extractStridedSlice S1x64 ![2, 0] · slices_S3x64_S1x64_2_0) : (⟨S3x64, .f32⟩ : BufTy).Contents (Elt F) → (⟨S1x64, .f32⟩ : BufTy).Contents (Elt F)),
    reshape main_v92 main_v93 rfl shapeCasts_S1x64_S64,
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S150000x64 ![0, 1] bcast_S1x64_S150000x64_0_1 : (⟨S1x64, .f32⟩ : BufTy).Contents (Elt F) → (⟨S150000x64, .f32⟩ : BufTy).Contents (Elt F)),
    binary main_v91 main_v95 main_v96 (addf : (⟨S150000x64, .f32⟩ : BufTy).Contents (Elt F) → (⟨S150000x64, .f32⟩ : BufTy).Contents (Elt F) → (⟨S150000x64, .f32⟩ : BufTy).Contents (Elt F)),
    unary main_arg4 main_v97 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v97 main_v98 rfl shapeCasts_S1x64x64_S64x64,
    binary main_v88 main_v98 main_v99 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    binary main_v96 main_v99 main_v100 (addf : (⟨S150000x64, .f32⟩ : BufTy).Contents (Elt F) → (⟨S150000x64, .f32⟩ : BufTy).Contents (Elt F) → (⟨S150000x64, .f32⟩ : BufTy).Contents (Elt F)),
    unary main_arg5 main_v101 ((extractStridedSlice S1x64 ![2, 0] · slices_S3x64_S1x64_2_0) : (⟨S3x64, .f32⟩ : BufTy).Contents (Elt F) → (⟨S1x64, .f32⟩ : BufTy).Contents (Elt F)),
    reshape main_v101 main_v102 rfl shapeCasts_S1x64_S64,
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S150000x64 ![0, 1] bcast_S1x64_S150000x64_0_1 : (⟨S1x64, .f32⟩ : BufTy).Contents (Elt F) → (⟨S150000x64, .f32⟩ : BufTy).Contents (Elt F)),
    binary main_v100 main_v104 main_v105 (addf : (⟨S150000x64, .f32⟩ : BufTy).Contents (Elt F) → (⟨S150000x64, .f32⟩ : BufTy).Contents (Elt F) → (⟨S150000x64, .f32⟩ : BufTy).Contents (Elt F)),
    nullary main_cst_11 (constant S_ .f32 0x3C23D70A#32) ]
/-- The buffers these operations write. -/
abbrev segH3a_W : List (Ref sig .tc) := [main_v88, main_v89, main_v90, main_v91, main_v92, main_v93, main_v94, main_v95, main_v96, main_v97, main_v98, main_v99, main_v100, main_v101, main_v102, main_v103, main_v104, main_v105, main_cst_11]
theorem segH3a_sub : (segH3a : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub ..⟩
theorem segH3a_writes : (segH3a : List (HloOp τ sig (Elt F))).Forall fun op => op.writes ⊆ (segH3a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 3: the leaky rectifier. -/
abbrev segH3b : List (HloOp τ sig (Elt F)) :=
  [ nullary main_call4_cst (constant S_ .f32 0x00000000#32),
    unary main_call4_cst main_call4_v0 (broadcastInDim S150000x64 ![] bcast_S_S150000x64 : (⟨S_, .f32⟩ : BufTy).Contents (Elt F) → (⟨S150000x64, .f32⟩ : BufTy).Contents (Elt F)),
    binary main_v105 main_call4_v0 main_call4_v1 (cmpf .oge : (⟨S150000x64, .f32⟩ : BufTy).Contents (Elt F) → (⟨S150000x64, .f32⟩ : BufTy).Contents (Elt F) → (⟨S150000x64, .i1⟩ : BufTy).Contents (Elt F)),
    unary main_cst_11 main_call4_v2 (id : (⟨S_, .f32⟩ : BufTy).Contents (Elt F) → (⟨S_, .f32⟩ : BufTy).Contents (Elt F)),
    unary main_call4_v2 main_call4_v3 (broadcastInDim S150000x64 ![] bcast_S_S150000x64 : (⟨S_, .f32⟩ : BufTy).Contents (Elt F) → (⟨S150000x64, .f32⟩ : BufTy).Contents (Elt F)),
    binary main_call4_v3 main_v105 main_call4_v4 (mulf : (⟨S150000x64, .f32⟩ : BufTy).Contents (Elt F) → (⟨S150000x64, .f32⟩ : BufTy).Contents (Elt F) → (⟨S150000x64, .f32⟩ : BufTy).Contents (Elt F)),
    ternary main_call4_v1 main_v105 main_call4_v4 main_v106 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)) ]
/-- The buffers these operations write. -/
abbrev segH3b_W : List (Ref sig .tc) := [main_call4_cst, main_call4_v0, main_call4_v1, main_call4_v2, main_call4_v3, main_call4_v4, main_v106]
theorem segH3b_sub : (segH3b : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem segH3b_writes : (segH3b : List (HloOp τ sig (Elt F))).Forall fun op => op.writes ⊆ (segH3b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Layer 3: the row normalisation. -/
abbrev segN3 : List (HloOp τ sig (Elt F)) :=
  [ binary main_v106 main_v106 main_call5_v0 (mulf : (⟨S150000x64, .f32⟩ : BufTy).Contents (Elt F) → (⟨S150000x64, .f32⟩ : BufTy).Contents (Elt F) → (⟨S150000x64, .f32⟩ : BufTy).Contents (Elt F)),
    nullary main_call5_cst (constant S_ .f32 0x00000000#32),
    binary main_call5_v0 main_call5_cst main_call5_v1 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_call5_v1 main_call5_v2 (broadcastInDim S150000x1 ![0] bcast_S150000_S150000x1_0 : (⟨S150000, .f32⟩ : BufTy).Contents (Elt F) → (⟨S150000x1, .f32⟩ : BufTy).Contents (Elt F)),
    unary main_call5_v2 main_v107 (Host.sqrt : (⟨S150000x1, .f32⟩ : BufTy).Contents (Elt F) → (⟨S150000x1, .f32⟩ : BufTy).Contents (Elt F)),
    nullary main_cst_12 (constant S_ .f32 0x2B8CBCCC#32),
    unary main_cst_12 main_v108 (broadcastInDim S150000x1 ![] bcast_S_S150000x1 : (⟨S_, .f32⟩ : BufTy).Contents (Elt F) → (⟨S150000x1, .f32⟩ : BufTy).Contents (Elt F)),
    binary main_v107 main_v108 main_v109 (maximumf : (⟨S150000x1, .f32⟩ : BufTy).Contents (Elt F) → (⟨S150000x1, .f32⟩ : BufTy).Contents (Elt F) → (⟨S150000x1, .f32⟩ : BufTy).Contents (Elt F)),
    unary main_v109 main_v110 (broadcastInDim S150000x64 ![0, 1] bcast_S150000x1_S150000x64_0_1 : (⟨S150000x1, .f32⟩ : BufTy).Contents (Elt F) → (⟨S150000x64, .f32⟩ : BufTy).Contents (Elt F)),
    binary main_v106 main_v110 main_v111 (Host.divf : (⟨S150000x64, .f32⟩ : BufTy).Contents (Elt F) → (⟨S150000x64, .f32⟩ : BufTy).Contents (Elt F) → (⟨S150000x64, .f32⟩ : BufTy).Contents (Elt F)) ]
/-- The buffers these operations write. -/
abbrev segN3_W : List (Ref sig .tc) := [main_call5_v0, main_call5_cst, main_call5_v1, main_call5_v2, main_v107, main_cst_12, main_v108, main_v109, main_v110, main_v111]
theorem segN3_sub : (segN3 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem segN3_writes : (segN3 : List (HloOp τ sig (Elt F))).Forall fun op => op.writes ⊆ (segN3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The four embeddings side by side, its first 100000 and last 50000 rows, and the three gathers of 4096 rows. -/
abbrev segT : List (HloOp τ sig (Elt F)) :=
  [ nary ![main_v0, main_v37, main_v74, main_v111] main_v112 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    unary main_v112 main_v113 ((extractStridedSlice S100000x256 ![0, 0] · slices_S150000x256_S100000x256_0_0) : (⟨S150000x256, .f32⟩ : BufTy).Contents (Elt F) → (⟨S100000x256, .f32⟩ : BufTy).Contents (Elt F)),
    unary main_v112 main_v114 ((extractStridedSlice S50000x256 ![100000, 0] · slices_S150000x256_S50000x256_100000_0) : (⟨S150000x256, .f32⟩ : BufTy).Contents (Elt F) → (⟨S50000x256, .f32⟩ : BufTy).Contents (Elt F)),
    nullary main_c_13 (constantI S_ 32 0#32),
    unary main_c_13 main_v115 (broadcastInDim S4096 ![] bcast_S_S4096 : (⟨S_, .i32⟩ : BufTy).Contents (Elt F) → (⟨S4096, .i32⟩ : BufTy).Contents (Elt F)),
    binary main_arg9 main_v115 main_v116 (cmpi .slt : (⟨S4096, .i32⟩ : BufTy).Contents (Elt F) → (⟨S4096, .i32⟩ : BufTy).Contents (Elt F) → (⟨S4096, .i1⟩ : BufTy).Contents (Elt F)),
    nullary main_c_14 (constantI S_ 32 100000#32),
    unary main_c_14 main_v117 (broadcastInDim S4096 ![] bcast_S_S4096 : (⟨S_, .i32⟩ : BufTy).Contents (Elt F) → (⟨S4096, .i32⟩ : BufTy).Contents (Elt F)),
    binary main_arg9 main_v117 main_v118 (addi : (⟨S4096, .i32⟩ : BufTy).Contents (Elt F) → (⟨S4096, .i32⟩ : BufTy).Contents (Elt F) → (⟨S4096, .i32⟩ : BufTy).Contents (Elt F)),
    ternary main_v116 main_v118 main_arg9 main_v119 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v119 main_v120 (broadcastInDim S4096x1 ![0] bcast_S4096_S4096x1_0 : (⟨S4096, .i32⟩ : BufTy).Contents (Elt F) → (⟨S4096x1, .i32⟩ : BufTy).Contents (Elt F)),
    binary main_v113 main_v120 main_v121 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    nullary main_c_15 (constantI S_ 32 0#32),
    unary main_c_15 main_v122 (broadcastInDim S4096 ![] bcast_S_S4096 : (⟨S_, .i32⟩ : BufTy).Contents (Elt F) → (⟨S4096, .i32⟩ : BufTy).Contents (Elt F)),
    binary main_arg10 main_v122 main_v123 (cmpi .slt : (⟨S4096, .i32⟩ : BufTy).Contents (Elt F) → (⟨S4096, .i32⟩ : BufTy).Contents (Elt F) → (⟨S4096, .i1⟩ : BufTy).Contents (Elt F)),
    nullary main_c_16 (constantI S_ 32 50000#32),
    unary main_c_16 main_v124 (broadcastInDim S4096 ![] bcast_S_S4096 : (⟨S_, .i32⟩ : BufTy).Contents (Elt F) → (⟨S4096, .i32⟩ : BufTy).Contents (Elt F)),
    binary main_arg10 main_v124 main_v125 (addi : (⟨S4096, .i32⟩ : BufTy).Contents (Elt F) → (⟨S4096, .i32⟩ : BufTy).Contents (Elt F) → (⟨S4096, .i32⟩ : BufTy).Contents (Elt F)),
    ternary main_v123 main_v125 main_arg10 main_v126 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v126 main_v127 (broadcastInDim S4096x1 ![0] bcast_S4096_S4096x1_0 : (⟨S4096, .i32⟩ : BufTy).Contents (Elt F) → (⟨S4096x1, .i32⟩ : BufTy).Contents (Elt F)),
    binary main_v114 main_v127 main_v128 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    nullary main_c_17 (constantI S_ 32 0#32),
    unary main_c_17 main_v129 (broadcastInDim S4096 ![] bcast_S_S4096 : (⟨S_, .i32⟩ : BufTy).Contents (Elt F) → (⟨S4096, .i32⟩ : BufTy).Contents (Elt F)),
    binary main_arg11 main_v129 main_v130 (cmpi .slt : (⟨S4096, .i32⟩ : BufTy).Contents (Elt F) → (⟨S4096, .i32⟩ : BufTy).Contents (Elt F) → (⟨S4096, .i1⟩ : BufTy).Contents (Elt F)),
    nullary main_c_18 (constantI S_ 32 50000#32),
    unary main_c_18 main_v131 (broadcastInDim S4096 ![] bcast_S_S4096 : (⟨S_, .i32⟩ : BufTy).Contents (Elt F) → (⟨S4096, .i32⟩ : BufTy).Contents (Elt F)),
    binary main_arg11 main_v131 main_v132 (addi : (⟨S4096, .i32⟩ : BufTy).Contents (Elt F) → (⟨S4096, .i32⟩ : BufTy).Contents (Elt F) → (⟨S4096, .i32⟩ : BufTy).Contents (Elt F)),
    ternary main_v130 main_v132 main_arg11 main_v133 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v133 main_v134 (broadcastInDim S4096x1 ![0] bcast_S4096_S4096x1_0 : (⟨S4096, .i32⟩ : BufTy).Contents (Elt F) → (⟨S4096x1, .i32⟩ : BufTy).Contents (Elt F)),
    binary main_v114 main_v134 main_v135 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)) ]
/-- The buffers these operations write. -/
abbrev segT_W : List (Ref sig .tc) := [main_v112, main_v113, main_v114, main_c_13, main_v115, main_v116, main_c_14, main_v117, main_v118, main_v119, main_v120, main_v121, main_c_15, main_v122, main_v123, main_c_16, main_v124, main_v125, main_v126, main_v127, main_v128, main_c_17, main_v129, main_v130, main_c_18, main_v131, main_v132, main_v133, main_v134, main_v135]
theorem segT_sub : (segT : List (HloOp τ sig (Elt F))).Forall fun op => op.bufs ⊆ tcRefs τ sig :=
  ⟨nary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem segT_writes : (segT : List (HloOp τ sig (Elt F))).Forall fun op => op.writes ⊆ (segT_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.RefRunOps.lean ====
/-
  The reference program's @main is the straight line of its 187 host operations. Each of its three windows of
  statements is the line of that window's operations: a call of a module-local function unfolds to the function's body
  over the call's own buffers (the buffer conversions a typed reference carries are the identity at these literal
  buffers), and sequencing re-associates. Hence the run: from any memory with zero counters every weakly fair
  execution of @main terminates, with every buffer at the fold of the operations' results over the launch contents.
-/
import proofs.«133046_j55070070670115_1_alg».proof.Proof.RefRunSegs
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's statements 1 … 60: the stacked table, layer 1, and layer 2 up to the product of the
    embedding with its aggregate. -/
abbrev opsP0 : List (HloOp τ sig (Elt F)) := segA0 ++ segS1 ++ segH1 ++ segN1 ++ segS2 ++ segH2a
/-- The operations of @main's statements 61 … 120: the rest of layer 2, and layer 3 up to its pre-activation. -/
abbrev opsP1 : List (HloOp τ sig (Elt F)) := segH2b ++ segN2 ++ segS3 ++ segH3a
/-- The operations of @main's statements 121 … 158: layer 3's rectifier and normalisation, and the three results. -/
abbrev opsP2 : List (HloOp τ sig (Elt F)) := segH3b ++ segN3 ++ segT

/-- @main's 187 operations in order, the six calls' bodies in their places. -/
abbrev ops : List (HloOp τ sig (Elt F)) := opsP0 ++ (opsP1 ++ opsP2)

set_option maxRecDepth 8192 in
set_option maxHeartbeats 4000000 in
theorem main_part0_eq (c : Dev nD) : main_part0 (F := F) c = seq opsP0 := by
  simp only [main_part0, fn_leaky_relu.body, fn_where.body, fn_norm.body, bind_assoc, pure_bind]
  rfl

set_option maxRecDepth 8192 in
set_option maxHeartbeats 4000000 in
theorem main_part1_eq (c : Dev nD) : main_part1 (F := F) c = seq opsP1 := by
  simp only [main_part1, fn_leaky_relu.body, fn_where.body, fn_norm.body, bind_assoc, pure_bind]
  rfl

set_option maxRecDepth 8192 in
set_option maxHeartbeats 4000000 in
theorem main_part2_eq (c : Dev nD) : main_part2 (F := F) c = seq opsP2 := by
  simp only [main_part2, fn_leaky_relu.body, fn_where.body, fn_norm.body, bind_assoc, pure_bind]
  rfl

/-- @main is the straight line of its operations: its three windows in order. -/
theorem main_eq (c : Dev nD) : main (F := F) c = seq ops := by
  have e0 := main_part0_eq (F := F) c
  have e1 := main_part1_eq (F := F) c
  have e2 := main_part2_eq (F := F) c
  calc main (F := F) c
      = (main_part0 c >>= fun _ => main_part1 c >>= fun _ => main_part2 c) := rfl
    _ = (seq opsP0 >>= fun _ => seq opsP1 >>= fun _ => seq opsP2) := by rw [e0, e1, e2]
    _ = (seq opsP0 >>= fun _ => seq (opsP1 ++ opsP2)) := by rw [← seq_append opsP1 opsP2]
    _ = seq ops := (seq_append opsP0 (opsP1 ++ opsP2)).symm

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

theorem ops_sub : (ops : List (HloOp τ sig (Elt F))).Forall fun op => op.bufs ⊆ tcRefs τ sig :=
  forall_app
    (forall_app (forall_app (forall_app (forall_app (forall_app segA0_sub segS1_sub) segH1_sub) segN1_sub) segS2_sub) segH2a_sub)
    (forall_app (forall_app (forall_app (forall_app segH2b_sub segN2_sub) segS3_sub) segH3a_sub)
      (forall_app (forall_app segH3b_sub segN3_sub) segT_sub))

/-- Every operation of a literal list determines its results: by computation, one operation at a time. -/
local macro "fresh_all" : tactic =>
  `(tactic| (refine List.forall_iff_forall_mem.mpr ?_; intro _ h
             (repeat (cases h with | head => rfl | tail _ h => ?_)); exact nomatch h))

theorem segA0_fresh : (segA0 : List (HloOp τ sig (Elt F))).Forall fun op => op.fresh = ∅ := by fresh_all
theorem segS1_fresh : (segS1 : List (HloOp τ sig (Elt F))).Forall fun op => op.fresh = ∅ := by fresh_all
theorem segH1_fresh : (segH1 : List (HloOp τ sig (Elt F))).Forall fun op => op.fresh = ∅ := by fresh_all
theorem segN1_fresh : (segN1 : List (HloOp τ sig (Elt F))).Forall fun op => op.fresh = ∅ := by fresh_all
theorem segS2_fresh : (segS2 : List (HloOp τ sig (Elt F))).Forall fun op => op.fresh = ∅ := by fresh_all
theorem segH2a_fresh : (segH2a : List (HloOp τ sig (Elt F))).Forall fun op => op.fresh = ∅ := by fresh_all
theorem segH2b_fresh : (segH2b : List (HloOp τ sig (Elt F))).Forall fun op => op.fresh = ∅ := by fresh_all
theorem segN2_fresh : (segN2 : List (HloOp τ sig (Elt F))).Forall fun op => op.fresh = ∅ := by fresh_all
theorem segS3_fresh : (segS3 : List (HloOp τ sig (Elt F))).Forall fun op => op.fresh = ∅ := by fresh_all
theorem segH3a_fresh : (segH3a : List (HloOp τ sig (Elt F))).Forall fun op => op.fresh = ∅ := by fresh_all
theorem segH3b_fresh : (segH3b : List (HloOp τ sig (Elt F))).Forall fun op => op.fresh = ∅ := by fresh_all
theorem segN3_fresh : (segN3 : List (HloOp τ sig (Elt F))).Forall fun op => op.fresh = ∅ := by fresh_all
theorem segT_fresh : (segT : List (HloOp τ sig (Elt F))).Forall fun op => op.fresh = ∅ := by fresh_all

theorem ops_fresh : (ops : List (HloOp τ sig (Elt F))).Forall fun op => op.fresh = ∅ :=
  forall_app
    (forall_app (forall_app (forall_app (forall_app (forall_app segA0_fresh segS1_fresh) segH1_fresh) segN1_fresh) segS2_fresh) segH2a_fresh)
    (forall_app (forall_app (forall_app (forall_app segH2b_fresh segN2_fresh) segS3_fresh) segH3a_fresh)
      (forall_app (forall_app segH3b_fresh segN3_fresh) segT_fresh))

/-- On every device, for any float values, from any memory with zero counters: every weakly fair execution of @main
    terminates, and every final state has each TensorCore buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefRunWin.lean ====
/-
  What each stretch of the reference's operations leaves in the buffer it is there to compute, from ANY contents V of the
  device's buffers before it: the stretch's operations composed, which is one named function of whole arrays — the
  stacked table, the sparse aggregation, a layer's rectified sum of two linear maps, its row normalisation, the four
  embeddings side by side, a batch of gathered rows — applied to what V holds in the buffers the stretch reads.
  The three layers print the same operations over different buffers, so they are the same functions.
-/
import proofs.«133046_j55070070670115_1_alg».proof.Proof.RefRunSegs
import proofs.«133046_j55070070670115_1_alg».proof.Proof.RefRunDefs
import proofs.«133046_j55070070670115_1_alg».proof.Proof.RefLayer

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.Hand

variable {F : FTy → Type} [FloatOps F] [Cert.ReferenceIdeal.Facts]

set_option maxRecDepth 8192 in
set_option maxHeartbeats 2000000 in
/-- The stacked table. -/
theorem winA0 (V : Valuation τ sig (Elt F)) :
    after segA0 V (main_v0 : DevRef τ sig)
      = cat0 (V (main_arg0 : DevRef τ sig)) (V (main_arg1 : DevRef τ sig)) := by
  simp only [segA0]
  after_results_simp <;> rfl

set_option maxRecDepth 8192 in
set_option maxHeartbeats 2000000 in
/-- Layer 1's aggregate of the stacked table. -/
theorem winS1 (V : Valuation τ sig (Elt F)) :
    after segS1 V (main_v13 : DevRef τ sig)
      = spmm (V (main_v0 : DevRef τ sig)) (V (main_arg6 : DevRef τ sig)) (V (main_arg7 : DevRef τ sig)) (V (main_arg8 : DevRef τ sig)) := by
  simp only [segS1]
  after_results_simp <;> rfl

set_option maxRecDepth 8192 in
set_option maxHeartbeats 2000000 in
/-- Layer 1's un-normalised output. -/
theorem winH1 (V : Valuation τ sig (Elt F)) :
    after segH1 V (main_v32 : DevRef τ sig)
      = refH (V (main_v0 : DevRef τ sig)) (V (main_v13 : DevRef τ sig)) (wK 0 (V (main_arg2 : DevRef τ sig))) (bK 0 (V (main_arg3 : DevRef τ sig)))
          (wK 0 (V (main_arg4 : DevRef τ sig))) (bK 0 (V (main_arg5 : DevRef τ sig))) := by
  simp only [segH1]
  after_results_simp <;> rfl

set_option maxRecDepth 8192 in
set_option maxHeartbeats 2000000 in
/-- Layer 1's normalised output. -/
theorem winN1 (V : Valuation τ sig (Elt F)) :
    after segN1 V (main_v37 : DevRef τ sig)
      = refN (V (main_v32 : DevRef τ sig)) := by
  simp only [segN1]
  after_results_simp <;> rfl

set_option maxRecDepth 8192 in
set_option maxHeartbeats 2000000 in
/-- Layer 2's aggregate of layer 1's output. -/
theorem winS2 (V : Valuation τ sig (Elt F)) :
    after segS2 V (main_v50 : DevRef τ sig)
      = spmm (V (main_v32 : DevRef τ sig)) (V (main_arg6 : DevRef τ sig)) (V (main_arg7 : DevRef τ sig)) (V (main_arg8 : DevRef τ sig)) := by
  simp only [segS2]
  after_results_simp <;> rfl

set_option maxRecDepth 8192 in
set_option maxHeartbeats 2000000 in
/-- Layer 2's un-normalised output. -/
theorem winH2 (V : Valuation τ sig (Elt F)) :
    after segH2b (after segH2a V) (main_v69 : DevRef τ sig)
      = refH (V (main_v32 : DevRef τ sig)) (V (main_v50 : DevRef τ sig)) (wK 1 (V (main_arg2 : DevRef τ sig))) (bK 1 (V (main_arg3 : DevRef τ sig)))
          (wK 1 (V (main_arg4 : DevRef τ sig))) (bK 1 (V (main_arg5 : DevRef τ sig))) := by
  simp only [segH2a, segH2b]
  after_results_simp <;> rfl

set_option maxRecDepth 8192 in
set_option maxHeartbeats 2000000 in
/-- Layer 2's normalised output. -/
theorem winN2 (V : Valuation τ sig (Elt F)) :
    after segN2 V (main_v74 : DevRef τ sig)
      = refN (V (main_v69 : DevRef τ sig)) := by
  simp only [segN2]
  after_results_simp <;> rfl

set_option maxRecDepth 8192 in
set_option maxHeartbeats 2000000 in
/-- Layer 3's aggregate of layer 2's output. -/
theorem winS3 (V : Valuation τ sig (Elt F)) :
    after segS3 V (main_v87 : DevRef τ sig)
      = spmm (V (main_v69 : DevRef τ sig)) (V (main_arg6 : DevRef τ sig)) (V (main_arg7 : DevRef τ sig)) (V (main_arg8 : DevRef τ sig)) := by
  simp only [segS3]
  after_results_simp <;> rfl

set_option maxRecDepth 8192 in
set_option maxHeartbeats 2000000 in
/-- Layer 3's un-normalised output. -/
theorem winH3 (V : Valuation τ sig (Elt F)) :
    after segH3b (after segH3a V) (main_v106 : DevRef τ sig)
      = refH (V (main_v69 : DevRef τ sig)) (V (main_v87 : DevRef τ sig)) (wK 2 (V (main_arg2 : DevRef τ sig))) (bK 2 (V (main_arg3 : DevRef τ sig)))
          (wK 2 (V (main_arg4 : DevRef τ sig))) (bK 2 (V (main_arg5 : DevRef τ sig))) := by
  simp only [segH3a, segH3b]
  after_results_simp <;> rfl

set_option maxRecDepth 8192 in
set_option maxHeartbeats 2000000 in
/-- Layer 3's normalised output. -/
theorem winN3 (V : Valuation τ sig (Elt F)) :
    after segN3 V (main_v111 : DevRef τ sig)
      = refN (V (main_v106 : DevRef τ sig)) := by
  simp only [segN3]
  after_results_simp <;> rfl

set_option maxRecDepth 8192 in
set_option maxHeartbeats 2000000 in
/-- The four embeddings side by side. -/
theorem winT112 (V : Valuation τ sig (Elt F)) :
    after segT V (main_v112 : DevRef τ sig)
      = (cat4 (V (main_v0 : DevRef τ sig)) (V (main_v37 : DevRef τ sig)) (V (main_v74 : DevRef τ sig)) (V (main_v111 : DevRef τ sig))) := by
  simp only [segT]
  after_results_simp <;> rfl

set_option maxRecDepth 8192 in
set_option maxHeartbeats 2000000 in
/-- The first result: the batch of user rows. -/
theorem winT121 (V : Valuation τ sig (Elt F)) :
    after segT V (main_v121 : DevRef τ sig)
      = tailU (cat4 (V (main_v0 : DevRef τ sig)) (V (main_v37 : DevRef τ sig)) (V (main_v74 : DevRef τ sig)) (V (main_v111 : DevRef τ sig))) (V (main_arg9 : DevRef τ sig)) := by
  simp only [segT]
  after_results_simp <;> rfl

set_option maxRecDepth 8192 in
set_option maxHeartbeats 2000000 in
/-- The second result: the first batch of item rows. -/
theorem winT128 (V : Valuation τ sig (Elt F)) :
    after segT V (main_v128 : DevRef τ sig)
      = tailI (cat4 (V (main_v0 : DevRef τ sig)) (V (main_v37 : DevRef τ sig)) (V (main_v74 : DevRef τ sig)) (V (main_v111 : DevRef τ sig))) (V (main_arg10 : DevRef τ sig)) := by
  simp only [segT]
  after_results_simp <;> rfl

set_option maxRecDepth 8192 in
set_option maxHeartbeats 2000000 in
/-- The third result: the second batch of item rows. -/
theorem winT135 (V : Valuation τ sig (Elt F)) :
    after segT V (main_v135 : DevRef τ sig)
      = tailI (cat4 (V (main_v0 : DevRef τ sig)) (V (main_v37 : DevRef τ sig)) (V (main_v74 : DevRef τ sig)) (V (main_v111 : DevRef τ sig))) (V (main_arg11 : DevRef τ sig)) := by
  simp only [segT]
  after_results_simp <;> rfl

end Cert.ReferenceIdeal.RefRun

end
-- ==== Proof.RefRun.lean ====
/-
  The reference's run, read layer by layer. Write x b for what buffer b holds after all of @main's operations, run from
  contents V of the device's buffers. No operation writes an argument, so x of an argument is V's. Every other buffer
  is written by exactly one operation; hence x of the buffer a stretch of operations computes is that stretch's
  function of x at the buffers the stretch reads: nothing after the stretch writes its result, and nothing from the
  stretch on writes what it reads. So the program is walked one stretch at a time, never as 187 operations at once.
-/
import proofs.«133046_j55070070670115_1_alg».proof.Proof.RefRunOps
import proofs.«133046_j55070070670115_1_alg».proof.Proof.RefRunWin

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.Hand

variable {F : FTy → Type} [FloatOps F] [Cert.ReferenceIdeal.Facts]

/-- Every operation of `l` writes only buffers among `W`. -/
abbrev WritesIn (l : List (HloOp τ sig (Elt F))) (W : List (Ref sig .tc)) : Prop :=
  l.Forall fun op => op.writes ⊆ (W.map (Proc.devRef (τ := τ) .tc)).toFinset

/-- Two lists in a row write only what one or the other writes. -/
theorem writes_app {l₁ l₂ : List (HloOp τ sig (Elt F))} {W₁ W₂ : List (Ref sig .tc)}
    (h₁ : WritesIn l₁ W₁) (h₂ : WritesIn l₂ W₂) : WritesIn (l₁ ++ l₂) (W₁ ++ W₂) :=
  List.forall_iff_forall_mem.mpr fun op h => by
    rw [List.map_append, List.toFinset_append]
    rcases List.mem_append.mp h with h | h
    · exact (List.forall_iff_forall_mem.mp h₁ op h).trans Finset.subset_union_left
    · exact (List.forall_iff_forall_mem.mp h₂ op h).trans Finset.subset_union_right

/-! ## The operations from a stretch on, and the buffers they write -/

abbrev sfxN3 : List (HloOp τ sig (Elt F)) := segN3 ++ segT
abbrev sfxH3b : List (HloOp τ sig (Elt F)) := segH3b ++ sfxN3
abbrev sfxH3a : List (HloOp τ sig (Elt F)) := segH3a ++ sfxH3b
abbrev sfxS3 : List (HloOp τ sig (Elt F)) := segS3 ++ sfxH3a
abbrev sfxN2 : List (HloOp τ sig (Elt F)) := segN2 ++ sfxS3
abbrev sfxH2b : List (HloOp τ sig (Elt F)) := segH2b ++ sfxN2
abbrev sfxH2a : List (HloOp τ sig (Elt F)) := segH2a ++ sfxH2b
abbrev sfxS2 : List (HloOp τ sig (Elt F)) := segS2 ++ sfxH2a
abbrev sfxN1 : List (HloOp τ sig (Elt F)) := segN1 ++ sfxS2
abbrev sfxH1 : List (HloOp τ sig (Elt F)) := segH1 ++ sfxN1
abbrev sfxS1 : List (HloOp τ sig (Elt F)) := segS1 ++ sfxH1
abbrev sfxA0 : List (HloOp τ sig (Elt F)) := segA0 ++ sfxS1

abbrev wN3 : List (Ref sig .tc) := segN3_W ++ segT_W
abbrev wH3b : List (Ref sig .tc) := segH3b_W ++ wN3
abbrev wH3a : List (Ref sig .tc) := segH3a_W ++ wH3b
abbrev wS3 : List (Ref sig .tc) := segS3_W ++ wH3a
abbrev wN2 : List (Ref sig .tc) := segN2_W ++ wS3
abbrev wH2b : List (Ref sig .tc) := segH2b_W ++ wN2
abbrev wH2a : List (Ref sig .tc) := segH2a_W ++ wH2b
abbrev wS2 : List (Ref sig .tc) := segS2_W ++ wH2a
abbrev wN1 : List (Ref sig .tc) := segN1_W ++ wS2
abbrev wH1 : List (Ref sig .tc) := segH1_W ++ wN1
abbrev wS1 : List (Ref sig .tc) := segS1_W ++ wH1
abbrev wA0 : List (Ref sig .tc) := segA0_W ++ wS1

theorem sfxN3_writes : WritesIn (F := F) sfxN3 wN3 := writes_app segN3_writes segT_writes
theorem sfxH3b_writes : WritesIn (F := F) sfxH3b wH3b := writes_app segH3b_writes sfxN3_writes
theorem sfxH3a_writes : WritesIn (F := F) sfxH3a wH3a := writes_app segH3a_writes sfxH3b_writes
theorem sfxS3_writes : WritesIn (F := F) sfxS3 wS3 := writes_app segS3_writes sfxH3a_writes
theorem sfxN2_writes : WritesIn (F := F) sfxN2 wN2 := writes_app segN2_writes sfxS3_writes
theorem sfxH2b_writes : WritesIn (F := F) sfxH2b wH2b := writes_app segH2b_writes sfxN2_writes
theorem sfxH2a_writes : WritesIn (F := F) sfxH2a wH2a := writes_app segH2a_writes sfxH2b_writes
theorem sfxS2_writes : WritesIn (F := F) sfxS2 wS2 := writes_app segS2_writes sfxH2a_writes
theorem sfxN1_writes : WritesIn (F := F) sfxN1 wN1 := writes_app segN1_writes sfxS2_writes
theorem sfxH1_writes : WritesIn (F := F) sfxH1 wH1 := writes_app segH1_writes sfxN1_writes
theorem sfxS1_writes : WritesIn (F := F) sfxS1 wS1 := writes_app segS1_writes sfxH1_writes
theorem sfxA0_writes : WritesIn (F := F) sfxA0 wA0 := writes_app segA0_writes sfxS1_writes

/-! ## The operations before a stretch -/

abbrev preA0 : List (HloOp τ sig (Elt F)) := []
abbrev preS1 : List (HloOp τ sig (Elt F)) := segA0
abbrev preH1 : List (HloOp τ sig (Elt F)) := preS1 ++ segS1
abbrev preN1 : List (HloOp τ sig (Elt F)) := preH1 ++ segH1
abbrev preS2 : List (HloOp τ sig (Elt F)) := preN1 ++ segN1
abbrev preH2a : List (HloOp τ sig (Elt F)) := preS2 ++ segS2
abbrev preH2b : List (HloOp τ sig (Elt F)) := preH2a ++ segH2a
abbrev preN2 : List (HloOp τ sig (Elt F)) := preH2b ++ segH2b
abbrev preS3 : List (HloOp τ sig (Elt F)) := preN2 ++ segN2
abbrev preH3a : List (HloOp τ sig (Elt F)) := preS3 ++ segS3
abbrev preH3b : List (HloOp τ sig (Elt F)) := preH3a ++ segH3a
abbrev preN3 : List (HloOp τ sig (Elt F)) := preH3b ++ segH3b
abbrev preT : List (HloOp τ sig (Elt F)) := preN3 ++ segN3

/-- The whole list is what precedes a stretch followed by what the stretch starts: appends re-associated. -/
local macro "split_ops" : tactic =>
  `(tactic| simp only [ops, opsP0, opsP1, opsP2,
      preA0, preS1, preH1, preN1, preS2, preH2a, preH2b, preN2, preS3, preH3a, preH3b, preN3, preT,
      sfxA0, sfxS1, sfxH1, sfxN1, sfxS2, sfxH2a, sfxH2b, sfxN2, sfxS3, sfxH3a, sfxH3b, sfxN3,
      List.append_assoc, List.nil_append])

theorem split_A0 : (ops : List (HloOp τ sig (Elt F))) = preA0 ++ sfxA0 := by split_ops
theorem split_S1 : (ops : List (HloOp τ sig (Elt F))) = preS1 ++ sfxS1 := by split_ops
theorem split_H1 : (ops : List (HloOp τ sig (Elt F))) = preH1 ++ sfxH1 := by split_ops
theorem split_N1 : (ops : List (HloOp τ sig (Elt F))) = preN1 ++ sfxN1 := by split_ops
theorem split_S2 : (ops : List (HloOp τ sig (Elt F))) = preS2 ++ sfxS2 := by split_ops
theorem split_H2a : (ops : List (HloOp τ sig (Elt F))) = preH2a ++ sfxH2a := by split_ops
theorem split_H2b : (ops : List (HloOp τ sig (Elt F))) = preH2b ++ sfxH2b := by split_ops
theorem split_N2 : (ops : List (HloOp τ sig (Elt F))) = preN2 ++ sfxN2 := by split_ops
theorem split_S3 : (ops : List (HloOp τ sig (Elt F))) = preS3 ++ sfxS3 := by split_ops
theorem split_H3a : (ops : List (HloOp τ sig (Elt F))) = preH3a ++ sfxH3a := by split_ops
theorem split_H3b : (ops : List (HloOp τ sig (Elt F))) = preH3b ++ sfxH3b := by split_ops
theorem split_N3 : (ops : List (HloOp τ sig (Elt F))) = preN3 ++ sfxN3 := by split_ops
theorem split_T : (ops : List (HloOp τ sig (Elt F))) = preT ++ segT := by split_ops

/-! ## Reading one stretch out of the whole -/

/-- A buffer that nothing after a stretch writes holds, after everything, what it holds after the stretch. -/
theorem read_seg {pre seg post : List (HloOp τ sig (Elt F))} {W : List (Ref sig .tc)}
    (hops : (ops : List (HloOp τ sig (Elt F))) = pre ++ (seg ++ post)) (hpost : WritesIn post W)
    (V : Valuation τ sig (Elt F)) {b : Ref sig .tc} (hb : b ∉ W) :
    after ops V (b : DevRef τ sig) = after seg (after pre V) (b : DevRef τ sig) := by
  rw [hops, after_append, after_append]
  exact after_of_writes_sub post _ hpost hb

/-- A buffer that nothing from some point on writes holds, after everything, what it held at that point. -/
theorem read_pre {pre sfx : List (HloOp τ sig (Elt F))} {W : List (Ref sig .tc)}
    (hops : (ops : List (HloOp τ sig (Elt F))) = pre ++ sfx) (hsfx : WritesIn sfx W)
    (V : Valuation τ sig (Elt F)) {i : Ref sig .tc} (hi : i ∉ W) :
    after pre V (i : DevRef τ sig) = after ops V (i : DevRef τ sig) := by
  rw [hops, after_append]
  exact (after_of_writes_sub sfx _ hsfx hi).symm

variable (V : Valuation τ sig (Elt F))

/-! ## The arguments: written by no operation -/

theorem x_arg {r : Ref sig .tc} (h : r ∉ wA0) : after ops V (r : DevRef τ sig) = V (r : DevRef τ sig) :=
  (read_pre split_A0 sfxA0_writes V (i := r) h).symm

theorem x_arg0 : after ops V (main_arg0 : DevRef τ sig) = V (main_arg0 : DevRef τ sig) := x_arg V (by decide)
theorem x_arg1 : after ops V (main_arg1 : DevRef τ sig) = V (main_arg1 : DevRef τ sig) := x_arg V (by decide)
theorem x_arg2 : after ops V (main_arg2 : DevRef τ sig) = V (main_arg2 : DevRef τ sig) := x_arg V (by decide)
theorem x_arg3 : after ops V (main_arg3 : DevRef τ sig) = V (main_arg3 : DevRef τ sig) := x_arg V (by decide)
theorem x_arg4 : after ops V (main_arg4 : DevRef τ sig) = V (main_arg4 : DevRef τ sig) := x_arg V (by decide)
theorem x_arg5 : after ops V (main_arg5 : DevRef τ sig) = V (main_arg5 : DevRef τ sig) := x_arg V (by decide)
theorem x_arg6 : after ops V (main_arg6 : DevRef τ sig) = V (main_arg6 : DevRef τ sig) := x_arg V (by decide)
theorem x_arg7 : after ops V (main_arg7 : DevRef τ sig) = V (main_arg7 : DevRef τ sig) := x_arg V (by decide)
theorem x_arg8 : after ops V (main_arg8 : DevRef τ sig) = V (main_arg8 : DevRef τ sig) := x_arg V (by decide)
theorem x_arg9 : after ops V (main_arg9 : DevRef τ sig) = V (main_arg9 : DevRef τ sig) := x_arg V (by decide)
theorem x_arg10 : after ops V (main_arg10 : DevRef τ sig) = V (main_arg10 : DevRef τ sig) := x_arg V (by decide)
theorem x_arg11 : after ops V (main_arg11 : DevRef τ sig) = V (main_arg11 : DevRef τ sig) := x_arg V (by decide)

/-! ## The stacked table and layer 1 -/

theorem x_v0 : after ops V (main_v0 : DevRef τ sig)
    = cat0 (V (main_arg0 : DevRef τ sig)) (V (main_arg1 : DevRef τ sig)) :=
  (read_seg split_A0 sfxS1_writes V (b := main_v0) (by decide)).trans (winA0 _)

theorem x_v13 : after ops V (main_v13 : DevRef τ sig)
    = spmm (after ops V (main_v0 : DevRef τ sig))
        (V (main_arg6 : DevRef τ sig)) (V (main_arg7 : DevRef τ sig)) (V (main_arg8 : DevRef τ sig)) := by
  rw [read_seg split_S1 sfxH1_writes V (b := main_v13) (by decide), winS1,
    read_pre split_S1 sfxS1_writes V (i := main_v0) (by decide),
    read_pre split_S1 sfxS1_writes V (i := main_arg6) (by decide),
    read_pre split_S1 sfxS1_writes V (i := main_arg7) (by decide),
    read_pre split_S1 sfxS1_writes V (i := main_arg8) (by decide), x_arg6, x_arg7, x_arg8]

theorem x_v32 : after ops V (main_v32 : DevRef τ sig)
    = refH (after ops V (main_v0 : DevRef τ sig)) (after ops V (main_v13 : DevRef τ sig))
        (wK 0 (V (main_arg2 : DevRef τ sig))) (bK 0 (V (main_arg3 : DevRef τ sig)))
        (wK 0 (V (main_arg4 : DevRef τ sig))) (bK 0 (V (main_arg5 : DevRef τ sig))) := by
  rw [read_seg split_H1 sfxN1_writes V (b := main_v32) (by decide), winH1,
    read_pre split_H1 sfxH1_writes V (i := main_v0) (by decide),
    read_pre split_H1 sfxH1_writes V (i := main_v13) (by decide),
    read_pre split_H1 sfxH1_writes V (i := main_arg2) (by decide),
    read_pre split_H1 sfxH1_writes V (i := main_arg3) (by decide),
    read_pre split_H1 sfxH1_writes V (i := main_arg4) (by decide),
    read_pre split_H1 sfxH1_writes V (i := main_arg5) (by decide), x_arg2, x_arg3, x_arg4, x_arg5]

theorem x_v37 : after ops V (main_v37 : DevRef τ sig) = refN (after ops V (main_v32 : DevRef τ sig)) := by
  rw [read_seg split_N1 sfxS2_writes V (b := main_v37) (by decide), winN1,
    read_pre split_N1 sfxN1_writes V (i := main_v32) (by decide)]

/-! ## Layer 2 -/

theorem x_v50 : after ops V (main_v50 : DevRef τ sig)
    = spmm (after ops V (main_v32 : DevRef τ sig))
        (V (main_arg6 : DevRef τ sig)) (V (main_arg7 : DevRef τ sig)) (V (main_arg8 : DevRef τ sig)) := by
  rw [read_seg split_S2 sfxH2a_writes V (b := main_v50) (by decide), winS2,
    read_pre split_S2 sfxS2_writes V (i := main_v32) (by decide),
    read_pre split_S2 sfxS2_writes V (i := main_arg6) (by decide),
    read_pre split_S2 sfxS2_writes V (i := main_arg7) (by decide),
    read_pre split_S2 sfxS2_writes V (i := main_arg8) (by decide), x_arg6, x_arg7, x_arg8]

theorem x_v69 : after ops V (main_v69 : DevRef τ sig)
    = refH (after ops V (main_v32 : DevRef τ sig)) (after ops V (main_v50 : DevRef τ sig))
        (wK 1 (V (main_arg2 : DevRef τ sig))) (bK 1 (V (main_arg3 : DevRef τ sig)))
        (wK 1 (V (main_arg4 : DevRef τ sig))) (bK 1 (V (main_arg5 : DevRef τ sig))) := by
  rw [read_seg split_H2b sfxN2_writes V (b := main_v69) (by decide),
    show after preH2b V = after segH2a (after preH2a V) from after_append preH2a segH2a V, winH2,
    read_pre split_H2a sfxH2a_writes V (i := main_v32) (by decide),
    read_pre split_H2a sfxH2a_writes V (i := main_v50) (by decide),
    read_pre split_H2a sfxH2a_writes V (i := main_arg2) (by decide),
    read_pre split_H2a sfxH2a_writes V (i := main_arg3) (by decide),
    read_pre split_H2a sfxH2a_writes V (i := main_arg4) (by decide),
    read_pre split_H2a sfxH2a_writes V (i := main_arg5) (by decide), x_arg2, x_arg3, x_arg4, x_arg5]

theorem x_v74 : after ops V (main_v74 : DevRef τ sig) = refN (after ops V (main_v69 : DevRef τ sig)) := by
  rw [read_seg split_N2 sfxS3_writes V (b := main_v74) (by decide), winN2,
    read_pre split_N2 sfxN2_writes V (i := main_v69) (by decide)]

/-! ## Layer 3 -/

theorem x_v87 : after ops V (main_v87 : DevRef τ sig)
    = spmm (after ops V (main_v69 : DevRef τ sig))
        (V (main_arg6 : DevRef τ sig)) (V (main_arg7 : DevRef τ sig)) (V (main_arg8 : DevRef τ sig)) := by
  rw [read_seg split_S3 sfxH3a_writes V (b := main_v87) (by decide), winS3,
    read_pre split_S3 sfxS3_writes V (i := main_v69) (by decide),
    read_pre split_S3 sfxS3_writes V (i := main_arg6) (by decide),
    read_pre split_S3 sfxS3_writes V (i := main_arg7) (by decide),
    read_pre split_S3 sfxS3_writes V (i := main_arg8) (by decide), x_arg6, x_arg7, x_arg8]

theorem x_v106 : after ops V (main_v106 : DevRef τ sig)
    = refH (after ops V (main_v69 : DevRef τ sig)) (after ops V (main_v87 : DevRef τ sig))
        (wK 2 (V (main_arg2 : DevRef τ sig))) (bK 2 (V (main_arg3 : DevRef τ sig)))
        (wK 2 (V (main_arg4 : DevRef τ sig))) (bK 2 (V (main_arg5 : DevRef τ sig))) := by
  rw [read_seg split_H3b sfxN3_writes V (b := main_v106) (by decide),
    show after preH3b V = after segH3a (after preH3a V) from after_append preH3a segH3a V, winH3,
    read_pre split_H3a sfxH3a_writes V (i := main_v69) (by decide),
    read_pre split_H3a sfxH3a_writes V (i := main_v87) (by decide),
    read_pre split_H3a sfxH3a_writes V (i := main_arg2) (by decide),
    read_pre split_H3a sfxH3a_writes V (i := main_arg3) (by decide),
    read_pre split_H3a sfxH3a_writes V (i := main_arg4) (by decide),
    read_pre split_H3a sfxH3a_writes V (i := main_arg5) (by decide), x_arg2, x_arg3, x_arg4, x_arg5]

theorem x_v111 : after ops V (main_v111 : DevRef τ sig) = refN (after ops V (main_v106 : DevRef τ sig)) := by
  rw [read_seg split_N3 segT_writes V (b := main_v111) (by decide), winN3,
    read_pre split_N3 sfxN3_writes V (i := main_v106) (by decide)]

/-! ## The four embeddings side by side and the three results -/

/-- After everything a buffer holds what it holds after the last stretch. -/
theorem x_last (b : Ref sig .tc) :
    after ops V (b : DevRef τ sig) = after segT (after preT V) (b : DevRef τ sig) := by
  rw [split_T, after_append]

theorem x_v112 : after ops V (main_v112 : DevRef τ sig)
    = cat4 (after ops V (main_v0 : DevRef τ sig)) (after ops V (main_v37 : DevRef τ sig))
        (after ops V (main_v74 : DevRef τ sig)) (after ops V (main_v111 : DevRef τ sig)) := by
  rw [x_last V main_v112, winT112,
    read_pre split_T segT_writes V (i := main_v0) (by decide),
    read_pre split_T segT_writes V (i := main_v37) (by decide),
    read_pre split_T segT_writes V (i := main_v74) (by decide),
    read_pre split_T segT_writes V (i := main_v111) (by decide)]

theorem x_v121 : after ops V (main_v121 : DevRef τ sig)
    = tailU (after ops V (main_v112 : DevRef τ sig)) (V (main_arg9 : DevRef τ sig)) := by
  rw [x_last V main_v121, x_last V main_v112, winT121, winT112,
    read_pre split_T segT_writes V (i := main_arg9) (by decide), x_arg9]

theorem x_v128 : after ops V (main_v128 : DevRef τ sig)
    = tailI (after ops V (main_v112 : DevRef τ sig)) (V (main_arg10 : DevRef τ sig)) := by
  rw [x_last V main_v128, x_last V main_v112, winT128, winT112,
    read_pre split_T segT_writes V (i := main_arg10) (by decide), x_arg10]

theorem x_v135 : after ops V (main_v135 : DevRef τ sig)
    = tailI (after ops V (main_v112 : DevRef τ sig)) (V (main_arg11 : DevRef τ sig)) := by
  rw [x_last V main_v135, x_last V main_v112, winT135, winT112,
    read_pre split_T segT_writes V (i := main_arg11) (by decide), x_arg11]

end Cert.ReferenceIdeal.RefRun

end
-- ==== Proof.RefRunPred.lean ====
/-
  The reference's run as one statement about the whole network: every weakly fair execution of @main terminates, its
  three results are the gathered batches of rows of the network's 256 prediction columns (a function of the nine
  arrays the network reads, at their launch contents), and the twelve arguments end as they were. It is the
  layer-by-layer reading composed: a layer's un-normalised output is the dense layer of the current embeddings and
  their aggregate, and the next layer reads that output.
-/
import proofs.«133046_j55070070670115_1_alg».proof.Proof.RefRun
import proofs.«133046_j55070070670115_1_alg».proof.Proof.NetSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.Hand

variable {F : FTy → Type} [FloatOps F] [Cert.ReferenceIdeal.Facts]

section
variable (V : Valuation τ sig (Elt F))

/-- Layer 1's un-normalised output is the first layer of the stacked table. -/
theorem x_layer0 : after ops V (main_v32 : DevRef τ sig)
    = Cert.Net.layer (V (main_arg2 : DevRef τ sig)) (V (main_arg3 : DevRef τ sig)) (V (main_arg4 : DevRef τ sig))
        (V (main_arg5 : DevRef τ sig)) (V (main_arg6 : DevRef τ sig)) (V (main_arg7 : DevRef τ sig))
        (V (main_arg8 : DevRef τ sig)) 0 (after ops V (main_v0 : DevRef τ sig)) := by
  rw [x_v32, x_v13]; rfl

/-- Layer 2's un-normalised output is the second layer of layer 1's. -/
theorem x_layer1 : after ops V (main_v69 : DevRef τ sig)
    = Cert.Net.layer (V (main_arg2 : DevRef τ sig)) (V (main_arg3 : DevRef τ sig)) (V (main_arg4 : DevRef τ sig))
        (V (main_arg5 : DevRef τ sig)) (V (main_arg6 : DevRef τ sig)) (V (main_arg7 : DevRef τ sig))
        (V (main_arg8 : DevRef τ sig)) 1 (after ops V (main_v32 : DevRef τ sig)) := by
  rw [x_v69, x_v50]; rfl

/-- Layer 3's un-normalised output is the third layer of layer 2's. -/
theorem x_layer2 : after ops V (main_v106 : DevRef τ sig)
    = Cert.Net.layer (V (main_arg2 : DevRef τ sig)) (V (main_arg3 : DevRef τ sig)) (V (main_arg4 : DevRef τ sig))
        (V (main_arg5 : DevRef τ sig)) (V (main_arg6 : DevRef τ sig)) (V (main_arg7 : DevRef τ sig))
        (V (main_arg8 : DevRef τ sig)) 2 (after ops V (main_v69 : DevRef τ sig)) := by
  rw [x_v106, x_v87]; rfl

/-- The four embeddings side by side are the network's prediction columns of the nine arrays it reads. -/
theorem x_pred : after ops V (main_v112 : DevRef τ sig)
    = Cert.Net.pred (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [x_v112, x_v111, x_v74, x_v37, x_layer2, x_layer1, x_layer0, x_v0]; rfl

theorem res_v121 : after ops V (main_v121 : DevRef τ sig)
    = tailU (Cert.Net.pred (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)))
        (V (main_arg9 : DevRef τ sig)) := by
  rw [x_v121, x_pred]

theorem res_v128 : after ops V (main_v128 : DevRef τ sig)
    = tailI (Cert.Net.pred (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)))
        (V (main_arg10 : DevRef τ sig)) := by
  rw [x_v128, x_pred]

theorem res_v135 : after ops V (main_v135 : DevRef τ sig)
    = tailI (Cert.Net.pred (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)))
        (V (main_arg11 : DevRef τ sig)) := by
  rw [x_v135, x_pred]

end

/-- On every device, for any float values, from any memory with zero counters: every weakly fair execution of @main
    terminates with the three results the gathered rows of the network's prediction columns at the launch contents
    of the arguments, and the arguments unchanged. -/
theorem run_pred (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121)
          = tailU (Cert.Net.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
              (m ((c.tc : Thread nD τ).loc main_arg9))
      ∧ r.2.mem ((c.tc : Thread nD τ).loc main_v128)
          = tailI (Cert.Net.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
              (m ((c.tc : Thread nD τ).loc main_arg10))
      ∧ r.2.mem ((c.tc : Thread nD τ).loc main_v135)
          = tailI (Cert.Net.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c main_v121).trans (res_v121 _), (h c main_v128).trans (res_v128 _), (h c main_v135).trans (res_v135 _),
      (h c main_arg0).trans (x_arg0 _), (h c main_arg1).trans (x_arg1 _), (h c main_arg2).trans (x_arg2 _),
      (h c main_arg3).trans (x_arg3 _), (h c main_arg4).trans (x_arg4 _), (h c main_arg5).trans (x_arg5 _),
      (h c main_arg6).trans (x_arg6 _), (h c main_arg7).trans (x_arg7 _), (h c main_arg8).trans (x_arg8 _),
      (h c main_arg9).trans (x_arg9 _), (h c main_arg10).trans (x_arg10 _), (h c main_arg11).trans (x_arg11 _)⟩)
    (run m ρ)

end Cert.ReferenceIdeal.RefRun

end
-- ==== Proof.lean ====
/-
  The certificate of a three-layer graph message-passing network: a kernel program whose dense layer (two 64×64 linear
  maps of the aggregated neighbours and of their product with the node's own embedding, a leaky rectifier, a row
  normalisation) runs as a pallas call per layer over row blocks of 10000 nodes, against a reference that computes the
  same layer on the host.

  Frames. Each kernel program is four host stretches around three pallas calls; its run is assembled from the calls'
  bodies (each run once symbolically on whole blocks) and ends with every buffer at a fold of the launch memory, from
  which each argument is read back unchanged. The reference is a straight line of host operations.

  Values, at the extended reals. A pallas call's two output arrays are the reference's layer function and its
  normalisation of the arrays the call is entered with: row y of block t is row 10000·t + y, the four-term sum is
  regrouped by associativity of + on the extended reals, the rectifier's product is commuted, a matrix product into a
  zero accumulator is the host's dot product, a lane sum is the host's sum. The host stretches of the two programs are
  the same operations, so both programs' results are one function of the arguments, `Cert.Net.pred`, gathered at the
  three index batches. No finiteness of the inputs is used.
-/
import proofs.«133046_j55070070670115_1_alg».proof.Defs
import proofs.«133046_j55070070670115_1_alg».proof.Proof.Gen.Kernel
import proofs.«133046_j55070070670115_1_alg».proof.Proof.Gen.KernelIdeal
import proofs.«133046_j55070070670115_1_alg».proof.Proof.Gen.ReferenceIdeal
import proofs.«133046_j55070070670115_1_alg».proof.Proof.Gen.Pre_finite_inputs
import proofs.«133046_j55070070670115_1_alg».proof.Proof.KRun
import proofs.«133046_j55070070670115_1_alg».proof.Proof.IRun
import proofs.«133046_j55070070670115_1_alg».proof.Proof.IBridge
import proofs.«133046_j55070070670115_1_alg».proof.Proof.RefRunPred
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.RefRun (tailU tailI)

/-- The kernel program runs and leaves its twelve argument arrays as launched. -/
theorem frame_k : Cert.frame_Kernel := fun m ρ _ =>
  (θ_run Cert.Kernel.defs _ _).mono (fun r h c => ⟨
      (h c _ (Cert.Kernel.Frm.mem_uc Cert.Kernel.main_arg0 (by decide))).trans (Cert.Kernel.Frm.W7_launch m c Cert.Kernel.main_arg0 (by decide) (by decide) (by decide) (by decide) (by decide) (by decide) (by decide)),
      (h c _ (Cert.Kernel.Frm.mem_uc Cert.Kernel.main_arg1 (by decide))).trans (Cert.Kernel.Frm.W7_launch m c Cert.Kernel.main_arg1 (by decide) (by decide) (by decide) (by decide) (by decide) (by decide) (by decide)),
      (h c _ (Cert.Kernel.Frm.mem_uc Cert.Kernel.main_arg2 (by decide))).trans (Cert.Kernel.Frm.W7_launch m c Cert.Kernel.main_arg2 (by decide) (by decide) (by decide) (by decide) (by decide) (by decide) (by decide)),
      (h c _ (Cert.Kernel.Frm.mem_uc Cert.Kernel.main_arg3 (by decide))).trans (Cert.Kernel.Frm.W7_launch m c Cert.Kernel.main_arg3 (by decide) (by decide) (by decide) (by decide) (by decide) (by decide) (by decide)),
      (h c _ (Cert.Kernel.Frm.mem_uc Cert.Kernel.main_arg4 (by decide))).trans (Cert.Kernel.Frm.W7_launch m c Cert.Kernel.main_arg4 (by decide) (by decide) (by decide) (by decide) (by decide) (by decide) (by decide)),
      (h c _ (Cert.Kernel.Frm.mem_uc Cert.Kernel.main_arg5 (by decide))).trans (Cert.Kernel.Frm.W7_launch m c Cert.Kernel.main_arg5 (by decide) (by decide) (by decide) (by decide) (by decide) (by decide) (by decide)),
      (h c _ (Cert.Kernel.Frm.mem_uc Cert.Kernel.main_arg6 (by decide))).trans (Cert.Kernel.Frm.W7_launch m c Cert.Kernel.main_arg6 (by decide) (by decide) (by decide) (by decide) (by decide) (by decide) (by decide)),
      (h c _ (Cert.Kernel.Frm.mem_uc Cert.Kernel.main_arg7 (by decide))).trans (Cert.Kernel.Frm.W7_launch m c Cert.Kernel.main_arg7 (by decide) (by decide) (by decide) (by decide) (by decide) (by decide) (by decide)),
      (h c _ (Cert.Kernel.Frm.mem_uc Cert.Kernel.main_arg8 (by decide))).trans (Cert.Kernel.Frm.W7_launch m c Cert.Kernel.main_arg8 (by decide) (by decide) (by decide) (by decide) (by decide) (by decide) (by decide)),
      (h c _ (Cert.Kernel.Frm.mem_uc Cert.Kernel.main_arg9 (by decide))).trans (Cert.Kernel.Frm.W7_launch m c Cert.Kernel.main_arg9 (by decide) (by decide) (by decide) (by decide) (by decide) (by decide) (by decide)),
      (h c _ (Cert.Kernel.Frm.mem_uc Cert.Kernel.main_arg10 (by decide))).trans (Cert.Kernel.Frm.W7_launch m c Cert.Kernel.main_arg10 (by decide) (by decide) (by decide) (by decide) (by decide) (by decide) (by decide)),
      (h c _ (Cert.Kernel.Frm.mem_uc Cert.Kernel.main_arg11 (by decide))).trans (Cert.Kernel.Frm.W7_launch m c Cert.Kernel.main_arg11 (by decide) (by decide) (by decide) (by decide) (by decide) (by decide) (by decide))⟩)
    (Cert.Kernel.Frm.run_all (F := Bits) m ρ)

/-- The idealized kernel program's run: the three results are the gathered batches of the network's prediction
    columns, and the twelve argument arrays end as launched. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v82) = tailU (F := Ideal) (Cert.Net.pred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v89) = tailI (F := Ideal) (Cert.Net.pred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_v96) = tailI (F := Ideal) (Cert.Net.pred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun r h c => ⟨
      (h c _ (Cert.KernelIdeal.Frm.mem_uc Cert.KernelIdeal.main_v82 (by decide))).trans (Cert.KernelIdeal.Val.result_u m c),
      (h c _ (Cert.KernelIdeal.Frm.mem_uc Cert.KernelIdeal.main_v89 (by decide))).trans (Cert.KernelIdeal.Val.result_i m c),
      (h c _ (Cert.KernelIdeal.Frm.mem_uc Cert.KernelIdeal.main_v96 (by decide))).trans (Cert.KernelIdeal.Val.result_j m c),
      (h c _ (Cert.KernelIdeal.Frm.mem_uc Cert.KernelIdeal.main_arg0 (by decide))).trans (Cert.KernelIdeal.Frm.W7_launch m c Cert.KernelIdeal.main_arg0 (by decide) (by decide) (by decide) (by decide) (by decide) (by decide) (by decide)),
      (h c _ (Cert.KernelIdeal.Frm.mem_uc Cert.KernelIdeal.main_arg1 (by decide))).trans (Cert.KernelIdeal.Frm.W7_launch m c Cert.KernelIdeal.main_arg1 (by decide) (by decide) (by decide) (by decide) (by decide) (by decide) (by decide)),
      (h c _ (Cert.KernelIdeal.Frm.mem_uc Cert.KernelIdeal.main_arg2 (by decide))).trans (Cert.KernelIdeal.Frm.W7_launch m c Cert.KernelIdeal.main_arg2 (by decide) (by decide) (by decide) (by decide) (by decide) (by decide) (by decide)),
      (h c _ (Cert.KernelIdeal.Frm.mem_uc Cert.KernelIdeal.main_arg3 (by decide))).trans (Cert.KernelIdeal.Frm.W7_launch m c Cert.KernelIdeal.main_arg3 (by decide) (by decide) (by decide) (by decide) (by decide) (by decide) (by decide)),
      (h c _ (Cert.KernelIdeal.Frm.mem_uc Cert.KernelIdeal.main_arg4 (by decide))).trans (Cert.KernelIdeal.Frm.W7_launch m c Cert.KernelIdeal.main_arg4 (by decide) (by decide) (by decide) (by decide) (by decide) (by decide) (by decide)),
      (h c _ (Cert.KernelIdeal.Frm.mem_uc Cert.KernelIdeal.main_arg5 (by decide))).trans (Cert.KernelIdeal.Frm.W7_launch m c Cert.KernelIdeal.main_arg5 (by decide) (by decide) (by decide) (by decide) (by decide) (by decide) (by decide)),
      (h c _ (Cert.KernelIdeal.Frm.mem_uc Cert.KernelIdeal.main_arg6 (by decide))).trans (Cert.KernelIdeal.Frm.W7_launch m c Cert.KernelIdeal.main_arg6 (by decide) (by decide) (by decide) (by decide) (by decide) (by decide) (by decide)),
      (h c _ (Cert.KernelIdeal.Frm.mem_uc Cert.KernelIdeal.main_arg7 (by decide))).trans (Cert.KernelIdeal.Frm.W7_launch m c Cert.KernelIdeal.main_arg7 (by decide) (by decide) (by decide) (by decide) (by decide) (by decide) (by decide)),
      (h c _ (Cert.KernelIdeal.Frm.mem_uc Cert.KernelIdeal.main_arg8 (by decide))).trans (Cert.KernelIdeal.Frm.W7_launch m c Cert.KernelIdeal.main_arg8 (by decide) (by decide) (by decide) (by decide) (by decide) (by decide) (by decide)),
      (h c _ (Cert.KernelIdeal.Frm.mem_uc Cert.KernelIdeal.main_arg9 (by decide))).trans (Cert.KernelIdeal.Frm.W7_launch m c Cert.KernelIdeal.main_arg9 (by decide) (by decide) (by decide) (by decide) (by decide) (by decide) (by decide)),
      (h c _ (Cert.KernelIdeal.Frm.mem_uc Cert.KernelIdeal.main_arg10 (by decide))).trans (Cert.KernelIdeal.Frm.W7_launch m c Cert.KernelIdeal.main_arg10 (by decide) (by decide) (by decide) (by decide) (by decide) (by decide) (by decide)),
      (h c _ (Cert.KernelIdeal.Frm.mem_uc Cert.KernelIdeal.main_arg11 (by decide))).trans (Cert.KernelIdeal.Frm.W7_launch m c Cert.KernelIdeal.main_arg11 (by decide) (by decide) (by decide) (by decide) (by decide) (by decide) (by decide))⟩)
    (Cert.KernelIdeal.Frm.run_all (F := Ideal) m ρ)

/-- The idealized kernel program runs and leaves its arguments as launched: its run with the results dropped. -/
theorem frame_ki : Cert.frame_KernelIdeal := fun m ρ _ =>
  (θ_run Cert.KernelIdeal.defs _ _).mono (fun _ h c => (h c).2.2.2) (run_ki m ρ)

/-- The reference runs and leaves its arguments as launched: its run with the results dropped. -/
theorem frame_ri : Cert.frame_ReferenceIdeal := fun m ρ _ =>
  (θ_run Cert.ReferenceIdeal.defs _ _).mono (fun _ h c => (h c).2.2.2) (Cert.ReferenceIdeal.RefRun.run_pred (F := Ideal) m ρ)

/-- The ideal pass rewrote nothing: there is nothing to preserve. -/
theorem preserves : Cert.preserves_Kernel_KernelIdeal := trivial

/-- From memories that agree on the arguments both idealized programs end with the same three arrays: the network's
    prediction columns of the arguments, gathered at the three index batches. -/
theorem algebraic : Cert.algebraic_KernelIdeal_ReferenceIdeal := by
  intro m ρ m' ρ' _ hagree
  refine ⟨fun c => tailU (F := Ideal) (Cert.Net.pred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)), fun c => tailI (F := Ideal) (Cert.Net.pred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg10)),
    fun c => tailI (F := Ideal) (Cert.Net.pred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg11)), run_ki m ρ, ?_⟩
  refine (θ_run Cert.ReferenceIdeal.defs _ _).mono (fun r h c => ?_) (Cert.ReferenceIdeal.RefRun.run_pred (F := Ideal) m' ρ')
  obtain ⟨a0, a1, a2, a3, a4, a5, a6, a7, a8, a9, a10, a11⟩ := hagree c
  obtain ⟨r0, r1, r2, rest⟩ := h c
  refine ⟨r0.trans ?_, r1.trans ?_, r2.trans ?_, rest⟩
  · rw [a0, a1, a2, a3, a4, a5, a6, a7, a8, a9]
  · rw [a0, a1, a2, a3, a4, a5, a6, a7, a8, a10]
  · rw [a0, a1, a2, a3, a4, a5, a6, a7, a8, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
